-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v72)) (v3 : (c : Dev Cert.KernelIdeal.nD) → Buf (Elt Ideal) ((c.tc : Thread Cert.KernelIdeal.nD Cert.KernelIdeal.τ).loc Cert.KernelIdeal.main_v74)) (v4 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_v74) = v3 c
          ∧ r.2.mem ((c.tc : Thread Cert.KernelIdeal.nD Cert.KernelIdeal.τ).loc Cert.KernelIdeal.main_v76) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x768x768 : Shape := ⟨4, ![16, 2, 768, 768]⟩
abbrev S16x768x768 : Shape := ⟨3, ![16, 768, 768]⟩
abbrev S16x5x768x768 : Shape := ⟨4, ![16, 5, 768, 768]⟩
abbrev S_ : Shape := ⟨0, ![]⟩

class Facts : Prop where
  bcast_S_S16x2x768x768 : S_.BroadcastsInDim S16x2x768x768 (![] : Fin 0 → Fin S16x2x768x768.rank)
  reducesTo_S16x2x768x768_S_d0_1_2_3 : S16x2x768x768.ReducesTo [0, 1, 2, 3] S_
  h_S_ : 0 < S_.numel
  bcast_S_S16x5x768x768 : S_.BroadcastsInDim S16x5x768x768 (![] : Fin 0 → Fin S16x5x768x768.rank)
  reducesTo_S16x5x768x768_S_d0_1_2_3 : S16x5x768x768.ReducesTo [0, 1, 2, 3] S_

variable [Facts]

def fn {F : FTy → Type} [FloatOps F] (main_arg0 : FVec F S16x2x768x768 .f32) (main_arg1 : IVec S16x768x768 32) (main_arg2 : IVec S16x768x768 32) (main_arg3 : FVec F S16x5x768x768 .f32) : IVec S_ 1 :=
  let main_v0 : FVec F S16x2x768x768 .f32 := Host.absf main_arg0
  let main_cst : FVec F S_ .f32 := constant S_ .f32 0x7F800000#32
  let main_v1 : FVec F S16x2x768x768 .f32 := broadcastInDim S16x2x768x768 ![] bcast_S_S16x2x768x768 main_cst
  let main_v2 : IVec S16x2x768x768 1 := cmpf .olt main_v0 main_v1
  let main_c : IVec S_ 1 := constantI S_ 1 1#1
  let main_v3 : IVec S_ 1 := (fun x v => Host.reduce IntOp.andi x v reducesTo_S16x2x768x768_S_d0_1_2_3 h_S_) main_v2 main_c
  let main_v4 : FVec F S16x5x768x768 .f32 := Host.absf main_arg3
  let main_cst_0 : FVec F S_ .f32 := constant S_ .f32 0x7F800000#32
  let main_v5 : FVec F S16x5x768x768 .f32 := broadcastInDim S16x5x768x768 ![] bcast_S_S16x5x768x768 main_cst_0
  let main_v6 : IVec S16x5x768x768 1 := cmpf .olt main_v4 main_v5
  let main_c_1 : IVec S_ 1 := constantI S_ 1 1#1
  let main_v7 : IVec S_ 1 := (fun x v => Host.reduce IntOp.andi x v reducesTo_S16x5x768x768_S_d0_1_2_3 h_S_) main_v6 main_c_1
  let main_v8 : IVec S_ 1 := andi main_v3 main_v7
  main_v8
-- ==== Kernel.lean ====
abbrev S16x2x768x768 : Shape := ⟨4, ![16, 2, 768, 768]⟩
abbrev S16x768x768 : Shape := ⟨3, ![16, 768, 768]⟩
abbrev S16x5x768x768 : Shape := ⟨4, ![16, 5, 768, 768]⟩
abbrev S16x589824 : Shape := ⟨2, ![16, 589824]⟩
abbrev S_ : Shape := ⟨0, ![]⟩
abbrev S16x128 : Shape := ⟨2, ![16, 128]⟩
abbrev S16 : Shape := ⟨1, ![16]⟩
abbrev S16x1 : Shape := ⟨2, ![16, 1]⟩
abbrev S16x589824x1 : Shape := ⟨3, ![16, 589824, 1]⟩
abbrev S16x589824x2 : Shape := ⟨3, ![16, 589824, 2]⟩
abbrev S16x127 : Shape := ⟨2, ![16, 127]⟩
abbrev S128 : Shape := ⟨1, ![128]⟩
abbrev S1x128 : Shape := ⟨2, ![1, 128]⟩
abbrev S1 : Shape := ⟨1, ![1]⟩
abbrev S1x1x1 : Shape := ⟨3, ![1, 1, 1]⟩
abbrev S16x1x768x768 : Shape := ⟨4, ![16, 1, 768, 768]⟩
abbrev S16x1x1 : Shape := ⟨3, ![16, 1, 1]⟩
abbrev S1x2x384x768 : Shape := ⟨4, ![1, 2, 384, 768]⟩
abbrev S1x384x768 : Shape := ⟨3, ![1, 384, 768]⟩
abbrev S1x1x384x768 : Shape := ⟨4, ![1, 1, 384, 768]⟩
abbrev S384x768 : Shape := ⟨2, ![384, 768]⟩

abbrev nBuf : Space → Nat
  | .hbm => 130
  | .vmem => 10
  | .smem => 0
  | _ => 0

abbrev hbmTy0_0 (i : Nat) : BufTy := match i % 128 with
  | 0 => ⟨S16x2x768x768, .f32⟩
  | 1 => ⟨S16x768x768, .i32⟩
  | 2 => ⟨S16x768x768, .i32⟩
  | 3 => ⟨S16x5x768x768, .f32⟩
  | 4 => ⟨S16x589824, .i32⟩
  | 5 => ⟨S_, .f32⟩
  | 6 => ⟨S16x128, .f32⟩
  | 7 => ⟨S16, .i32⟩
  | 8 => ⟨S16x1, .i32⟩
  | 9 => ⟨S_, .i32⟩
  | 10 => ⟨S16x1, .i32⟩
  | 11 => ⟨S16x1, .i1⟩
  | 12 => ⟨S_, .i32⟩
  | 13 => ⟨S16x1, .i32⟩
  | 14 => ⟨S16x1, .i32⟩
  | 15 => ⟨S16x1, .i32⟩
  | 16 => ⟨S_, .i32⟩
  | 17 => ⟨S16x589824, .i32⟩
  | 18 => ⟨S16x589824, .i1⟩
  | 19 => ⟨S_, .i32⟩
  | 20 => ⟨S16x589824, .i32⟩
  | 21 => ⟨S16x589824, .i32⟩
  | 22 => ⟨S16x589824, .i32⟩
  | 23 => ⟨S16x589824, .i32⟩
  | 24 => ⟨S16x589824x1, .i32⟩
  | 25 => ⟨S16x589824x1, .i32⟩
  | 26 => ⟨S16x589824x2, .i32⟩
  | 27 => ⟨S_, .f32⟩
  | 28 => ⟨S16x589824, .f32⟩
  | 29 => ⟨S16x128, .f32⟩
  | 30 => ⟨S16x127, .f32⟩
  | 31 => ⟨S_, .f32⟩
  | 32 => ⟨S16x127, .f32⟩
  | 33 => ⟨S16x127, .i1⟩
  | 34 => ⟨S16x127, .i32⟩
  | 35 => ⟨S_, .i32⟩
  | 36 => ⟨S_, .i32⟩
  | 37 => ⟨S_, .f32⟩
  | 38 => ⟨S16x1, .f32⟩
  | 39 => ⟨S16, .f32⟩
  | 40 => ⟨S_, .f32⟩
  | 41 => ⟨S_, .f32⟩
  | 42 => ⟨S128, .i32⟩
  | 43 => ⟨S_, .i32⟩
  | 44 => ⟨S128, .i32⟩
  | 45 => ⟨S128, .i1⟩
  | 46 => ⟨S1x128, .i1⟩
  | 47 => ⟨S_, .f32⟩
  | 48 => ⟨S_, .f32⟩
  | 49 => ⟨S_, .f32⟩
  | 50 => ⟨S16x128, .f32⟩
  | 51 => ⟨S16x128, .f32⟩
  | 52 => ⟨S16x128, .f32⟩
  | 53 => ⟨S16x128, .f32⟩
  | 54 => ⟨S_, .f32⟩
  | 55 => ⟨S16x128, .f32⟩
  | 56 => ⟨S16x128, .f32⟩
  | 57 => ⟨S16x128, .i1⟩
  | 58 => ⟨S16x128, .f32⟩
  | 59 => ⟨S16x128, .f32⟩
  | 60 => ⟨S_, .f32⟩
  | 61 => ⟨S16x128, .f32⟩
  | 62 => ⟨S16x128, .f32⟩
  | 63 => ⟨S_, .i32⟩
  | 64 => ⟨S16x589824, .i32⟩
  | 65 => ⟨S16x589824, .i1⟩
  | 66 => ⟨S_, .i32⟩
  | 67 => ⟨S16x589824, .i32⟩
  | 68 => ⟨S16x589824, .i32⟩
  | 69 => ⟨S16x589824, .i32⟩
  | 70 => ⟨S16x589824x1, .i32⟩
  | 71 => ⟨S1, .i32⟩
  | 72 => ⟨S_, .i32⟩
  | 73 => ⟨S16x589824x1, .i32⟩
  | 74 => ⟨S16x589824x1, .i1⟩
  | 75 => ⟨S1x1x1, .i32⟩
  | 76 => ⟨S16x589824x1, .i32⟩
  | 77 => ⟨S16x589824x1, .i1⟩
  | 78 => ⟨S16x589824x1, .i1⟩
  | 79 => ⟨S_, .i1⟩
  | 80 => ⟨S16x589824, .i1⟩
  | 81 => ⟨S16x589824, .f32⟩
  | 82 => ⟨S_, .f32⟩
  | 83 => ⟨S16x589824, .f32⟩
  | 84 => ⟨S16x589824, .f32⟩
  | 85 => ⟨S16x768x768, .f32⟩
  | 86 => ⟨S16x1x768x768, .f32⟩
  | 87 => ⟨S16x1x768x768, .i32⟩
  | 88 => ⟨S_, .i32⟩
  | 89 => ⟨S16x1x768x768, .i32⟩
  | 90 => ⟨S16x1x768x768, .i1⟩
  | 91 => ⟨S_, .f32⟩
  | 92 => ⟨S_, .f32⟩
  | 93 => ⟨S16x1x768x768, .f32⟩
  | 94 => ⟨S16x1x768x768, .f32⟩
  | 95 => ⟨S16x1x768x768, .f32⟩
  | 96 => ⟨S16x1x768x768, .f32⟩
  | 97 => ⟨S16x1x768x768, .f32⟩
  | 98 => ⟨S16x768x768, .f32⟩
  | 99 => ⟨S16x1x1, .f32⟩
  | 100 => ⟨S16x1x1, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S_, .f32⟩
  | 112 => ⟨S16, .f32⟩
  | 113 => ⟨S16, .f32⟩
  | 114 => ⟨S16, .f32⟩
  | 115 => ⟨S16, .f32⟩
  | 116 => ⟨S_, .f32⟩
  | 117 => ⟨S_, .f32⟩
  | 118 => ⟨S_, .f32⟩
  | 119 => ⟨S_, .f32⟩
  | 120 => ⟨S16, .f32⟩
  | 121 => ⟨S16, .f32⟩
  | 122 => ⟨S16, .f32⟩
  | 123 => ⟨S16, .f32⟩
  | 124 => ⟨S16, .f32⟩
  | 125 => ⟨S16, .f32⟩
  | 126 => ⟨S16, .f32⟩
  | 127 => ⟨S16, .f32⟩
  | _ => ⟨S16x2x768x768, .f32⟩

abbrev hbmTy0_1 (i : Nat) : BufTy := match i % 128 with
  | 0 => ⟨S16, .f32⟩
  | 1 => ⟨S16, .f32⟩
  | _ => ⟨S16x2x768x768, .f32⟩

abbrev hbmTy (i : Nat) : BufTy := match i / 128 with
  | 0 => hbmTy0_0 i
  | 1 => hbmTy0_1 i
  | _ => ⟨S16x2x768x768, .f32⟩

abbrev bufTy : (tb : Table) → Fin (tcTables nBuf tb) → BufTy
  | .hbm, ⟨i, _⟩ => hbmTy i
  | .local _ .vmem, ⟨0, _⟩ => ⟨S1x2x384x768, .f32⟩
  | .local _ .vmem, ⟨1, _⟩ => ⟨S1x2x384x768, .f32⟩
  | .local _ .vmem, ⟨2, _⟩ => ⟨S1x2x384x768, .f32⟩
  | .local _ .vmem, ⟨3, _⟩ => ⟨S1x2x384x768, .f32⟩
  | .local _ .vmem, ⟨4, _⟩ => ⟨S1x384x768, .f32⟩
  | .local _ .vmem, ⟨5, _⟩ => ⟨S1x384x768, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | _, _ => ⟨S16x2x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_call0_v0 : Ref sig .tc := ⟨.hbm, 57, rfl⟩
abbrev main_call0_v1 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_cst : Ref sig .tc := ⟨.hbm, 82, rfl⟩
abbrev main_call1_v14 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_12 : Ref sig .tc := ⟨.hbm, 88, rfl⟩
abbrev main_v47 : Ref sig .tc := ⟨.hbm, 89, rfl⟩
abbrev main_v48 : Ref sig .tc := ⟨.hbm, 90, rfl⟩
abbrev main_cst_13 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53_0 : Ref sig .tc := ⟨.hbm, 99, rfl⟩
abbrev main_v53_1 : Ref sig .tc := ⟨.hbm, 100, rfl⟩
abbrev main_v54 : Ref sig .tc := ⟨.hbm, 101, rfl⟩
abbrev main_v55 : Ref sig .tc := ⟨.hbm, 102, rfl⟩
abbrev main_cst_15 : Ref sig .tc := ⟨.hbm, 103, rfl⟩
abbrev main_v56 : Ref sig .tc := ⟨.hbm, 104, rfl⟩
abbrev main_v57 : Ref sig .tc := ⟨.hbm, 105, rfl⟩
abbrev main_cst_16 : Ref sig .tc := ⟨.hbm, 106, rfl⟩
abbrev main_v58 : Ref sig .tc := ⟨.hbm, 107, rfl⟩
abbrev main_v59 : Ref sig .tc := ⟨.hbm, 108, rfl⟩
abbrev main_cst_17 : Ref sig .tc := ⟨.hbm, 109, rfl⟩
abbrev main_v60 : Ref sig .tc := ⟨.hbm, 110, rfl⟩
abbrev main_cst_18 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_19 : Ref sig .tc := ⟨.hbm, 116, rfl⟩
abbrev main_v65 : Ref sig .tc := ⟨.hbm, 117, rfl⟩
abbrev main_cst_20 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x384x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x384x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x768x768_S16x589824 : S16x768x768.ShapeCasts S16x589824
  bcast_S_S16x128 : S_.BroadcastsInDim S16x128 (![] : Fin 0 → Fin S16x128.rank)
  bcast_S16_S16x1_0 : S16.BroadcastsInDim S16x1 (![0] : Fin 1 → Fin S16x1.rank)
  bcast_S_S16x1 : S_.BroadcastsInDim S16x1 (![] : Fin 0 → Fin S16x1.rank)
  bcast_S_S16x589824 : S_.BroadcastsInDim S16x589824 (![] : Fin 0 → Fin S16x589824.rank)
  bcast_S16x1_S16x589824_0_1 : S16x1.BroadcastsInDim S16x589824 (![0, 1] : Fin 2 → Fin S16x589824.rank)
  bcast_S16x589824_S16x589824x1_0_1 : S16x589824.BroadcastsInDim S16x589824x1 (![0, 1] : Fin 2 → Fin S16x589824x1.rank)
  concatenates_S16x589824x1_S16x589824x1_S16x589824x2_d2 : Shape.Concatenates [S16x589824x1, S16x589824x1] S16x589824x2 2
  slices_S16x128_S16x127_0_1 : S16x128.Slices ![0, 1] S16x127
  bcast_S_S16x127 : S_.BroadcastsInDim S16x127 (![] : Fin 0 → Fin S16x127.rank)
  natLt_1_32 : 1 < 32
  reducesTo_S16x127_S_d0_1 : S16x127.ReducesTo [0, 1] S_
  h_S_ : 0 < S_.numel
  slices_S16x128_S16x1_0_0 : S16x128.Slices ![0, 0] S16x1
  shapeCasts_S16x1_S16 : S16x1.ShapeCasts S16
  reducesTo_S16_S_d0 : S16.ReducesTo [0] S_
  bcast_S_S128 : S_.BroadcastsInDim S128 (![] : Fin 0 → Fin S128.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  shapeCasts_S16x589824_S16x589824x1 : S16x589824.ShapeCasts S16x589824x1
  bcast_S_S16x589824x1 : S_.BroadcastsInDim S16x589824x1 (![] : Fin 0 → Fin S16x589824x1.rank)
  bcast_S1_S1x1x1_2 : S1.BroadcastsInDim S1x1x1 (![2] : Fin 1 → Fin S1x1x1.rank)
  bcast_S1x1x1_S16x589824x1_0_1_2 : S1x1x1.BroadcastsInDim S16x589824x1 (![0, 1, 2] : Fin 3 → Fin S16x589824x1.rank)
  reducesTo_S16x589824x1_S16x589824_d2 : S16x589824x1.ReducesTo [2] S16x589824
  shapeCasts_S16x589824_S16x768x768 : S16x589824.ShapeCasts S16x768x768
  bcast_S16x768x768_S16x1x768x768_0_2_3 : S16x768x768.BroadcastsInDim S16x1x768x768 (![0, 2, 3] : Fin 3 → Fin S16x1x768x768.rank)
  bcast_S_S16x1x768x768 : S_.BroadcastsInDim S16x1x768x768 (![] : Fin 0 → Fin S16x1x768x768.rank)
  shapeCasts_S16x1x768x768_S16x768x768 : S16x1x768x768.ShapeCasts S16x768x768
  inb_S1x1x1_S1x1x1_0_0_0 : ∀ a, (![0, 0, 0] : Fin 3 → Nat) a + S1x1x1.size a ≤ S1x1x1.size a
  h_S1x1x1 : 0 < S1x1x1.numel
  inb_S1x2x384x768_S1x1x384x768_0_0_0_0 : ∀ a, (![0, 0, 0, 0] : Fin 4 → Nat) a + S1x1x384x768.size a ≤ S1x2x384x768.size a
  h_S1x1x384x768 : 0 < S1x1x384x768.numel
  shapeCasts_S1x1x384x768_S384x768 : S1x1x384x768.ShapeCasts S384x768
  inb_S1x2x384x768_S1x1x384x768_0_1_0_0 : ∀ a, (![0, 1, 0, 0] : Fin 4 → Nat) a + S1x1x384x768.size a ≤ S1x2x384x768.size a
  inb_S1x384x768_S1x384x768_0_0_0 : ∀ a, (![0, 0, 0] : Fin 3 → Nat) a + S1x384x768.size a ≤ S1x384x768.size a
  h_S1x384x768 : 0 < S1x384x768.numel
  shapeCasts_S1x384x768_S384x768 : S1x384x768.ShapeCasts S384x768
  shapeCasts_S384x768_S1x384x768 : S384x768.ShapeCasts S1x384x768
  reduces_S1x384x768_S1 : S1x384x768.Reduces [1, 2] S1
  shapeCasts_S1_S1x1x1 : S1.ShapeCasts S1x1x1
  inpos_S1x1x1_p0_0_0 : ∀ a, (![0, 0, 0] : Fin 3 → Nat) a < S1x1x1.size a
  shapeCasts_S1x1x1_S1x1x1 : S1x1x1.ShapeCasts S1x1x1
  shapeCasts_S16x1x1_S16 : S16x1x1.ShapeCasts S16
  bcast_S_S16 : S_.BroadcastsInDim S16 (![] : Fin 0 → Fin S16.rank)
  reducesTo_S16x2x768x768_S_d0_1_2_3 : S16x2x768x768.ReducesTo [0, 1, 2, 3] S_
  scatter_S16x128_S16x589824x2_S16x589824_n_01_01_2_wf : ScatterDims.WF S16x128 S16x589824x2 S16x589824 [] [0, 1] [0, 1] 2
  gather_S16x128_S16x589824x1_S16x589824_n_1_0_0_1_2_11_wf : GatherDims.WF S16x128 S16x589824x1 S16x589824 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x384x768.size a ≤ S16x2x768x768.size a
  hwx0_0 : ∀ i : grid0.Coords, EltTy.bits .f32 = 32 ∨ (Rect.block (s := S16x2x768x768) S1x2x384x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x2x384x768.size a < S16x5x768x768.size a
  hwx0_1 : ∀ i : grid0.Coords, EltTy.bits .f32 = 32 ∨ (Rect.unit (s := S16x5x768x768) (fun a => cc0_transform_1 i a * S1x2x384x768.size a) (fun a => (Pipeline.Clip.of (cc0_transform_1 i a) (S1x2x384x768.size a) (S16x5x768x768.size a)).extent (S1x2x384x768.size a)) fun a => Pipeline.Clip.inb (Pipeline.Clip.ok_of (hstart0_1 i a))).WholeWords (EltTy.packing .f32)
  hwxs0_1 : ∀ i : grid0.Coords, EltTy.bits .f32 = 32 ∨ (Rect.unit (s := S1x2x384x768) (fun _ => 0) (fun a => (Pipeline.Clip.of (cc0_transform_1 i a) (S1x2x384x768.size a) (S16x5x768x768.size a)).extent (S1x2x384x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384x768.size a ≤ S16x768x768.size a
  hwx0_2 : ∀ i : grid0.Coords, EltTy.bits .f32 = 32 ∨ (Rect.block (s := S16x768x768) S1x384x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16x1x1.size a
  hwx0_4 : ∀ i : grid0.Coords, EltTy.bits .f32 = 32 ∨ (Rect.block (s := S16x1x1) S1x1x1.size (cc0_transform_4 i) (hinb0_4 i)).WholeWords (EltTy.packing .f32)

variable [Facts₀]

def scatter_S16x128_S16x589824x2_S16x589824_n_01_01_2 : ScatterDims S16x128 S16x589824x2 S16x589824 where
  updateWindowDims := []
  insertedWindowDims := [0, 1]
  scatterDimsToOperandDims := [0, 1]
  indexVectorDim := 2
  wf := scatter_S16x128_S16x589824x2_S16x589824_n_01_01_2_wf
def gather_S16x128_S16x589824x1_S16x589824_n_1_0_0_1_2_11 : GatherDims S16x128 S16x589824x1 S16x589824 where
  offsetDims := []
  collapsedSliceDims := [1]
  operandBatchingDims := [0]
  startIndicesBatchingDims := [0]
  startIndexMap := [1]
  indexVectorDim := 2
  sliceSizes := ![1, 1]
  wf := gather_S16x128_S16x589824x1_S16x589824_n_1_0_0_1_2_11_wf

abbrev win0_0 : Pipeline.Window sig grid0 :=
  Pipeline.Window.ofSpec (Memref.whole main_arg0) S1x2x384x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg3) S1x2x384x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v52) S1x384x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2x768x768 : Shape := ⟨4, ![16, 2, 768, 768]⟩
abbrev S16x768x768 : Shape := ⟨3, ![16, 768, 768]⟩
abbrev S16x5x768x768 : Shape := ⟨4, ![16, 5, 768, 768]⟩
abbrev S16x1x768x768 : Shape := ⟨4, ![16, 1, 768, 768]⟩
abbrev S16x589824 : Shape := ⟨2, ![16, 589824]⟩
abbrev S_ : Shape := ⟨0, ![]⟩
abbrev S16x128 : Shape := ⟨2, ![16, 128]⟩
abbrev S16 : Shape := ⟨1, ![16]⟩
abbrev S16x1 : Shape := ⟨2, ![16, 1]⟩
abbrev S16x589824x1 : Shape := ⟨3, ![16, 589824, 1]⟩
abbrev S16x589824x2 : Shape := ⟨3, ![16, 589824, 2]⟩
abbrev S16x127 : Shape := ⟨2, ![16, 127]⟩
abbrev S128 : Shape := ⟨1, ![128]⟩
abbrev S1x128 : Shape := ⟨2, ![1, 128]⟩
abbrev S1 : Shape := ⟨1, ![1]⟩
abbrev S1x1x1 : Shape := ⟨3, ![1, 1, 1]⟩

abbrev nBuf : Space → Nat
  | .hbm => 139
  | .vmem => 0
  | .smem => 0
  | _ => 0

abbrev hbmTy0_0 (i : Nat) : BufTy := match i % 128 with
  | 0 => ⟨S16x2x768x768, .f32⟩
  | 1 => ⟨S16x768x768, .i32⟩
  | 2 => ⟨S16x768x768, .i32⟩
  | 3 => ⟨S16x5x768x768, .f32⟩
  | 4 => ⟨S16x1x768x768, .f32⟩
  | 5 => ⟨S16x1x768x768, .f32⟩
  | 6 => ⟨S16x1x768x768, .f32⟩
  | 7 => ⟨S16x1x768x768, .f32⟩
  | 8 => ⟨S16x589824, .i32⟩
  | 9 => ⟨S_, .f32⟩
  | 10 => ⟨S16x128, .f32⟩
  | 11 => ⟨S16, .i32⟩
  | 12 => ⟨S16x1, .i32⟩
  | 13 => ⟨S_, .i32⟩
  | 14 => ⟨S16x1, .i32⟩
  | 15 => ⟨S16x1, .i1⟩
  | 16 => ⟨S_, .i32⟩
  | 17 => ⟨S16x1, .i32⟩
  | 18 => ⟨S16x1, .i32⟩
  | 19 => ⟨S16x1, .i32⟩
  | 20 => ⟨S_, .i32⟩
  | 21 => ⟨S16x589824, .i32⟩
  | 22 => ⟨S16x589824, .i1⟩
  | 23 => ⟨S_, .i32⟩
  | 24 => ⟨S16x589824, .i32⟩
  | 25 => ⟨S16x589824, .i32⟩
  | 26 => ⟨S16x589824, .i32⟩
  | 27 => ⟨S16x589824, .i32⟩
  | 28 => ⟨S16x589824x1, .i32⟩
  | 29 => ⟨S16x589824x1, .i32⟩
  | 30 => ⟨S16x589824x2, .i32⟩
  | 31 => ⟨S_, .f32⟩
  | 32 => ⟨S16x589824, .f32⟩
  | 33 => ⟨S16x128, .f32⟩
  | 34 => ⟨S16x127, .f32⟩
  | 35 => ⟨S_, .f32⟩
  | 36 => ⟨S16x127, .f32⟩
  | 37 => ⟨S16x127, .i1⟩
  | 38 => ⟨S16x127, .i32⟩
  | 39 => ⟨S_, .i32⟩
  | 40 => ⟨S_, .i32⟩
  | 41 => ⟨S_, .f32⟩
  | 42 => ⟨S16x1, .f32⟩
  | 43 => ⟨S16, .f32⟩
  | 44 => ⟨S_, .f32⟩
  | 45 => ⟨S_, .f32⟩
  | 46 => ⟨S128, .i32⟩
  | 47 => ⟨S_, .i32⟩
  | 48 => ⟨S128, .i32⟩
  | 49 => ⟨S128, .i1⟩
  | 50 => ⟨S1x128, .i1⟩
  | 51 => ⟨S_, .f32⟩
  | 52 => ⟨S_, .f32⟩
  | 53 => ⟨S_, .f32⟩
  | 54 => ⟨S16x128, .f32⟩
  | 55 => ⟨S16x128, .f32⟩
  | 56 => ⟨S16x128, .f32⟩
  | 57 => ⟨S16x128, .f32⟩
  | 58 => ⟨S_, .f32⟩
  | 59 => ⟨S16x128, .f32⟩
  | 60 => ⟨S16x128, .f32⟩
  | 61 => ⟨S16x128, .i1⟩
  | 62 => ⟨S16x128, .f32⟩
  | 63 => ⟨S16x128, .f32⟩
  | 64 => ⟨S_, .f32⟩
  | 65 => ⟨S16x128, .f32⟩
  | 66 => ⟨S16x128, .f32⟩
  | 67 => ⟨S_, .i32⟩
  | 68 => ⟨S16x589824, .i32⟩
  | 69 => ⟨S16x589824, .i1⟩
  | 70 => ⟨S_, .i32⟩
  | 71 => ⟨S16x589824, .i32⟩
  | 72 => ⟨S16x589824, .i32⟩
  | 73 => ⟨S16x589824, .i32⟩
  | 74 => ⟨S16x589824x1, .i32⟩
  | 75 => ⟨S1, .i32⟩
  | 76 => ⟨S_, .i32⟩
  | 77 => ⟨S16x589824x1, .i32⟩
  | 78 => ⟨S16x589824x1, .i1⟩
  | 79 => ⟨S1x1x1, .i32⟩
  | 80 => ⟨S16x589824x1, .i32⟩
  | 81 => ⟨S16x589824x1, .i1⟩
  | 82 => ⟨S16x589824x1, .i1⟩
  | 83 => ⟨S_, .i1⟩
  | 84 => ⟨S16x589824, .i1⟩
  | 85 => ⟨S16x589824, .f32⟩
  | 86 => ⟨S_, .f32⟩
  | 87 => ⟨S16x589824, .f32⟩
  | 88 => ⟨S16x589824, .f32⟩
  | 89 => ⟨S16x768x768, .f32⟩
  | 90 => ⟨S16x1x768x768, .f32⟩
  | 91 => ⟨S16x1x768x768, .i32⟩
  | 92 => ⟨S_, .i32⟩
  | 93 => ⟨S16x1x768x768, .i32⟩
  | 94 => ⟨S16x1x768x768, .i1⟩
  | 95 => ⟨S_, .f32⟩
  | 96 => ⟨S_, .f32⟩
  | 97 => ⟨S16x1x768x768, .f32⟩
  | 98 => ⟨S16x1x768x768, .f32⟩
  | 99 => ⟨S16x1x768x768, .f32⟩
  | 100 => ⟨S16x1x768x768, .f32⟩
  | 101 => ⟨S16x1x768x768, .f32⟩
  | 102 => ⟨S16x1x768x768, .f32⟩
  | 103 => ⟨S16x1x768x768, .f32⟩
  | 104 => ⟨S16x1x768x768, .f32⟩
  | 105 => ⟨S_, .f32⟩
  | 106 => ⟨S16, .f32⟩
  | 107 => ⟨S16x1x768x768, .f32⟩
  | 108 => ⟨S16x1x768x768, .f32⟩
  | 109 => ⟨S16x1x768x768, .f32⟩
  | 110 => ⟨S_, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S_, .f32⟩
  | 121 => ⟨S16, .f32⟩
  | 122 => ⟨S16, .f32⟩
  | 123 => ⟨S16, .f32⟩
  | 124 => ⟨S16, .f32⟩
  | 125 => ⟨S_, .f32⟩
  | 126 => ⟨S_, .f32⟩
  | 127 => ⟨S_, .f32⟩
  | _ => ⟨S16x2x768x768, .f32⟩

abbrev hbmTy0_1 (i : Nat) : BufTy := match i % 128 with
  | 0 => ⟨S_, .f32⟩
  | 1 => ⟨S16, .f32⟩
  | 2 => ⟨S16, .f32⟩
  | 3 => ⟨S16, .f32⟩
  | 4 => ⟨S16, .f32⟩
  | 5 => ⟨S16, .f32⟩
  | 6 => ⟨S16, .f32⟩
  | 7 => ⟨S16, .f32⟩
  | 8 => ⟨S16, .f32⟩
  | 9 => ⟨S16, .f32⟩
  | 10 => ⟨S16, .f32⟩
  | _ => ⟨S16x2x768x768, .f32⟩

abbrev hbmTy (i : Nat) : BufTy := match i / 128 with
  | 0 => hbmTy0_0 i
  | 1 => hbmTy0_1 i
  | _ => ⟨S16x2x768x768, .f32⟩

abbrev bufTy : (tb : Table) → Fin (tcTables nBuf tb) → BufTy
  | .hbm, ⟨i, _⟩ => hbmTy i
  | _, _ => ⟨S16x2x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_call0_v0 : Ref sig .tc := ⟨.hbm, 61, rfl⟩
abbrev main_call0_v1 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_cst : Ref sig .tc := ⟨.hbm, 86, rfl⟩
abbrev main_call1_v14 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_c_12 : Ref sig .tc := ⟨.hbm, 92, rfl⟩
abbrev main_v51 : Ref sig .tc := ⟨.hbm, 93, rfl⟩
abbrev main_v52 : Ref sig .tc := ⟨.hbm, 94, rfl⟩
abbrev main_cst_13 : Ref sig .tc := ⟨.hbm, 95, rfl⟩
abbrev main_cst_14 : Ref sig .tc := ⟨.hbm, 96, rfl⟩
abbrev main_call2_v0 : Ref sig .tc := ⟨.hbm, 97, rfl⟩
abbrev main_call2_v1 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_15 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_16 : Ref sig .tc := ⟨.hbm, 110, rfl⟩
abbrev main_v63 : Ref sig .tc := ⟨.hbm, 111, rfl⟩
abbrev main_cst_17 : Ref sig .tc := ⟨.hbm, 112, rfl⟩
abbrev main_v64 : Ref sig .tc := ⟨.hbm, 113, rfl⟩
abbrev main_v65 : Ref sig .tc := ⟨.hbm, 114, rfl⟩
abbrev main_cst_18 : Ref sig .tc := ⟨.hbm, 115, rfl⟩
abbrev main_v66 : Ref sig .tc := ⟨.hbm, 116, rfl⟩
abbrev main_v67 : Ref sig .tc := ⟨.hbm, 117, rfl⟩
abbrev main_cst_19 : Ref sig .tc := ⟨.hbm, 118, rfl⟩
abbrev main_v68 : Ref sig .tc := ⟨.hbm, 119, rfl⟩
abbrev main_cst_20 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_21 : Ref sig .tc := ⟨.hbm, 125, rfl⟩
abbrev main_v73 : Ref sig .tc := ⟨.hbm, 126, rfl⟩
abbrev main_cst_22 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩

abbrev nD : Nat := 1
abbrev τ : Topo := Topo.v7x

variable {F : FTy → Type} [FloatOps F]

class Facts₀ : Prop where
  slices_S16x2x768x768_S16x1x768x768_0_0_0_0 : S16x2x768x768.Slices ![0, 0, 0, 0] S16x1x768x768
  slices_S16x2x768x768_S16x1x768x768_0_1_0_0 : S16x2x768x768.Slices ![0, 1, 0, 0] S16x1x768x768
  slices_S16x5x768x768_S16x1x768x768_0_2_0_0 : S16x5x768x768.Slices ![0, 2, 0, 0] S16x1x768x768
  slices_S16x5x768x768_S16x1x768x768_0_3_0_0 : S16x5x768x768.Slices ![0, 3, 0, 0] S16x1x768x768
  shapeCasts_S16x768x768_S16x589824 : S16x768x768.ShapeCasts S16x589824
  bcast_S_S16x128 : S_.BroadcastsInDim S16x128 (![] : Fin 0 → Fin S16x128.rank)
  bcast_S16_S16x1_0 : S16.BroadcastsInDim S16x1 (![0] : Fin 1 → Fin S16x1.rank)
  bcast_S_S16x1 : S_.BroadcastsInDim S16x1 (![] : Fin 0 → Fin S16x1.rank)
  bcast_S_S16x589824 : S_.BroadcastsInDim S16x589824 (![] : Fin 0 → Fin S16x589824.rank)
  bcast_S16x1_S16x589824_0_1 : S16x1.BroadcastsInDim S16x589824 (![0, 1] : Fin 2 → Fin S16x589824.rank)
  bcast_S16x589824_S16x589824x1_0_1 : S16x589824.BroadcastsInDim S16x589824x1 (![0, 1] : Fin 2 → Fin S16x589824x1.rank)
  concatenates_S16x589824x1_S16x589824x1_S16x589824x2_d2 : Shape.Concatenates [S16x589824x1, S16x589824x1] S16x589824x2 2
  slices_S16x128_S16x127_0_1 : S16x128.Slices ![0, 1] S16x127
  bcast_S_S16x127 : S_.BroadcastsInDim S16x127 (![] : Fin 0 → Fin S16x127.rank)
  natLt_1_32 : 1 < 32
  reducesTo_S16x127_S_d0_1 : S16x127.ReducesTo [0, 1] S_
  h_S_ : 0 < S_.numel
  slices_S16x128_S16x1_0_0 : S16x128.Slices ![0, 0] S16x1
  shapeCasts_S16x1_S16 : S16x1.ShapeCasts S16
  reducesTo_S16_S_d0 : S16.ReducesTo [0] S_
  bcast_S_S128 : S_.BroadcastsInDim S128 (![] : Fin 0 → Fin S128.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  shapeCasts_S16x589824_S16x589824x1 : S16x589824.ShapeCasts S16x589824x1
  bcast_S_S16x589824x1 : S_.BroadcastsInDim S16x589824x1 (![] : Fin 0 → Fin S16x589824x1.rank)
  bcast_S1_S1x1x1_2 : S1.BroadcastsInDim S1x1x1 (![2] : Fin 1 → Fin S1x1x1.rank)
  bcast_S1x1x1_S16x589824x1_0_1_2 : S1x1x1.BroadcastsInDim S16x589824x1 (![0, 1, 2] : Fin 3 → Fin S16x589824x1.rank)
  reducesTo_S16x589824x1_S16x589824_d2 : S16x589824x1.ReducesTo [2] S16x589824
  shapeCasts_S16x589824_S16x768x768 : S16x589824.ShapeCasts S16x768x768
  bcast_S16x768x768_S16x1x768x768_0_2_3 : S16x768x768.BroadcastsInDim S16x1x768x768 (![0, 2, 3] : Fin 3 → Fin S16x1x768x768.rank)
  bcast_S_S16x1x768x768 : S_.BroadcastsInDim S16x1x768x768 (![] : Fin 0 → Fin S16x1x768x768.rank)
  reducesTo_S16x1x768x768_S16_d1_2_3 : S16x1x768x768.ReducesTo [1, 2, 3] S16
  bcast_S_S16 : S_.BroadcastsInDim S16 (![] : Fin 0 → Fin S16.rank)
  reducesTo_S16x2x768x768_S_d0_1_2_3 : S16x2x768x768.ReducesTo [0, 1, 2, 3] S_
  scatter_S16x128_S16x589824x2_S16x589824_n_01_01_2_wf : ScatterDims.WF S16x128 S16x589824x2 S16x589824 [] [0, 1] [0, 1] 2
  gather_S16x128_S16x589824x1_S16x589824_n_1_0_0_1_2_11_wf : GatherDims.WF S16x128 S16x589824x1 S16x589824 [] [1] [0] [1] [0] 2 ![1, 1]

variable [Facts₀]

def scatter_S16x128_S16x589824x2_S16x589824_n_01_01_2 : ScatterDims S16x128 S16x589824x2 S16x589824 where
  updateWindowDims := []
  insertedWindowDims := [0, 1]
  scatterDimsToOperandDims := [0, 1]
  indexVectorDim := 2
  wf := scatter_S16x128_S16x589824x2_S16x589824_n_01_01_2_wf
def gather_S16x128_S16x589824x1_S16x589824_n_1_0_0_1_2_11 : GatherDims S16x128 S16x589824x1 S16x589824 where
  offsetDims := []
  collapsedSliceDims := [1]
  operandBatchingDims := [0]
  startIndicesBatchingDims := [0]
  startIndexMap := [1]
  indexVectorDim := 2
  sliceSizes := ![1, 1]
  wf := gather_S16x128_S16x589824x1_S16x589824_n_1_0_0_1_2_11_wf

class Facts : Prop extends Facts₀ where

variable [Facts]
-- ==== Proof.BitsRunFirst.lean ====
/-
  The kernel body run on whole staging memrefs at an image's first row block: two accumulators reset and then
  added to. Stated at any float instance.
-/
import proofs.«105772_j77627238908096_1_alg».proof.Proof.Gen.Kernel.Frame
import proofs.«105772_j77627238908096_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which grid points reset the accumulators

The grid is 16 images by 2 row blocks of 384 rows; a point's second coordinate is its row block. The body tests it
against zero: at row block 0 the two one-word accumulators (the sine loss and the cosine loss of the image) are
zeroed before anything is added to them. -/

/-- The body's test "this is the image's first row block", as the printed scalar chain over the coordinates. -/
abbrev firstBlock (i : grid0.Coords) : Prop :=
  (Scalar.cmpi .ne (Scalar.extui (Scalar.cmpi .eq (BitVec.ofNat 32 (i 1).val) 0#32)) 0#32) = 1#1

/-- Points are numbered image-major, so the first row blocks are the even points. -/
theorem firstBlock_iff : ∀ t : Fin cfg0.N, firstBlock (grid0.coords t) ↔ t.val % 2 = 0 :=
  (by decide +kernel : ∀ t : Fin grid0.N, firstBlock (grid0.coords t) ↔ t.val % 2 = 0)

/-- A store into a one-word accumulator, as a piece. -/
abbrev Piece1 (F : FTy → Type) [FloatOps F] := View.Piece (Elt F) S1x1x1 .f32

-- (the run's proof term is large)
set_option maxHeartbeats 4000000 in
/-- The body at an image's FIRST row block, on whole staging memrefs: the prediction block `x0`, the ground-truth
    block `x1` and the weight block `x2` are read and left as they were; the two accumulators, whatever they held,
    end with the stores the body made into them (zero, then zero plus the block's weighted sum), listed last first. -/
noncomputable def runFirst (c : Dev nD) (i : grid0.Coords)
    (a2 : Memref sig .tc .vmem S1x2x384x768 .f32) (h2 : a2.IsWhole) (a3 : Memref sig .tc .vmem S1x2x384x768 .f32) (h3 : a3.IsWhole)
    (a4 : Memref sig .tc .vmem S1x384x768 .f32) (h4 : a4.IsWhole) (a5 : Memref sig .tc .vmem S1x1x1 .f32) (h5 : a5.IsWhole)
    (a6 : Memref sig .tc .vmem S1x1x1 .f32) (h6 : a6.IsWhole) (hc : firstBlock i)
    (x0 x1 : Vec F S1x2x384x768 .f32) (x2 : Vec F S1x384x768 .f32) :
    Σ' (Ls Lc : List (Piece1 F)),
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f Ls)
                ∗ (∃ f, a6.view.loc (c : Thread nD τ) ↦[a6.view.set]{fullShare} a6.view.writes (Elt F) f Lc)) -∗ K ⟨⟩))
          ⊢ wp frame (wpE (defs₀ (F := F)) Variants.none c none) E (cc0__weighted_l1_kernel i a2 h2 a3 h3 a4 h4 a5 h5 a6 h6) K := by
  refine ⟨?_, ?_, fun E K => ?run⟩
  case run =>
    simp only [cc0__weighted_l1_kernel_eq_skeleton]; unfold cc0__weighted_l1_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact H4

end Cert.Kernel.Hand

end
-- ==== Proof.BitsRunLater.lean ====
/-
  The kernel body run on whole staging memrefs at a later row block of an image: the two accumulators carried from
  the row block before and added to. Stated at any float instance.
-/
import proofs.«105772_j77627238908096_1_alg».proof.Proof.BitsRunFirst

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a LATER row block of an image, on whole staging memrefs: the three input blocks read and left as they
    were; the accumulators arrive holding the running sums `s` (sine) and `k` (cosine) of the row blocks before, and end with
    the one store the body makes into each (the running sum plus this block's weighted sum). -/
noncomputable def runLater (c : Dev nD) (i : grid0.Coords)
    (a2 : Memref sig .tc .vmem S1x2x384x768 .f32) (h2 : a2.IsWhole) (a3 : Memref sig .tc .vmem S1x2x384x768 .f32) (h3 : a3.IsWhole)
    (a4 : Memref sig .tc .vmem S1x384x768 .f32) (h4 : a4.IsWhole) (a5 : Memref sig .tc .vmem S1x1x1 .f32) (h5 : a5.IsWhole)
    (a6 : Memref sig .tc .vmem S1x1x1 .f32) (h6 : a6.IsWhole) (hc : ¬firstBlock i)
    (x0 x1 : Vec F S1x2x384x768 .f32) (x2 : Vec F S1x384x768 .f32) (s k : Vec F S1x1x1 .f32) :
    Σ' (Ls Lc : List (Piece1 F)),
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare s ∗ owns (c : Thread nD τ) a6 fullShare k
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f Ls)
                ∗ (∃ f, a6.view.loc (c : Thread nD τ) ↦[a6.view.set]{fullShare} a6.view.writes (Elt F) f Lc)) -∗ K ⟨⟩))
          ⊢ wp frame (wpE (defs₀ (F := F)) Variants.none c none) E (cc0__weighted_l1_kernel i a2 h2 a3 h3 a4 h4 a5 h5 a6 h6) K := by
  refine ⟨?_, ?_, fun E K => ?run⟩
  case run =>
    simp only [cc0__weighted_l1_kernel_eq_skeleton]; unfold cc0__weighted_l1_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h2.eq_unread hf0; obtain rfl := h3.eq_unread hf1; obtain rfl := h4.eq_unread hf2
    obtain rfl := h5.eq_unread hf3; obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact H4

end Cert.Kernel.Hand

end
-- ==== Proof.BitsFrame.lean ====
/-
  The frame of the kernel program as printed, at any float instance: what the two one-word accumulators hold after
  each grid point, the pipeline's proof data, the body obligation at every point, and the run of the whole program.

  The grid is 16 images by 2 row blocks. Per image the body zeroes the accumulators at row block 0 and adds the row block's
  weighted sum of absolute differences at both; the accumulators are written back after row block 1.
-/
import proofs.«105772_j77627238908096_1_alg».proof.Proof.BitsRunLater
import Idealize.ShloMosaic.Lib.Pipeline.FrameSuffix

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- One staging buffer of each accumulator's window, through which its contents are stated (the choice does not
    matter: a covered block's contents are the stores' alone). -/
abbrev sinView : View sig .tc .vmem S1x1x1 .f32 := (Memref.whole cc0_stg3_0 : Memref sig .tc .vmem S1x1x1 .f32).view
abbrev cosView : View sig .tc .vmem S1x1x1 .f32 := (Memref.whole cc0_stg4_0 : Memref sig .tc .vmem S1x1x1 .f32).view

/-- Each window's current staging memref at point `t`, as the pipeline passes it to the body, and its wholeness. -/
abbrev mPred (t : Fin cfg0.N) : Memref sig .tc .vmem S1x2x384x768 .f32 := win0_0.stage (cfg0.slots t 0)
abbrev hPred (t : Fin cfg0.N) : (mPred t).IsWhole := hstage0_0 ((cfg0.slots t 0).cast nbuf0_0)
abbrev mTruth (t : Fin cfg0.N) : Memref sig .tc .vmem S1x2x384x768 .f32 := win0_1.stage (cfg0.slots t 1)
abbrev hTruth (t : Fin cfg0.N) : (mTruth t).IsWhole := hstage0_1 ((cfg0.slots t 1).cast nbuf0_1)
abbrev mWeight (t : Fin cfg0.N) : Memref sig .tc .vmem S1x384x768 .f32 := win0_2.stage (cfg0.slots t 2)
abbrev hWeight (t : Fin cfg0.N) : (mWeight t).IsWhole := hstage0_2 ((cfg0.slots t 2).cast nbuf0_2)
abbrev mSin (t : Fin cfg0.N) : Memref sig .tc .vmem S1x1x1 .f32 := win0_3.stage (cfg0.slots t 3)
abbrev hSin (t : Fin cfg0.N) : (mSin t).IsWhole := hstage0_3 ((cfg0.slots t 3).cast nbuf0_3)
abbrev mCos (t : Fin cfg0.N) : Memref sig .tc .vmem S1x1x1 .f32 := win0_4.stage (cfg0.slots t 4)
abbrev hCos (t : Fin cfg0.N) : (mCos t).IsWhole := hstage0_4 ((cfg0.slots t 4).cast nbuf0_4)

/-! ## The ground-truth window is never cut

Its blocks are two channels wide on an axis of five channels, so a block at channel index 2 would overhang; the
index map only ever asks for channel index 1 (channels 2 and 3), which lies inside. Decided over the grid. -/

theorem truth_uncut : ∀ (t : Fin cfg0.N) (a : Fin 4), (cfg0.win 1).clip (cfg0.grid.coords t) a = none :=
  (by decide +kernel : ∀ (t : Fin grid0.N) (a : Fin 4), win0_1.clip (grid0.coords t) a = none)

/-- The ground-truth window's staging contents at point `t`: its block of the array, laid into the whole buffer (the
    filler is never seen: the fetch is uncut). -/
def truthBlock (c : Dev nD) (t : Fin cfg0.N) : Vec F S1x2x384x768 .f32 :=
  win0_1.fill (grid0.coords t) (fun _ => @Classical.arbitrary _ (Elt.nonempty F _)) (iblk m c 1 t)

/-! ## What the accumulators hold after each point -/

/-- The stores of either run cover the one word of each accumulator. -/
theorem cover_first_sin (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) (y : S1x1x1.Idx) :
    ∃ pc ∈ (runFirst c i a2 h2 a3 h3 a4 h4 a5 h5 a6 h6 hc x0 x1 x2).1, y ∈ pc.1.set :=
  View.cover_of_tiledL (runFirst c i a2 h2 a3 h3 a4 h4 a5 h5 a6 h6 hc x0 x1 x2).1 S1x1x1.size (by sl_kernel_rfl) y
theorem cover_first_cos (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) (y : S1x1x1.Idx) :
    ∃ pc ∈ (runFirst c i a2 h2 a3 h3 a4 h4 a5 h5 a6 h6 hc x0 x1 x2).2.1, y ∈ pc.1.set :=
  View.cover_of_tiledL (runFirst c i a2 h2 a3 h3 a4 h4 a5 h5 a6 h6 hc x0 x1 x2).2.1 S1x1x1.size (by sl_kernel_rfl) y
theorem cover_later_sin (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) (y : S1x1x1.Idx) :
    ∃ pc ∈ (runLater c i a2 h2 a3 h3 a4 h4 a5 h5 a6 h6 hc x0 x1 x2 s k).1, y ∈ pc.1.set :=
  View.cover_of_tiledL (runLater c i a2 h2 a3 h3 a4 h4 a5 h5 a6 h6 hc x0 x1 x2 s k).1 S1x1x1.size (by sl_kernel_rfl) y
theorem cover_later_cos (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) (y : S1x1x1.Idx) :
    ∃ pc ∈ (runLater c i a2 h2 a3 h3 a4 h4 a5 h5 a6 h6 hc x0 x1 x2 s k).2.1, y ∈ pc.1.set :=
  View.cover_of_tiledL (runLater c i a2 h2 a3 h3 a4 h4 a5 h5 a6 h6 hc x0 x1 x2 s k).2.1 S1x1x1.size (by sl_kernel_rfl) y

/-- What a first-row-block run leaves in the sine accumulator: its stores read back. -/
def sinFirst (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) : Vec F S1x1x1 .f32 :=
  sinView.read (Elt F) (sinView.writes (Elt F) sinView.junk (runFirst c i a2 h2 a3 h3 a4 h4 a5 h5 a6 h6 hc x0 x1 x2).1)
/-- … and in the cosine accumulator. -/
def cosFirst (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) : Vec F S1x1x1 .f32 :=
  cosView.read (Elt F) (cosView.writes (Elt F) cosView.junk (runFirst c i a2 h2 a3 h3 a4 h4 a5 h5 a6 h6 hc x0 x1 x2).2.1)
/-- What a later-row-block run leaves in the sine accumulator, from the running sums `s`, `k`. -/
def sinLater (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) : Vec F S1x1x1 .f32 :=
  sinView.read (Elt F) (sinView.writes (Elt F) sinView.junk (runLater c i a2 h2 a3 h3 a4 h4 a5 h5 a6 h6 hc x0 x1 x2 s k).1)
/-- … and in the cosine accumulator. -/
def cosLater (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) : Vec F S1x1x1 .f32 :=
  cosView.read (Elt F) (cosView.writes (Elt F) cosView.junk (runLater c i a2 h2 a3 h3 a4 h4 a5 h5 a6 h6 hc x0 x1 x2 s k).2.1)

/-- THE ACCUMULATION. The pair (sine, cosine) the accumulators hold after the body at position `n`: at an even
    position the first-row-block run's result on that point's blocks; at an odd one the later-row-block run's, from what
    the position before left (the accumulators are not written back in between). -/
def accAt (c : Dev nD) : (n : ℕ) → n < cfg0.N → Vec F S1x1x1 .f32 × Vec F S1x1x1 .f32
  | 0, hn =>
    (sinFirst c (grid0.coords ⟨0, hn⟩) (mPred ⟨0, hn⟩) (hPred ⟨0, hn⟩) (mTruth ⟨0, hn⟩) (hTruth ⟨0, hn⟩) (mWeight ⟨0, hn⟩) (hWeight ⟨0, hn⟩)
        (mSin ⟨0, hn⟩) (hSin ⟨0, hn⟩) (mCos ⟨0, hn⟩) (hCos ⟨0, hn⟩) ((firstBlock_iff ⟨0, hn⟩).mpr (Nat.zero_mod _))
        (iblk m c 0 ⟨0, hn⟩) (truthBlock m c ⟨0, hn⟩) (iblk m c 2 ⟨0, hn⟩),
     cosFirst c (grid0.coords ⟨0, hn⟩) (mPred ⟨0, hn⟩) (hPred ⟨0, hn⟩) (mTruth ⟨0, hn⟩) (hTruth ⟨0, hn⟩) (mWeight ⟨0, hn⟩) (hWeight ⟨0, hn⟩)
        (mSin ⟨0, hn⟩) (hSin ⟨0, hn⟩) (mCos ⟨0, hn⟩) (hCos ⟨0, hn⟩) ((firstBlock_iff ⟨0, hn⟩).mpr (Nat.zero_mod _))
        (iblk m c 0 ⟨0, hn⟩) (truthBlock m c ⟨0, hn⟩) (iblk m c 2 ⟨0, hn⟩))
  | n + 1, hn =>
    if h0 : (n + 1) % 2 = 0 then
      (sinFirst c (grid0.coords ⟨n + 1, hn⟩) (mPred ⟨n + 1, hn⟩) (hPred ⟨n + 1, hn⟩) (mTruth ⟨n + 1, hn⟩) (hTruth ⟨n + 1, hn⟩) (mWeight ⟨n + 1, hn⟩) (hWeight ⟨n + 1, hn⟩)
          (mSin ⟨n + 1, hn⟩) (hSin ⟨n + 1, hn⟩) (mCos ⟨n + 1, hn⟩) (hCos ⟨n + 1, hn⟩) ((firstBlock_iff ⟨n + 1, hn⟩).mpr h0)
          (iblk m c 0 ⟨n + 1, hn⟩) (truthBlock m c ⟨n + 1, hn⟩) (iblk m c 2 ⟨n + 1, hn⟩),
       cosFirst c (grid0.coords ⟨n + 1, hn⟩) (mPred ⟨n + 1, hn⟩) (hPred ⟨n + 1, hn⟩) (mTruth ⟨n + 1, hn⟩) (hTruth ⟨n + 1, hn⟩) (mWeight ⟨n + 1, hn⟩) (hWeight ⟨n + 1, hn⟩)
          (mSin ⟨n + 1, hn⟩) (hSin ⟨n + 1, hn⟩) (mCos ⟨n + 1, hn⟩) (hCos ⟨n + 1, hn⟩) ((firstBlock_iff ⟨n + 1, hn⟩).mpr h0)
          (iblk m c 0 ⟨n + 1, hn⟩) (truthBlock m c ⟨n + 1, hn⟩) (iblk m c 2 ⟨n + 1, hn⟩))
    else
      (sinLater c (grid0.coords ⟨n + 1, hn⟩) (mPred ⟨n + 1, hn⟩) (hPred ⟨n + 1, hn⟩) (mTruth ⟨n + 1, hn⟩) (hTruth ⟨n + 1, hn⟩) (mWeight ⟨n + 1, hn⟩) (hWeight ⟨n + 1, hn⟩)
          (mSin ⟨n + 1, hn⟩) (hSin ⟨n + 1, hn⟩) (mCos ⟨n + 1, hn⟩) (hCos ⟨n + 1, hn⟩) (fun h => h0 ((firstBlock_iff ⟨n + 1, hn⟩).mp h))
          (iblk m c 0 ⟨n + 1, hn⟩) (truthBlock m c ⟨n + 1, hn⟩) (iblk m c 2 ⟨n + 1, hn⟩)
          (accAt c n (Nat.lt_of_succ_lt hn)).1 (accAt c n (Nat.lt_of_succ_lt hn)).2,
       cosLater c (grid0.coords ⟨n + 1, hn⟩) (mPred ⟨n + 1, hn⟩) (hPred ⟨n + 1, hn⟩) (mTruth ⟨n + 1, hn⟩) (hTruth ⟨n + 1, hn⟩) (mWeight ⟨n + 1, hn⟩) (hWeight ⟨n + 1, hn⟩)
          (mSin ⟨n + 1, hn⟩) (hSin ⟨n + 1, hn⟩) (mCos ⟨n + 1, hn⟩) (hCos ⟨n + 1, hn⟩) (fun h => h0 ((firstBlock_iff ⟨n + 1, hn⟩).mp h))
          (iblk m c 0 ⟨n + 1, hn⟩) (truthBlock m c ⟨n + 1, hn⟩) (iblk m c 2 ⟨n + 1, hn⟩)
          (accAt c n (Nat.lt_of_succ_lt hn)).1 (accAt c n (Nat.lt_of_succ_lt hn)).2)

/-- At a first row block: that run's results. -/
theorem accAt_first (c : Dev nD) (t : Fin cfg0.N) (h0 : t.val % 2 = 0) :
    accAt m c t.val t.isLt =
      (sinFirst c (grid0.coords t) (mPred t) (hPred t) (mTruth t) (hTruth t) (mWeight t) (hWeight t) (mSin t) (hSin t) (mCos t) (hCos t)
          ((firstBlock_iff t).mpr h0) (iblk m c 0 t) (truthBlock m c t) (iblk m c 2 t),
       cosFirst c (grid0.coords t) (mPred t) (hPred t) (mTruth t) (hTruth t) (mWeight t) (hWeight t) (mSin t) (hSin t) (mCos t) (hCos t)
          ((firstBlock_iff t).mpr h0) (iblk m c 0 t) (truthBlock m c t) (iblk m c 2 t)) := by
  obtain ⟨n, hn⟩ := t
  cases n with
  | zero => exact rfl
  | succ n => exact (dif_pos h0).trans rfl

/-- At a later row block: that run's results over what the point before left. -/
theorem accAt_later (c : Dev nD) (t : Fin cfg0.N) (h0 : ¬t.val % 2 = 0) :
    accAt m c t.val t.isLt =
      (sinLater c (grid0.coords t) (mPred t) (hPred t) (mTruth t) (hTruth t) (mWeight t) (hWeight t) (mSin t) (hSin t) (mCos t) (hCos t)
          (fun h => h0 ((firstBlock_iff t).mp h)) (iblk m c 0 t) (truthBlock m c t) (iblk m c 2 t)
          (accAt m c (t.val - 1) (Nat.lt_of_le_of_lt (Nat.sub_le _ _) t.isLt)).1 (accAt m c (t.val - 1) (Nat.lt_of_le_of_lt (Nat.sub_le _ _) t.isLt)).2,
       cosLater c (grid0.coords t) (mPred t) (hPred t) (mTruth t) (hTruth t) (mWeight t) (hWeight t) (mSin t) (hSin t) (mCos t) (hCos t)
          (fun h => h0 ((firstBlock_iff t).mp h)) (iblk m c 0 t) (truthBlock m c t) (iblk m c 2 t)
          (accAt m c (t.val - 1) (Nat.lt_of_le_of_lt (Nat.sub_le _ _) t.isLt)).1 (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block, the accumulators' at `accAt`; the class invariant (the scoped rest and the
    generator register, which the body neither uses nor describes); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => truthBlock m c t
    | ⟨2, _⟩ => iblk m c 2 t
    | ⟨3, _⟩ => (accAt m c t.val t.isLt).1
    | ⟨4, _⟩ => (accAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_pred (c : Dev nD) (t : Fin cfg0.N) : (dats m 0 c).after 0 t = iblk m c 0 t := by dsimp only [dats]
theorem after_truth (c : Dev nD) (t : Fin cfg0.N) : (dats m 0 c).after 1 t = truthBlock m c t := by dsimp only [dats]
theorem after_weight (c : Dev nD) (t : Fin cfg0.N) : (dats m 0 c).after 2 t = iblk m c 2 t := by dsimp only [dats]
theorem after_sin (c : Dev nD) (t : Fin cfg0.N) : (dats m 0 c).after 3 t = (accAt m c t.val t.isLt).1 := by dsimp only [dats]
theorem after_cos (c : Dev nD) (t : Fin cfg0.N) : (dats m 0 c).after 4 t = (accAt m c t.val t.isLt).2 := by dsimp only [dats]

/-! ## What each staging buffer holds when the body runs -/

theorem before_pred (c : Dev nD) (t : Fin cfg0.N) (d) : (dats m 0 c).before 0 t d = iblk m c 0 t :=
  before0_0_of m (dats m 0 c) (A_eq m c 0) (after_pred m c) t d
theorem before_weight (c : Dev nD) (t : Fin cfg0.N) (d) : (dats m 0 c).before 2 t d = iblk m c 2 t :=
  before0_2_of m (dats m 0 c) (A_eq m c 2) (after_weight m c) t d

/-- The ground-truth window is fetched at every point, and the fetch, being uncut, fills the whole buffer with the
    block: nothing of what the buffer held before shows. -/
theorem before_truth (c : Dev nD) (t : Fin cfg0.N) (d) : (dats m 0 c).before 1 t d = truthBlock m c t := by
  rw [Dat.before_fetched _ 1 t (fetch0_1 t)]
  unfold Dat.fetched Dat.blockOf truthBlock iblk
  rw [A_eq]
  exact Pipeline.fill_of_clip_none (cfg := cfg0) 1 (cfg0.grid.coords t) (truth_uncut t) _ _ _

/-- At a first row block an accumulator's buffer holds nothing the proof names: the point is the first of all, or the
    point before wrote the accumulator back. -/
theorem before_sin_first (c : Dev nD) (t : Fin cfg0.N) (h0 : t.val % 2 = 0) (d) : (dats m 0 c).before 3 t d = d := by
  refine Dat.before_out_reset _ 3 rfl t ?_ d
  by_cases hz : t.val = 0
  · exact .inl hz
  · exact .inr ⟨hz, (flush0_3 _).mpr (by dsimp only; omega)⟩
theorem before_cos_first (c : Dev nD) (t : Fin cfg0.N) (h0 : t.val % 2 = 0) (d) : (dats m 0 c).before 4 t d = d := by
  refine Dat.before_out_reset _ 4 rfl t ?_ d
  by_cases hz : t.val = 0
  · exact .inl hz
  · exact .inr ⟨hz, (flush0_4 _).mpr (by dsimp only; omega)⟩

/-- At a later row block it holds what the body left at the point before: no write-back came between. -/
theorem before_sin_later (c : Dev nD) (t : Fin cfg0.N) (h0 : ¬t.val % 2 = 0) (d) :
    (dats m 0 c).before 3 t d = (accAt m c (t.val - 1) (Nat.lt_of_le_of_lt (Nat.sub_le _ _) t.isLt)).1 := by
  rw [Dat.before_out_kept _ 3 rfl t (by omega) (Bool.eq_false_iff.mpr fun h => by have := (flush0_3 _).mp h; dsimp only at this; omega)
    (fun _ => rfl) (fun _ _ => rfl)]
  dsimp only [dats]
theorem before_cos_later (c : Dev nD) (t : Fin cfg0.N) (h0 : ¬t.val % 2 = 0) (d) :
    (dats m 0 c).before 4 t d = (accAt m c (t.val - 1) (Nat.lt_of_le_of_lt (Nat.sub_le _ _) t.isLt)).2 := by
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (mPred t) fullShare ((dats m 0 c).before 0 t d))
    ∗ (∃ d, owns (c : Thread nD τ) (mTruth t) fullShare ((dats m 0 c).before 1 t d))
    ∗ (∃ d, owns (c : Thread nD τ) (mWeight t) fullShare ((dats m 0 c).before 2 t d))
    ∗ (∃ d, owns (c : Thread nD τ) (mSin t) fullShare ((dats m 0 c).before 3 t d))
    ∗ (∃ d, owns (c : Thread nD τ) (mCos t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (mPred t) fullShare ((dats m 0 c).after 0 t)
    ∗ owns (c : Thread nD τ) (mTruth t) fullShare ((dats m 0 c).after 1 t)
    ∗ owns (c : Thread nD τ) (mWeight t) fullShare ((dats m 0 c).after 2 t)
    ∗ owns (c : Thread nD τ) (mSin t) fullShare ((dats m 0 c).after 3 t)
    ∗ owns (c : Thread nD τ) (mCos t) fullShare ((dats m 0 c).after 4 t))

set_option maxHeartbeats 1600000 in
/-- The body at any point: the three inputs' buffers hold their blocks; an even point is a first row block (the
    accumulators hold anything and are reset), an odd one a later row block (they hold what the point before left); so the
    matching run applies. The invariant passes through untouched; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pred, before_truth, before_weight]
  rw [show (dats m 0 c).Φ t.succ = (dats m 0 c).Φ t.castSucc from rfl,
    show (dats m 0 c).owesAt () t.succ = (dats m 0 c).owesAt () t.castSucc from rfl,
    after_pred, after_truth, after_weight, after_sin, after_cos]
  by_cases h0 : t.val % 2 = 0
  · rw [accAt_first m c t h0]
    dsimp only
    unfold sinFirst cosFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((firstBlock_iff t).mpr h0) (iblk m c 0 t) (truthBlock m c t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_first_sin c _ _ _ _ _ _ _ _ _ _ _ _ _ _ _)
    · unfold owns; iexists _; isplitr
      swap; · iexact H4
      ipureintro; exact View.read_writes_of_cover _ _ _ _ _ (cover_first_cos c _ _ _ _ _ _ _ _ _ _ _ _ _ _ _)
  · rw [accAt_later m c t h0]
    dsimp only
    simp only [before_sin_later m c t h0, before_cos_later m c t h0]
    unfold sinLater cosLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((firstBlock_iff t).mp h)) (iblk m c 0 t) (truthBlock m c t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_later_sin c _ _ _ _ _ _ _ _ _ _ _ _ _ _ _ _ _)
    · unfold owns; iexists _; isplitr
      swap; · iexact H4
      ipureintro; exact View.read_writes_of_cover _ _ _ _ _ (cover_later_cos c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the pipeline at what the library computes from the proof data and
    every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.RefRun.lean ====
/-
  The reference program's run. Its @main is a straight line of 135 host operations; every weakly fair execution ends with
  each buffer at the fold of the operations' results over the launch contents. The list is cut in three — the four channel
  slices of the two float arguments, the 94 operations that build the per-pixel weight table from the two integer arguments,
  and the 37 operations of the two weighted sums and the epilogue — so that a later proof reads the last part over the first
  two parts' results without opening the weight table.
-/
import proofs.«105772_j77627238908096_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order (a called function's operations stand in its call's place). -/
abbrev ops : List (HloOp τ sig (Elt F)) :=
  [ unary main_arg0 main_v0 ((extractStridedSlice S16x1x768x768 ![0, 0, 0, 0] · slices_S16x2x768x768_S16x1x768x768_0_0_0_0) : (⟨S16x2x768x768, .f32⟩ : BufTy).Contents (Elt F) → (⟨S16x1x768x768, .f32⟩ : BufTy).Contents (Elt F)),
    unary main_arg0 main_v1 ((extractStridedSlice S16x1x768x768 ![0, 1, 0, 0] · slices_S16x2x768x768_S16x1x768x768_0_1_0_0) : (⟨S16x2x768x768, .f32⟩ : BufTy).Contents (Elt F) → (⟨S16x1x768x768, .f32⟩ : BufTy).Contents (Elt F)),
    unary main_arg3 main_v2 ((extractStridedSlice S16x1x768x768 ![0, 2, 0, 0] · slices_S16x5x768x768_S16x1x768x768_0_2_0_0) : (⟨S16x5x768x768, .f32⟩ : BufTy).Contents (Elt F) → (⟨S16x1x768x768, .f32⟩ : BufTy).Contents (Elt F)),
    unary main_arg3 main_v3 ((extractStridedSlice S16x1x768x768 ![0, 3, 0, 0] · slices_S16x5x768x768_S16x1x768x768_0_3_0_0) : (⟨S16x5x768x768, .f32⟩ : BufTy).Contents (Elt F) → (⟨S16x1x768x768, .f32⟩ : BufTy).Contents (Elt F)),
    reshape main_arg1 main_v4 rfl shapeCasts_S16x768x768_S16x589824,
    nullary main_cst (constant S_ .f32 0x00000000#32),
    unary main_cst main_v5 (broadcastInDim S16x128 ![] bcast_S_S16x128 : (⟨S_, .f32⟩ : BufTy).Contents (Elt F) → (⟨S16x128, .f32⟩ : BufTy).Contents (Elt F)),
    nullary main_v6 (iotaInDim S16 32 0),
    unary main_v6 main_v7 (broadcastInDim S16x1 ![0] bcast_S16_S16x1_0 : (⟨S16, .i32⟩ : BufTy).Contents (Elt F) → (⟨S16x1, .i32⟩ : BufTy).Contents (Elt F)),
    nullary main_c (constantI S_ 32 0#32),
    unary main_c main_v8 (broadcastInDim S16x1 ![] bcast_S_S16x1 : (⟨S_, .i32⟩ : BufTy).Contents (Elt F) → (⟨S16x1, .i32⟩ : BufTy).Contents (Elt F)),
    binary main_v7 main_v8 main_v9 (cmpi .slt : (⟨S16x1, .i32⟩ : BufTy).Contents (Elt F) → (⟨S16x1, .i32⟩ : BufTy).Contents (Elt F) → (⟨S16x1, .i1⟩ : BufTy).Contents (Elt F)),
    nullary main_c_0 (constantI S_ 32 16#32),
    unary main_c_0 main_v10 (broadcastInDim S16x1 ![] bcast_S_S16x1 : (⟨S_, .i32⟩ : BufTy).Contents (Elt F) → (⟨S16x1, .i32⟩ : BufTy).Contents (Elt F)),
    binary main_v7 main_v10 main_v11 (addi : (⟨S16x1, .i32⟩ : BufTy).Contents (Elt F) → (⟨S16x1, .i32⟩ : BufTy).Contents (Elt F) → (⟨S16x1, .i32⟩ : BufTy).Contents (Elt F)),
    ternary main_v9 main_v11 main_v7 main_v12 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_1 (constantI S_ 32 0#32),
    unary main_c_1 main_v13 (broadcastInDim S16x589824 ![] bcast_S_S16x589824 : (⟨S_, .i32⟩ : BufTy).Contents (Elt F) → (⟨S16x589824, .i32⟩ : BufTy).Contents (Elt F)),
    binary main_v4 main_v13 main_v14 (cmpi .slt : (⟨S16x589824, .i32⟩ : BufTy).Contents (Elt F) → (⟨S16x589824, .i32⟩ : BufTy).Contents (Elt F) → (⟨S16x589824, .i1⟩ : BufTy).Contents (Elt F)),
    nullary main_c_2 (constantI S_ 32 128#32),
    unary main_c_2 main_v15 (broadcastInDim S16x589824 ![] bcast_S_S16x589824 : (⟨S_, .i32⟩ : BufTy).Contents (Elt F) → (⟨S16x589824, .i32⟩ : BufTy).Contents (Elt F)),
    binary main_v4 main_v15 main_v16 (addi : (⟨S16x589824, .i32⟩ : BufTy).Contents (Elt F) → (⟨S16x589824, .i32⟩ : BufTy).Contents (Elt F) → (⟨S16x589824, .i32⟩ : BufTy).Contents (Elt F)),
    ternary main_v14 main_v16 main_v4 main_v17 (select : (⟨S16x589824, .i1⟩ : BufTy).Contents (Elt F) → (⟨S16x589824, .i32⟩ : BufTy).Contents (Elt F) → (⟨S16x589824, .i32⟩ : BufTy).Contents (Elt F) → (⟨S16x589824, .i32⟩ : BufTy).Contents (Elt F)),
    unary main_v12 main_v18 (broadcastInDim S16x589824 ![0, 1] bcast_S16x1_S16x589824_0_1 : (⟨S16x1, .i32⟩ : BufTy).Contents (Elt F) → (⟨S16x589824, .i32⟩ : BufTy).Contents (Elt F)),
    unary main_v18 main_v19 (broadcastInDim S16x589824x1 ![0, 1] bcast_S16x589824_S16x589824x1_0_1 : (⟨S16x589824, .i32⟩ : BufTy).Contents (Elt F) → (⟨S16x589824x1, .i32⟩ : BufTy).Contents (Elt F)),
    unary main_v17 main_v20 (broadcastInDim S16x589824x1 ![0, 1] bcast_S16x589824_S16x589824x1_0_1 : (⟨S16x589824, .i32⟩ : BufTy).Contents (Elt F) → (⟨S16x589824x1, .i32⟩ : BufTy).Contents (Elt F)),
    binary main_v19 main_v20 main_v21 ((fun a b => concatenate S16x589824x2 2 [⟨S16x589824x1, a⟩, ⟨S16x589824x1, b⟩] concatenates_S16x589824x1_S16x589824x1_S16x589824x2_d2) : (⟨S16x589824x1, .i32⟩ : BufTy).Contents (Elt F) → (⟨S16x589824x1, .i32⟩ : BufTy).Contents (Elt F) → (⟨S16x589824x2, .i32⟩ : BufTy).Contents (Elt F)),
    nullary main_cst_3 (constant S_ .f32 0x3F800000#32),
    unary main_cst_3 main_v22 (broadcastInDim S16x589824 ![] bcast_S_S16x589824 : (⟨S_, .f32⟩ : BufTy).Contents (Elt F) → (⟨S16x589824, .f32⟩ : BufTy).Contents (Elt F)),
    ternary main_v5 main_v21 main_v22 main_v23 ((fun x i u => Host.scatterAdd scatter_S16x128_S16x589824x2_S16x589824_n_01_01_2 x i u) : (⟨S16x128, .f32⟩ : BufTy).Contents (Elt F) → (⟨S16x589824x2, .i32⟩ : BufTy).Contents (Elt F) → (⟨S16x589824, .f32⟩ : BufTy).Contents (Elt F) → (⟨S16x128, .f32⟩ : BufTy).Contents (Elt F)),
    unary main_v23 main_v24 ((extractStridedSlice S16x127 ![0, 1] · slices_S16x128_S16x127_0_1) : (⟨S16x128, .f32⟩ : BufTy).Contents (Elt F) → (⟨S16x127, .f32⟩ : BufTy).Contents (Elt F)),
    nullary main_cst_4 (constant S_ .f32 0x00000000#32),
    unary main_cst_4 main_v25 (broadcastInDim S16x127 ![] bcast_S_S16x127 : (⟨S_, .f32⟩ : BufTy).Contents (Elt F) → (⟨S16x127, .f32⟩ : BufTy).Contents (Elt F)),
    binary main_v24 main_v25 main_v26 (cmpf .ogt : (⟨S16x127, .f32⟩ : BufTy).Contents (Elt F) → (⟨S16x127, .f32⟩ : BufTy).Contents (Elt F) → (⟨S16x127, .i1⟩ : BufTy).Contents (Elt F)),
    unary main_v26 main_v27 ((extui 32 · natLt_1_32) : (⟨S16x127, .i1⟩ : BufTy).Contents (Elt F) → (⟨S16x127, .i32⟩ : BufTy).Contents (Elt F)),
    nullary main_c_5 (constantI S_ 32 0#32),
    binary main_v27 main_c_5 main_v28 ((fun x v => Host.reduce IntOp.addi x v reducesTo_S16x127_S_d0_1 h_S_) : (⟨S16x127, .i32⟩ : BufTy).Contents (Elt F) → (⟨S_, .i32⟩ : BufTy).Contents (Elt F) → (⟨S_, .i32⟩ : BufTy).Contents (Elt F)),
    unary main_v28 main_v29 (sitofp .f32 : (⟨S_, .i32⟩ : BufTy).Contents (Elt F) → (⟨S_, .f32⟩ : BufTy).Contents (Elt F)),
    unary main_v23 main_v30 ((extractStridedSlice S16x1 ![0, 0] · slices_S16x128_S16x1_0_0) : (⟨S16x128, .f32⟩ : BufTy).Contents (Elt F) → (⟨S16x1, .f32⟩ : BufTy).Contents (Elt F)),
    reshape main_v30 main_v31 rfl shapeCasts_S16x1_S16,
    nullary main_cst_6 (constant S_ .f32 0x00000000#32),
    binary main_v31 main_cst_6 main_v32 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_v33 (iotaInDim S128 32 0),
    nullary main_c_7 (constantI S_ 32 0#32),
    unary main_c_7 main_v34 (broadcastInDim S128 ![] bcast_S_S128 : (⟨S_, .i32⟩ : BufTy).Contents (Elt F) → (⟨S128, .i32⟩ : BufTy).Contents (Elt F)),
    binary main_v33 main_v34 main_v35 (cmpi .eq : (⟨S128, .i32⟩ : BufTy).Contents (Elt F) → (⟨S128, .i32⟩ : BufTy).Contents (Elt F) → (⟨S128, .i1⟩ : BufTy).Contents (Elt F)),
    unary main_v35 main_v36 (broadcastInDim S1x128 ![1] bcast_S128_S1x128_1 : (⟨S128, .i1⟩ : BufTy).Contents (Elt F) → (⟨S1x128, .i1⟩ : BufTy).Contents (Elt F)),
    nullary main_cst_8 (constant S_ .f32 0x40000000#32),
    binary main_v32 main_cst_8 main_v37 (mulf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    unary main_cst_9 main_v38 (broadcastInDim S16x128 ![] bcast_S_S16x128 : (⟨S_, .f32⟩ : BufTy).Contents (Elt F) → (⟨S16x128, .f32⟩ : BufTy).Contents (Elt F)),
    binary main_v23 main_v38 main_v39 (maximumf : (⟨S16x128, .f32⟩ : BufTy).Contents (Elt F) → (⟨S16x128, .f32⟩ : BufTy).Contents (Elt F) → (⟨S16x128, .f32⟩ : BufTy).Contents (Elt F)),
    unary main_v29 main_v40 (broadcastInDim S16x128 ![] bcast_S_S16x128 : (⟨S_, .f32⟩ : BufTy).Contents (Elt F) → (⟨S16x128, .f32⟩ : BufTy).Contents (Elt F)),
    binary main_v39 main_v40 main_v41 (mulf : (⟨S16x128, .f32⟩ : BufTy).Contents (Elt F) → (⟨S16x128, .f32⟩ : BufTy).Contents (Elt F) → (⟨S16x128, .f32⟩ : BufTy).Contents (Elt F)),
    nullary main_cst_10 (constant S_ .f32 0x40000000#32),
    unary main_cst_10 main_v42 (broadcastInDim S16x128 ![] bcast_S_S16x128 : (⟨S_, .f32⟩ : BufTy).Contents (Elt F) → (⟨S16x128, .f32⟩ : BufTy).Contents (Elt F)),
    binary main_v41 main_v42 main_v43 (mulf : (⟨S16x128, .f32⟩ : BufTy).Contents (Elt F) → (⟨S16x128, .f32⟩ : BufTy).Contents (Elt F) → (⟨S16x128, .f32⟩ : BufTy).Contents (Elt F)),
    TRef.unary (TRef.of (T := ⟨S1x128, .i1⟩) main_v36) (TRef.of (T := ⟨S16x128, .i1⟩) main_call0_v0) (broadcastInDim S16x128 ![0, 1] bcast_S1x128_S16x128_0_1),
    TRef.unary (TRef.of (T := ⟨S_, .f32⟩) main_v37) (TRef.of (T := ⟨S16x128, .f32⟩) main_call0_v1) (broadcastInDim S16x128 ![] bcast_S_S16x128),
    TRef.ternary (TRef.of (T := ⟨S16x128, .i1⟩) main_call0_v0) (TRef.of (T := ⟨S16x128, .f32⟩) main_call0_v1) (TRef.of (T := ⟨S16x128, .f32⟩) main_v43) (TRef.of (T := ⟨S16x128, .f32⟩) main_v44) select,
    nullary main_cst_11 (constant S_ .f32 0x3F800000#32),
    unary main_cst_11 main_v45 (broadcastInDim S16x128 ![] bcast_S_S16x128 : (⟨S_, .f32⟩ : BufTy).Contents (Elt F) → (⟨S16x128, .f32⟩ : BufTy).Contents (Elt F)),
    binary main_v45 main_v44 main_v46 (Host.divf : (⟨S16x128, .f32⟩ : BufTy).Contents (Elt F) → (⟨S16x128, .f32⟩ : BufTy).Contents (Elt F) → (⟨S16x128, .f32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16x589824, .i32⟩) main_call1_v0) (broadcastInDim S16x589824 ![] bcast_S_S16x589824),
    TRef.binary (TRef.of (T := ⟨S16x589824, .i32⟩) main_v4) (TRef.of (T := ⟨S16x589824, .i32⟩) main_call1_v0) (TRef.of (T := ⟨S16x589824, .i1⟩) main_call1_v1) (cmpi .slt),
    TRef.nullary (TRef.of (T := ⟨S_, .i32⟩) main_call1_c_0) (constantI S_ 32 128#32),
    TRef.unary (TRef.of (T := ⟨S_, .i32⟩) main_call1_c_0) (TRef.of (T := ⟨S16x589824, .i32⟩) main_call1_v2) (broadcastInDim S16x589824 ![] bcast_S_S16x589824),
    TRef.binary (TRef.of (T := ⟨S16x589824, .i32⟩) main_v4) (TRef.of (T := ⟨S16x589824, .i32⟩) main_call1_v2) (TRef.of (T := ⟨S16x589824, .i32⟩) main_call1_v3) addi,
    TRef.ternary (TRef.of (T := ⟨S16x589824, .i1⟩) main_call1_v1) (TRef.of (T := ⟨S16x589824, .i32⟩) main_call1_v3) (TRef.of (T := ⟨S16x589824, .i32⟩) main_v4) (TRef.of (T := ⟨S16x589824, .i32⟩) main_call1_v4) select,
    TRef.reshape (TRef.of (T := ⟨S16x589824, .i32⟩) main_call1_v4) (TRef.of (T := ⟨S16x589824x1, .i32⟩) main_call1_v5) rfl shapeCasts_S16x589824_S16x589824x1,
    TRef.nullary (TRef.of (T := ⟨S1, .i32⟩) main_call1_c_1) (constantI S1 32 127#32),
    TRef.nullary (TRef.of (T := ⟨S_, .i32⟩) main_call1_c_2) (constantI S_ 32 0#32),
    TRef.unary (TRef.of (T := ⟨S_, .i32⟩) main_call1_c_2) (TRef.of (T := ⟨S16x589824x1, .i32⟩) main_call1_v6) (broadcastInDim S16x589824x1 ![] bcast_S_S16x589824x1),
    TRef.binary (TRef.of (T := ⟨S16x589824x1, .i32⟩) main_call1_v5) (TRef.of (T := ⟨S16x589824x1, .i32⟩) main_call1_v6) (TRef.of (T := ⟨S16x589824x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16x589824x1, .i32⟩) main_call1_v9) (broadcastInDim S16x589824x1 ![0, 1, 2] bcast_S1x1x1_S16x589824x1_0_1_2),
    TRef.binary (TRef.of (T := ⟨S16x589824x1, .i32⟩) main_call1_v5) (TRef.of (T := ⟨S16x589824x1, .i32⟩) main_call1_v9) (TRef.of (T := ⟨S16x589824x1, .i1⟩) main_call1_v10) (cmpi .sle),
    TRef.binary (TRef.of (T := ⟨S16x589824x1, .i1⟩) main_call1_v7) (TRef.of (T := ⟨S16x589824x1, .i1⟩) main_call1_v10) (TRef.of (T := ⟨S16x589824x1, .i1⟩) main_call1_v11) andi,
    TRef.nullary (TRef.of (T := ⟨S_, .i1⟩) main_call1_c_3) (constantI S_ 1 1#1),
    TRef.binary (TRef.of (T := ⟨S16x589824x1, .i1⟩) main_call1_v11) (TRef.of (T := ⟨S_, .i1⟩) main_call1_c_3) (TRef.of (T := ⟨S16x589824, .i1⟩) main_call1_v12) (fun x v => Host.reduce IntOp.andi x v reducesTo_S16x589824x1_S16x589824_d2 h_S_),
    TRef.binary (TRef.of (T := ⟨S16x128, .f32⟩) main_v46) (TRef.of (T := ⟨S16x589824x1, .i32⟩) main_call1_v5) (TRef.of (T := ⟨S16x589824, .f32⟩) main_call1_v13) (fun x i => Host.gather gather_S16x128_S16x589824x1_S16x589824_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16x589824, .f32⟩) main_call1_v14) (broadcastInDim S16x589824 ![] bcast_S_S16x589824),
    TRef.ternary (TRef.of (T := ⟨S16x589824, .i1⟩) main_call1_v12) (TRef.of (T := ⟨S16x589824, .f32⟩) main_call1_v13) (TRef.of (T := ⟨S16x589824, .f32⟩) main_call1_v14) (TRef.of (T := ⟨S16x589824, .f32⟩) main_v47) select,
    reshape main_v47 main_v48 rfl shapeCasts_S16x589824_S16x768x768,
    unary main_v48 main_v49 (broadcastInDim S16x1x768x768 ![0, 2, 3] bcast_S16x768x768_S16x1x768x768_0_2_3 : (⟨S16x768x768, .f32⟩ : BufTy).Contents (Elt F) → (⟨S16x1x768x768, .f32⟩ : BufTy).Contents (Elt F)),
    unary main_arg2 main_v50 (broadcastInDim S16x1x768x768 ![0, 2, 3] bcast_S16x768x768_S16x1x768x768_0_2_3 : (⟨S16x768x768, .i32⟩ : BufTy).Contents (Elt F) → (⟨S16x1x768x768, .i32⟩ : BufTy).Contents (Elt F)),
    nullary main_c_12 (constantI S_ 32 0#32),
    unary main_c_12 main_v51 (broadcastInDim S16x1x768x768 ![] bcast_S_S16x1x768x768 : (⟨S_, .i32⟩ : BufTy).Contents (Elt F) → (⟨S16x1x768x768, .i32⟩ : BufTy).Contents (Elt F)),
    binary main_v50 main_v51 main_v52 (cmpi .eq : (⟨S16x1x768x768, .i32⟩ : BufTy).Contents (Elt F) → (⟨S16x1x768x768, .i32⟩ : BufTy).Contents (Elt F) → (⟨S16x1x768x768, .i1⟩ : BufTy).Contents (Elt F)),
    nullary main_cst_13 (constant S_ .f32 0x3F800000#32),
    nullary main_cst_14 (constant S_ .f32 0x3F800000#32),
    TRef.unary (TRef.of (T := ⟨S_, .f32⟩) main_cst_13) (TRef.of (T := ⟨S16x1x768x768, .f32⟩) main_call2_v0) (broadcastInDim S16x1x768x768 ![] bcast_S_S16x1x768x768),
    TRef.unary (TRef.of (T := ⟨S_, .f32⟩) main_cst_14) (TRef.of (T := ⟨S16x1x768x768, .f32⟩) main_call2_v1) (broadcastInDim S16x1x768x768 ![] bcast_S_S16x1x768x768),
    TRef.ternary (TRef.of (T := ⟨S16x1x768x768, .i1⟩) main_v52) (TRef.of (T := ⟨S16x1x768x768, .f32⟩) main_call2_v0) (TRef.of (T := ⟨S16x1x768x768, .f32⟩) main_call2_v1) (TRef.of (T := ⟨S16x1x768x768, .f32⟩) main_v53) select,
    unary main_v53 main_v54 (id : (⟨S16x1x768x768, .f32⟩ : BufTy).Contents (Elt F) → (⟨S16x1x768x768, .f32⟩ : BufTy).Contents (Elt F)),
    binary main_v54 main_v49 main_v55 (mulf : (⟨S16x1x768x768, .f32⟩ : BufTy).Contents (Elt F) → (⟨S16x1x768x768, .f32⟩ : BufTy).Contents (Elt F) → (⟨S16x1x768x768, .f32⟩ : BufTy).Contents (Elt F)),
    binary main_v0 main_v2 main_v56 (subf : (⟨S16x1x768x768, .f32⟩ : BufTy).Contents (Elt F) → (⟨S16x1x768x768, .f32⟩ : BufTy).Contents (Elt F) → (⟨S16x1x768x768, .f32⟩ : BufTy).Contents (Elt F)),
    unary main_v56 main_v57 (Host.absf : (⟨S16x1x768x768, .f32⟩ : BufTy).Contents (Elt F) → (⟨S16x1x768x768, .f32⟩ : BufTy).Contents (Elt F)),
    binary main_v55 main_v57 main_v58 (mulf : (⟨S16x1x768x768, .f32⟩ : BufTy).Contents (Elt F) → (⟨S16x1x768x768, .f32⟩ : BufTy).Contents (Elt F) → (⟨S16x1x768x768, .f32⟩ : BufTy).Contents (Elt F)),
    nullary main_cst_15 (constant S_ .f32 0x00000000#32),
    binary main_v58 main_cst_15 main_v59 ((fun x v => Host.reduceAdd x v reducesTo_S16x1x768x768_S16_d1_2_3 h_S_) : (⟨S16x1x768x768, .f32⟩ : BufTy).Contents (Elt F) → (⟨S_, .f32⟩ : BufTy).Contents (Elt F) → (⟨S16, .f32⟩ : BufTy).Contents (Elt F)),
    binary main_v1 main_v3 main_v60 (subf : (⟨S16x1x768x768, .f32⟩ : BufTy).Contents (Elt F) → (⟨S16x1x768x768, .f32⟩ : BufTy).Contents (Elt F) → (⟨S16x1x768x768, .f32⟩ : BufTy).Contents (Elt F)),
    unary main_v60 main_v61 (Host.absf : (⟨S16x1x768x768, .f32⟩ : BufTy).Contents (Elt F) → (⟨S16x1x768x768, .f32⟩ : BufTy).Contents (Elt F)),
    binary main_v55 main_v61 main_v62 (mulf : (⟨S16x1x768x768, .f32⟩ : BufTy).Contents (Elt F) → (⟨S16x1x768x768, .f32⟩ : BufTy).Contents (Elt F) → (⟨S16x1x768x768, .f32⟩ : BufTy).Contents (Elt F)),
    nullary main_cst_16 (constant S_ .f32 0x00000000#32),
    binary main_v62 main_cst_16 main_v63 ((fun x v => Host.reduceAdd x v reducesTo_S16x1x768x768_S16_d1_2_3 h_S_) : (⟨S16x1x768x768, .f32⟩ : BufTy).Contents (Elt F) → (⟨S_, .f32⟩ : BufTy).Contents (Elt F) → (⟨S16, .f32⟩ : BufTy).Contents (Elt F)),
    nullary main_cst_17 (constant S_ .f32 0x3F800000#32),
    unary main_cst_17 main_v64 (broadcastInDim S16 ![] bcast_S_S16 : (⟨S_, .f32⟩ : BufTy).Contents (Elt F) → (⟨S16, .f32⟩ : BufTy).Contents (Elt F)),
    binary main_v64 main_v59 main_v65 (mulf : (⟨S16, .f32⟩ : BufTy).Contents (Elt F) → (⟨S16, .f32⟩ : BufTy).Contents (Elt F) → (⟨S16, .f32⟩ : BufTy).Contents (Elt F)),
    nullary main_cst_18 (constant S_ .f32 0x3F800000#32),
    unary main_cst_18 main_v66 (broadcastInDim S16 ![] bcast_S_S16 : (⟨S_, .f32⟩ : BufTy).Contents (Elt F) → (⟨S16, .f32⟩ : BufTy).Contents (Elt F)),
    binary main_v66 main_v63 main_v67 (mulf : (⟨S16, .f32⟩ : BufTy).Contents (Elt F) → (⟨S16, .f32⟩ : BufTy).Contents (Elt F) → (⟨S16, .f32⟩ : BufTy).Contents (Elt F)),
    nullary main_cst_19 (constant S_ .f32 0x00000000#32),
    unary main_cst_19 main_v68 (broadcastInDim S16 ![] bcast_S_S16 : (⟨S_, .f32⟩ : BufTy).Contents (Elt F) → (⟨S16, .f32⟩ : BufTy).Contents (Elt F)),
    nullary main_cst_20 (constant S_ .f32 0x3F800000#32),
    unary main_cst_20 main_v69 (broadcastInDim S16 ![] bcast_S_S16 : (⟨S_, .f32⟩ : BufTy).Contents (Elt F) → (⟨S16, .f32⟩ : BufTy).Contents (Elt F)),
    binary main_v69 main_v68 main_v70 (mulf : (⟨S16, .f32⟩ : BufTy).Contents (Elt F) → (⟨S16, .f32⟩ : BufTy).Contents (Elt F) → (⟨S16, .f32⟩ : BufTy).Contents (Elt F)),
    binary main_v65 main_v67 main_v71 (addf : (⟨S16, .f32⟩ : BufTy).Contents (Elt F) → (⟨S16, .f32⟩ : BufTy).Contents (Elt F) → (⟨S16, .f32⟩ : BufTy).Contents (Elt F)),
    binary main_v71 main_v70 main_v72 (addf : (⟨S16, .f32⟩ : BufTy).Contents (Elt F) → (⟨S16, .f32⟩ : BufTy).Contents (Elt F) → (⟨S16, .f32⟩ : BufTy).Contents (Elt F)),
    nullary main_cst_21 (constant S_ .f32 0x00000000#32),
    binary main_arg0 main_cst_21 main_v73 ((fun x v => Host.reduceAdd x v reducesTo_S16x2x768x768_S_d0_1_2_3 h_S_) : (⟨S16x2x768x768, .f32⟩ : BufTy).Contents (Elt F) → (⟨S_, .f32⟩ : BufTy).Contents (Elt F) → (⟨S_, .f32⟩ : BufTy).Contents (Elt F)),
    nullary main_cst_22 (constant S_ .f32 0x00000000#32),
    binary main_v73 main_cst_22 main_v74 (mulf : (⟨S_, .f32⟩ : BufTy).Contents (Elt F) → (⟨S_, .f32⟩ : BufTy).Contents (Elt F) → (⟨S_, .f32⟩ : BufTy).Contents (Elt F)),
    unary main_v74 main_v75 (broadcastInDim S16 ![] bcast_S_S16 : (⟨S_, .f32⟩ : BufTy).Contents (Elt F) → (⟨S16, .f32⟩ : BufTy).Contents (Elt F)),
    binary main_v72 main_v75 main_v76 (addf : (⟨S16, .f32⟩ : BufTy).Contents (Elt F) → (⟨S16, .f32⟩ : BufTy).Contents (Elt F) → (⟨S16, .f32⟩ : BufTy).Contents (Elt F)),
    unary main_v74 main_v77 (broadcastInDim S16 ![] bcast_S_S16 : (⟨S_, .f32⟩ : BufTy).Contents (Elt F) → (⟨S16, .f32⟩ : BufTy).Contents (Elt F)),
    binary main_v71 main_v77 main_v78 (addf : (⟨S16, .f32⟩ : BufTy).Contents (Elt F) → (⟨S16, .f32⟩ : BufTy).Contents (Elt F) → (⟨S16, .f32⟩ : BufTy).Contents (Elt F)),
    unary main_v74 main_v79 (broadcastInDim S16 ![] bcast_S_S16 : (⟨S_, .f32⟩ : BufTy).Contents (Elt F) → (⟨S16, .f32⟩ : BufTy).Contents (Elt F)),
    binary main_v70 main_v79 main_v80 (addf : (⟨S16, .f32⟩ : BufTy).Contents (Elt F) → (⟨S16, .f32⟩ : BufTy).Contents (Elt F) → (⟨S16, .f32⟩ : BufTy).Contents (Elt F)),
    unary main_v74 main_v81 (broadcastInDim S16 ![] bcast_S_S16 : (⟨S_, .f32⟩ : BufTy).Contents (Elt F) → (⟨S16, .f32⟩ : BufTy).Contents (Elt F)),
    binary main_v65 main_v81 main_v82 (addf : (⟨S16, .f32⟩ : BufTy).Contents (Elt F) → (⟨S16, .f32⟩ : BufTy).Contents (Elt F) → (⟨S16, .f32⟩ : BufTy).Contents (Elt F)),
    unary main_v74 main_v83 (broadcastInDim S16 ![] bcast_S_S16 : (⟨S_, .f32⟩ : BufTy).Contents (Elt F) → (⟨S16, .f32⟩ : BufTy).Contents (Elt F)),
    binary main_v67 main_v83 main_v84 (addf : (⟨S16, .f32⟩ : BufTy).Contents (Elt F) → (⟨S16, .f32⟩ : BufTy).Contents (Elt F) → (⟨S16, .f32⟩ : BufTy).Contents (Elt F)) ]

/-- The four channel slices: the prediction's two channels and the ground truth's channels 2 and 3. -/
abbrev opsSlices : List (HloOp τ sig (Elt F)) :=
  [ unary main_arg0 main_v0 ((extractStridedSlice S16x1x768x768 ![0, 0, 0, 0] · slices_S16x2x768x768_S16x1x768x768_0_0_0_0) : (⟨S16x2x768x768, .f32⟩ : BufTy).Contents (Elt F) → (⟨S16x1x768x768, .f32⟩ : BufTy).Contents (Elt F)),
    unary main_arg0 main_v1 ((extractStridedSlice S16x1x768x768 ![0, 1, 0, 0] · slices_S16x2x768x768_S16x1x768x768_0_1_0_0) : (⟨S16x2x768x768, .f32⟩ : BufTy).Contents (Elt F) → (⟨S16x1x768x768, .f32⟩ : BufTy).Contents (Elt F)),
    unary main_arg3 main_v2 ((extractStridedSlice S16x1x768x768 ![0, 2, 0, 0] · slices_S16x5x768x768_S16x1x768x768_0_2_0_0) : (⟨S16x5x768x768, .f32⟩ : BufTy).Contents (Elt F) → (⟨S16x1x768x768, .f32⟩ : BufTy).Contents (Elt F)),
    unary main_arg3 main_v3 ((extractStridedSlice S16x1x768x768 ![0, 3, 0, 0] · slices_S16x5x768x768_S16x1x768x768_0_3_0_0) : (⟨S16x5x768x768, .f32⟩ : BufTy).Contents (Elt F) → (⟨S16x1x768x768, .f32⟩ : BufTy).Contents (Elt F)) ]

/-- The weight table: from the instance ids and the labels to one weight per pixel. -/
abbrev opsWeights : List (HloOp τ sig (Elt F)) :=
  [ reshape main_arg1 main_v4 rfl shapeCasts_S16x768x768_S16x589824,
    nullary main_cst (constant S_ .f32 0x00000000#32),
    unary main_cst main_v5 (broadcastInDim S16x128 ![] bcast_S_S16x128 : (⟨S_, .f32⟩ : BufTy).Contents (Elt F) → (⟨S16x128, .f32⟩ : BufTy).Contents (Elt F)),
    nullary main_v6 (iotaInDim S16 32 0),
    unary main_v6 main_v7 (broadcastInDim S16x1 ![0] bcast_S16_S16x1_0 : (⟨S16, .i32⟩ : BufTy).Contents (Elt F) → (⟨S16x1, .i32⟩ : BufTy).Contents (Elt F)),
    nullary main_c (constantI S_ 32 0#32),
    unary main_c main_v8 (broadcastInDim S16x1 ![] bcast_S_S16x1 : (⟨S_, .i32⟩ : BufTy).Contents (Elt F) → (⟨S16x1, .i32⟩ : BufTy).Contents (Elt F)),
    binary main_v7 main_v8 main_v9 (cmpi .slt : (⟨S16x1, .i32⟩ : BufTy).Contents (Elt F) → (⟨S16x1, .i32⟩ : BufTy).Contents (Elt F) → (⟨S16x1, .i1⟩ : BufTy).Contents (Elt F)),
    nullary main_c_0 (constantI S_ 32 16#32),
    unary main_c_0 main_v10 (broadcastInDim S16x1 ![] bcast_S_S16x1 : (⟨S_, .i32⟩ : BufTy).Contents (Elt F) → (⟨S16x1, .i32⟩ : BufTy).Contents (Elt F)),
    binary main_v7 main_v10 main_v11 (addi : (⟨S16x1, .i32⟩ : BufTy).Contents (Elt F) → (⟨S16x1, .i32⟩ : BufTy).Contents (Elt F) → (⟨S16x1, .i32⟩ : BufTy).Contents (Elt F)),
    ternary main_v9 main_v11 main_v7 main_v12 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_1 (constantI S_ 32 0#32),
    unary main_c_1 main_v13 (broadcastInDim S16x589824 ![] bcast_S_S16x589824 : (⟨S_, .i32⟩ : BufTy).Contents (Elt F) → (⟨S16x589824, .i32⟩ : BufTy).Contents (Elt F)),
    binary main_v4 main_v13 main_v14 (cmpi .slt : (⟨S16x589824, .i32⟩ : BufTy).Contents (Elt F) → (⟨S16x589824, .i32⟩ : BufTy).Contents (Elt F) → (⟨S16x589824, .i1⟩ : BufTy).Contents (Elt F)),
    nullary main_c_2 (constantI S_ 32 128#32),
    unary main_c_2 main_v15 (broadcastInDim S16x589824 ![] bcast_S_S16x589824 : (⟨S_, .i32⟩ : BufTy).Contents (Elt F) → (⟨S16x589824, .i32⟩ : BufTy).Contents (Elt F)),
    binary main_v4 main_v15 main_v16 (addi : (⟨S16x589824, .i32⟩ : BufTy).Contents (Elt F) → (⟨S16x589824, .i32⟩ : BufTy).Contents (Elt F) → (⟨S16x589824, .i32⟩ : BufTy).Contents (Elt F)),
    ternary main_v14 main_v16 main_v4 main_v17 (select : (⟨S16x589824, .i1⟩ : BufTy).Contents (Elt F) → (⟨S16x589824, .i32⟩ : BufTy).Contents (Elt F) → (⟨S16x589824, .i32⟩ : BufTy).Contents (Elt F) → (⟨S16x589824, .i32⟩ : BufTy).Contents (Elt F)),
    unary main_v12 main_v18 (broadcastInDim S16x589824 ![0, 1] bcast_S16x1_S16x589824_0_1 : (⟨S16x1, .i32⟩ : BufTy).Contents (Elt F) → (⟨S16x589824, .i32⟩ : BufTy).Contents (Elt F)),
    unary main_v18 main_v19 (broadcastInDim S16x589824x1 ![0, 1] bcast_S16x589824_S16x589824x1_0_1 : (⟨S16x589824, .i32⟩ : BufTy).Contents (Elt F) → (⟨S16x589824x1, .i32⟩ : BufTy).Contents (Elt F)),
    unary main_v17 main_v20 (broadcastInDim S16x589824x1 ![0, 1] bcast_S16x589824_S16x589824x1_0_1 : (⟨S16x589824, .i32⟩ : BufTy).Contents (Elt F) → (⟨S16x589824x1, .i32⟩ : BufTy).Contents (Elt F)),
    binary main_v19 main_v20 main_v21 ((fun a b => concatenate S16x589824x2 2 [⟨S16x589824x1, a⟩, ⟨S16x589824x1, b⟩] concatenates_S16x589824x1_S16x589824x1_S16x589824x2_d2) : (⟨S16x589824x1, .i32⟩ : BufTy).Contents (Elt F) → (⟨S16x589824x1, .i32⟩ : BufTy).Contents (Elt F) → (⟨S16x589824x2, .i32⟩ : BufTy).Contents (Elt F)),
    nullary main_cst_3 (constant S_ .f32 0x3F800000#32),
    unary main_cst_3 main_v22 (broadcastInDim S16x589824 ![] bcast_S_S16x589824 : (⟨S_, .f32⟩ : BufTy).Contents (Elt F) → (⟨S16x589824, .f32⟩ : BufTy).Contents (Elt F)),
    ternary main_v5 main_v21 main_v22 main_v23 ((fun x i u => Host.scatterAdd scatter_S16x128_S16x589824x2_S16x589824_n_01_01_2 x i u) : (⟨S16x128, .f32⟩ : BufTy).Contents (Elt F) → (⟨S16x589824x2, .i32⟩ : BufTy).Contents (Elt F) → (⟨S16x589824, .f32⟩ : BufTy).Contents (Elt F) → (⟨S16x128, .f32⟩ : BufTy).Contents (Elt F)),
    unary main_v23 main_v24 ((extractStridedSlice S16x127 ![0, 1] · slices_S16x128_S16x127_0_1) : (⟨S16x128, .f32⟩ : BufTy).Contents (Elt F) → (⟨S16x127, .f32⟩ : BufTy).Contents (Elt F)),
    nullary main_cst_4 (constant S_ .f32 0x00000000#32),
    unary main_cst_4 main_v25 (broadcastInDim S16x127 ![] bcast_S_S16x127 : (⟨S_, .f32⟩ : BufTy).Contents (Elt F) → (⟨S16x127, .f32⟩ : BufTy).Contents (Elt F)),
    binary main_v24 main_v25 main_v26 (cmpf .ogt : (⟨S16x127, .f32⟩ : BufTy).Contents (Elt F) → (⟨S16x127, .f32⟩ : BufTy).Contents (Elt F) → (⟨S16x127, .i1⟩ : BufTy).Contents (Elt F)),
    unary main_v26 main_v27 ((extui 32 · natLt_1_32) : (⟨S16x127, .i1⟩ : BufTy).Contents (Elt F) → (⟨S16x127, .i32⟩ : BufTy).Contents (Elt F)),
    nullary main_c_5 (constantI S_ 32 0#32),
    binary main_v27 main_c_5 main_v28 ((fun x v => Host.reduce IntOp.addi x v reducesTo_S16x127_S_d0_1 h_S_) : (⟨S16x127, .i32⟩ : BufTy).Contents (Elt F) → (⟨S_, .i32⟩ : BufTy).Contents (Elt F) → (⟨S_, .i32⟩ : BufTy).Contents (Elt F)),
    unary main_v28 main_v29 (sitofp .f32 : (⟨S_, .i32⟩ : BufTy).Contents (Elt F) → (⟨S_, .f32⟩ : BufTy).Contents (Elt F)),
    unary main_v23 main_v30 ((extractStridedSlice S16x1 ![0, 0] · slices_S16x128_S16x1_0_0) : (⟨S16x128, .f32⟩ : BufTy).Contents (Elt F) → (⟨S16x1, .f32⟩ : BufTy).Contents (Elt F)),
    reshape main_v30 main_v31 rfl shapeCasts_S16x1_S16,
    nullary main_cst_6 (constant S_ .f32 0x00000000#32),
    binary main_v31 main_cst_6 main_v32 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_v33 (iotaInDim S128 32 0),
    nullary main_c_7 (constantI S_ 32 0#32),
    unary main_c_7 main_v34 (broadcastInDim S128 ![] bcast_S_S128 : (⟨S_, .i32⟩ : BufTy).Contents (Elt F) → (⟨S128, .i32⟩ : BufTy).Contents (Elt F)),
    binary main_v33 main_v34 main_v35 (cmpi .eq : (⟨S128, .i32⟩ : BufTy).Contents (Elt F) → (⟨S128, .i32⟩ : BufTy).Contents (Elt F) → (⟨S128, .i1⟩ : BufTy).Contents (Elt F)),
    unary main_v35 main_v36 (broadcastInDim S1x128 ![1] bcast_S128_S1x128_1 : (⟨S128, .i1⟩ : BufTy).Contents (Elt F) → (⟨S1x128, .i1⟩ : BufTy).Contents (Elt F)),
    nullary main_cst_8 (constant S_ .f32 0x40000000#32),
    binary main_v32 main_cst_8 main_v37 (mulf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    unary main_cst_9 main_v38 (broadcastInDim S16x128 ![] bcast_S_S16x128 : (⟨S_, .f32⟩ : BufTy).Contents (Elt F) → (⟨S16x128, .f32⟩ : BufTy).Contents (Elt F)),
    binary main_v23 main_v38 main_v39 (maximumf : (⟨S16x128, .f32⟩ : BufTy).Contents (Elt F) → (⟨S16x128, .f32⟩ : BufTy).Contents (Elt F) → (⟨S16x128, .f32⟩ : BufTy).Contents (Elt F)),
    unary main_v29 main_v40 (broadcastInDim S16x128 ![] bcast_S_S16x128 : (⟨S_, .f32⟩ : BufTy).Contents (Elt F) → (⟨S16x128, .f32⟩ : BufTy).Contents (Elt F)),
    binary main_v39 main_v40 main_v41 (mulf : (⟨S16x128, .f32⟩ : BufTy).Contents (Elt F) → (⟨S16x128, .f32⟩ : BufTy).Contents (Elt F) → (⟨S16x128, .f32⟩ : BufTy).Contents (Elt F)),
    nullary main_cst_10 (constant S_ .f32 0x40000000#32),
    unary main_cst_10 main_v42 (broadcastInDim S16x128 ![] bcast_S_S16x128 : (⟨S_, .f32⟩ : BufTy).Contents (Elt F) → (⟨S16x128, .f32⟩ : BufTy).Contents (Elt F)),
    binary main_v41 main_v42 main_v43 (mulf : (⟨S16x128, .f32⟩ : BufTy).Contents (Elt F) → (⟨S16x128, .f32⟩ : BufTy).Contents (Elt F) → (⟨S16x128, .f32⟩ : BufTy).Contents (Elt F)),
    TRef.unary (TRef.of (T := ⟨S1x128, .i1⟩) main_v36) (TRef.of (T := ⟨S16x128, .i1⟩) main_call0_v0) (broadcastInDim S16x128 ![0, 1] bcast_S1x128_S16x128_0_1),
    TRef.unary (TRef.of (T := ⟨S_, .f32⟩) main_v37) (TRef.of (T := ⟨S16x128, .f32⟩) main_call0_v1) (broadcastInDim S16x128 ![] bcast_S_S16x128),
    TRef.ternary (TRef.of (T := ⟨S16x128, .i1⟩) main_call0_v0) (TRef.of (T := ⟨S16x128, .f32⟩) main_call0_v1) (TRef.of (T := ⟨S16x128, .f32⟩) main_v43) (TRef.of (T := ⟨S16x128, .f32⟩) main_v44) select,
    nullary main_cst_11 (constant S_ .f32 0x3F800000#32),
    unary main_cst_11 main_v45 (broadcastInDim S16x128 ![] bcast_S_S16x128 : (⟨S_, .f32⟩ : BufTy).Contents (Elt F) → (⟨S16x128, .f32⟩ : BufTy).Contents (Elt F)),
    binary main_v45 main_v44 main_v46 (Host.divf : (⟨S16x128, .f32⟩ : BufTy).Contents (Elt F) → (⟨S16x128, .f32⟩ : BufTy).Contents (Elt F) → (⟨S16x128, .f32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16x589824, .i32⟩) main_call1_v0) (broadcastInDim S16x589824 ![] bcast_S_S16x589824),
    TRef.binary (TRef.of (T := ⟨S16x589824, .i32⟩) main_v4) (TRef.of (T := ⟨S16x589824, .i32⟩) main_call1_v0) (TRef.of (T := ⟨S16x589824, .i1⟩) main_call1_v1) (cmpi .slt),
    TRef.nullary (TRef.of (T := ⟨S_, .i32⟩) main_call1_c_0) (constantI S_ 32 128#32),
    TRef.unary (TRef.of (T := ⟨S_, .i32⟩) main_call1_c_0) (TRef.of (T := ⟨S16x589824, .i32⟩) main_call1_v2) (broadcastInDim S16x589824 ![] bcast_S_S16x589824),
    TRef.binary (TRef.of (T := ⟨S16x589824, .i32⟩) main_v4) (TRef.of (T := ⟨S16x589824, .i32⟩) main_call1_v2) (TRef.of (T := ⟨S16x589824, .i32⟩) main_call1_v3) addi,
    TRef.ternary (TRef.of (T := ⟨S16x589824, .i1⟩) main_call1_v1) (TRef.of (T := ⟨S16x589824, .i32⟩) main_call1_v3) (TRef.of (T := ⟨S16x589824, .i32⟩) main_v4) (TRef.of (T := ⟨S16x589824, .i32⟩) main_call1_v4) select,
    TRef.reshape (TRef.of (T := ⟨S16x589824, .i32⟩) main_call1_v4) (TRef.of (T := ⟨S16x589824x1, .i32⟩) main_call1_v5) rfl shapeCasts_S16x589824_S16x589824x1,
    TRef.nullary (TRef.of (T := ⟨S1, .i32⟩) main_call1_c_1) (constantI S1 32 127#32),
    TRef.nullary (TRef.of (T := ⟨S_, .i32⟩) main_call1_c_2) (constantI S_ 32 0#32),
    TRef.unary (TRef.of (T := ⟨S_, .i32⟩) main_call1_c_2) (TRef.of (T := ⟨S16x589824x1, .i32⟩) main_call1_v6) (broadcastInDim S16x589824x1 ![] bcast_S_S16x589824x1),
    TRef.binary (TRef.of (T := ⟨S16x589824x1, .i32⟩) main_call1_v5) (TRef.of (T := ⟨S16x589824x1, .i32⟩) main_call1_v6) (TRef.of (T := ⟨S16x589824x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16x589824x1, .i32⟩) main_call1_v9) (broadcastInDim S16x589824x1 ![0, 1, 2] bcast_S1x1x1_S16x589824x1_0_1_2),
    TRef.binary (TRef.of (T := ⟨S16x589824x1, .i32⟩) main_call1_v5) (TRef.of (T := ⟨S16x589824x1, .i32⟩) main_call1_v9) (TRef.of (T := ⟨S16x589824x1, .i1⟩) main_call1_v10) (cmpi .sle),
    TRef.binary (TRef.of (T := ⟨S16x589824x1, .i1⟩) main_call1_v7) (TRef.of (T := ⟨S16x589824x1, .i1⟩) main_call1_v10) (TRef.of (T := ⟨S16x589824x1, .i1⟩) main_call1_v11) andi,
    TRef.nullary (TRef.of (T := ⟨S_, .i1⟩) main_call1_c_3) (constantI S_ 1 1#1),
    TRef.binary (TRef.of (T := ⟨S16x589824x1, .i1⟩) main_call1_v11) (TRef.of (T := ⟨S_, .i1⟩) main_call1_c_3) (TRef.of (T := ⟨S16x589824, .i1⟩) main_call1_v12) (fun x v => Host.reduce IntOp.andi x v reducesTo_S16x589824x1_S16x589824_d2 h_S_),
    TRef.binary (TRef.of (T := ⟨S16x128, .f32⟩) main_v46) (TRef.of (T := ⟨S16x589824x1, .i32⟩) main_call1_v5) (TRef.of (T := ⟨S16x589824, .f32⟩) main_call1_v13) (fun x i => Host.gather gather_S16x128_S16x589824x1_S16x589824_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16x589824, .f32⟩) main_call1_v14) (broadcastInDim S16x589824 ![] bcast_S_S16x589824),
    TRef.ternary (TRef.of (T := ⟨S16x589824, .i1⟩) main_call1_v12) (TRef.of (T := ⟨S16x589824, .f32⟩) main_call1_v13) (TRef.of (T := ⟨S16x589824, .f32⟩) main_call1_v14) (TRef.of (T := ⟨S16x589824, .f32⟩) main_v47) select,
    reshape main_v47 main_v48 rfl shapeCasts_S16x589824_S16x768x768,
    unary main_v48 main_v49 (broadcastInDim S16x1x768x768 ![0, 2, 3] bcast_S16x768x768_S16x1x768x768_0_2_3 : (⟨S16x768x768, .f32⟩ : BufTy).Contents (Elt F) → (⟨S16x1x768x768, .f32⟩ : BufTy).Contents (Elt F)),
    unary main_arg2 main_v50 (broadcastInDim S16x1x768x768 ![0, 2, 3] bcast_S16x768x768_S16x1x768x768_0_2_3 : (⟨S16x768x768, .i32⟩ : BufTy).Contents (Elt F) → (⟨S16x1x768x768, .i32⟩ : BufTy).Contents (Elt F)),
    nullary main_c_12 (constantI S_ 32 0#32),
    unary main_c_12 main_v51 (broadcastInDim S16x1x768x768 ![] bcast_S_S16x1x768x768 : (⟨S_, .i32⟩ : BufTy).Contents (Elt F) → (⟨S16x1x768x768, .i32⟩ : BufTy).Contents (Elt F)),
    binary main_v50 main_v51 main_v52 (cmpi .eq : (⟨S16x1x768x768, .i32⟩ : BufTy).Contents (Elt F) → (⟨S16x1x768x768, .i32⟩ : BufTy).Contents (Elt F) → (⟨S16x1x768x768, .i1⟩ : BufTy).Contents (Elt F)),
    nullary main_cst_13 (constant S_ .f32 0x3F800000#32),
    nullary main_cst_14 (constant S_ .f32 0x3F800000#32),
    TRef.unary (TRef.of (T := ⟨S_, .f32⟩) main_cst_13) (TRef.of (T := ⟨S16x1x768x768, .f32⟩) main_call2_v0) (broadcastInDim S16x1x768x768 ![] bcast_S_S16x1x768x768),
    TRef.unary (TRef.of (T := ⟨S_, .f32⟩) main_cst_14) (TRef.of (T := ⟨S16x1x768x768, .f32⟩) main_call2_v1) (broadcastInDim S16x1x768x768 ![] bcast_S_S16x1x768x768),
    TRef.ternary (TRef.of (T := ⟨S16x1x768x768, .i1⟩) main_v52) (TRef.of (T := ⟨S16x1x768x768, .f32⟩) main_call2_v0) (TRef.of (T := ⟨S16x1x768x768, .f32⟩) main_call2_v1) (TRef.of (T := ⟨S16x1x768x768, .f32⟩) main_v53) select,
    unary main_v53 main_v54 (id : (⟨S16x1x768x768, .f32⟩ : BufTy).Contents (Elt F) → (⟨S16x1x768x768, .f32⟩ : BufTy).Contents (Elt F)),
    binary main_v54 main_v49 main_v55 (mulf : (⟨S16x1x768x768, .f32⟩ : BufTy).Contents (Elt F) → (⟨S16x1x768x768, .f32⟩ : BufTy).Contents (Elt F) → (⟨S16x1x768x768, .f32⟩ : BufTy).Contents (Elt F)) ]

/-- The two weighted sums of absolute differences, and the epilogue. -/
abbrev opsLoss : List (HloOp τ sig (Elt F)) :=
  [ binary main_v0 main_v2 main_v56 (subf : (⟨S16x1x768x768, .f32⟩ : BufTy).Contents (Elt F) → (⟨S16x1x768x768, .f32⟩ : BufTy).Contents (Elt F) → (⟨S16x1x768x768, .f32⟩ : BufTy).Contents (Elt F)),
    unary main_v56 main_v57 (Host.absf : (⟨S16x1x768x768, .f32⟩ : BufTy).Contents (Elt F) → (⟨S16x1x768x768, .f32⟩ : BufTy).Contents (Elt F)),
    binary main_v55 main_v57 main_v58 (mulf : (⟨S16x1x768x768, .f32⟩ : BufTy).Contents (Elt F) → (⟨S16x1x768x768, .f32⟩ : BufTy).Contents (Elt F) → (⟨S16x1x768x768, .f32⟩ : BufTy).Contents (Elt F)),
    nullary main_cst_15 (constant S_ .f32 0x00000000#32),
    binary main_v58 main_cst_15 main_v59 ((fun x v => Host.reduceAdd x v reducesTo_S16x1x768x768_S16_d1_2_3 h_S_) : (⟨S16x1x768x768, .f32⟩ : BufTy).Contents (Elt F) → (⟨S_, .f32⟩ : BufTy).Contents (Elt F) → (⟨S16, .f32⟩ : BufTy).Contents (Elt F)),
    binary main_v1 main_v3 main_v60 (subf : (⟨S16x1x768x768, .f32⟩ : BufTy).Contents (Elt F) → (⟨S16x1x768x768, .f32⟩ : BufTy).Contents (Elt F) → (⟨S16x1x768x768, .f32⟩ : BufTy).Contents (Elt F)),
    unary main_v60 main_v61 (Host.absf : (⟨S16x1x768x768, .f32⟩ : BufTy).Contents (Elt F) → (⟨S16x1x768x768, .f32⟩ : BufTy).Contents (Elt F)),
    binary main_v55 main_v61 main_v62 (mulf : (⟨S16x1x768x768, .f32⟩ : BufTy).Contents (Elt F) → (⟨S16x1x768x768, .f32⟩ : BufTy).Contents (Elt F) → (⟨S16x1x768x768, .f32⟩ : BufTy).Contents (Elt F)),
    nullary main_cst_16 (constant S_ .f32 0x00000000#32),
    binary main_v62 main_cst_16 main_v63 ((fun x v => Host.reduceAdd x v reducesTo_S16x1x768x768_S16_d1_2_3 h_S_) : (⟨S16x1x768x768, .f32⟩ : BufTy).Contents (Elt F) → (⟨S_, .f32⟩ : BufTy).Contents (Elt F) → (⟨S16, .f32⟩ : BufTy).Contents (Elt F)),
    nullary main_cst_17 (constant S_ .f32 0x3F800000#32),
    unary main_cst_17 main_v64 (broadcastInDim S16 ![] bcast_S_S16 : (⟨S_, .f32⟩ : BufTy).Contents (Elt F) → (⟨S16, .f32⟩ : BufTy).Contents (Elt F)),
    binary main_v64 main_v59 main_v65 (mulf : (⟨S16, .f32⟩ : BufTy).Contents (Elt F) → (⟨S16, .f32⟩ : BufTy).Contents (Elt F) → (⟨S16, .f32⟩ : BufTy).Contents (Elt F)),
    nullary main_cst_18 (constant S_ .f32 0x3F800000#32),
    unary main_cst_18 main_v66 (broadcastInDim S16 ![] bcast_S_S16 : (⟨S_, .f32⟩ : BufTy).Contents (Elt F) → (⟨S16, .f32⟩ : BufTy).Contents (Elt F)),
    binary main_v66 main_v63 main_v67 (mulf : (⟨S16, .f32⟩ : BufTy).Contents (Elt F) → (⟨S16, .f32⟩ : BufTy).Contents (Elt F) → (⟨S16, .f32⟩ : BufTy).Contents (Elt F)),
    nullary main_cst_19 (constant S_ .f32 0x00000000#32),
    unary main_cst_19 main_v68 (broadcastInDim S16 ![] bcast_S_S16 : (⟨S_, .f32⟩ : BufTy).Contents (Elt F) → (⟨S16, .f32⟩ : BufTy).Contents (Elt F)),
    nullary main_cst_20 (constant S_ .f32 0x3F800000#32),
    unary main_cst_20 main_v69 (broadcastInDim S16 ![] bcast_S_S16 : (⟨S_, .f32⟩ : BufTy).Contents (Elt F) → (⟨S16, .f32⟩ : BufTy).Contents (Elt F)),
    binary main_v69 main_v68 main_v70 (mulf : (⟨S16, .f32⟩ : BufTy).Contents (Elt F) → (⟨S16, .f32⟩ : BufTy).Contents (Elt F) → (⟨S16, .f32⟩ : BufTy).Contents (Elt F)),
    binary main_v65 main_v67 main_v71 (addf : (⟨S16, .f32⟩ : BufTy).Contents (Elt F) → (⟨S16, .f32⟩ : BufTy).Contents (Elt F) → (⟨S16, .f32⟩ : BufTy).Contents (Elt F)),
    binary main_v71 main_v70 main_v72 (addf : (⟨S16, .f32⟩ : BufTy).Contents (Elt F) → (⟨S16, .f32⟩ : BufTy).Contents (Elt F) → (⟨S16, .f32⟩ : BufTy).Contents (Elt F)),
    nullary main_cst_21 (constant S_ .f32 0x00000000#32),
    binary main_arg0 main_cst_21 main_v73 ((fun x v => Host.reduceAdd x v reducesTo_S16x2x768x768_S_d0_1_2_3 h_S_) : (⟨S16x2x768x768, .f32⟩ : BufTy).Contents (Elt F) → (⟨S_, .f32⟩ : BufTy).Contents (Elt F) → (⟨S_, .f32⟩ : BufTy).Contents (Elt F)),
    nullary main_cst_22 (constant S_ .f32 0x00000000#32),
    binary main_v73 main_cst_22 main_v74 (mulf : (⟨S_, .f32⟩ : BufTy).Contents (Elt F) → (⟨S_, .f32⟩ : BufTy).Contents (Elt F) → (⟨S_, .f32⟩ : BufTy).Contents (Elt F)),
    unary main_v74 main_v75 (broadcastInDim S16 ![] bcast_S_S16 : (⟨S_, .f32⟩ : BufTy).Contents (Elt F) → (⟨S16, .f32⟩ : BufTy).Contents (Elt F)),
    binary main_v72 main_v75 main_v76 (addf : (⟨S16, .f32⟩ : BufTy).Contents (Elt F) → (⟨S16, .f32⟩ : BufTy).Contents (Elt F) → (⟨S16, .f32⟩ : BufTy).Contents (Elt F)),
    unary main_v74 main_v77 (broadcastInDim S16 ![] bcast_S_S16 : (⟨S_, .f32⟩ : BufTy).Contents (Elt F) → (⟨S16, .f32⟩ : BufTy).Contents (Elt F)),
    binary main_v71 main_v77 main_v78 (addf : (⟨S16, .f32⟩ : BufTy).Contents (Elt F) → (⟨S16, .f32⟩ : BufTy).Contents (Elt F) → (⟨S16, .f32⟩ : BufTy).Contents (Elt F)),
    unary main_v74 main_v79 (broadcastInDim S16 ![] bcast_S_S16 : (⟨S_, .f32⟩ : BufTy).Contents (Elt F) → (⟨S16, .f32⟩ : BufTy).Contents (Elt F)),
    binary main_v70 main_v79 main_v80 (addf : (⟨S16, .f32⟩ : BufTy).Contents (Elt F) → (⟨S16, .f32⟩ : BufTy).Contents (Elt F) → (⟨S16, .f32⟩ : BufTy).Contents (Elt F)),
    unary main_v74 main_v81 (broadcastInDim S16 ![] bcast_S_S16 : (⟨S_, .f32⟩ : BufTy).Contents (Elt F) → (⟨S16, .f32⟩ : BufTy).Contents (Elt F)),
    binary main_v65 main_v81 main_v82 (addf : (⟨S16, .f32⟩ : BufTy).Contents (Elt F) → (⟨S16, .f32⟩ : BufTy).Contents (Elt F) → (⟨S16, .f32⟩ : BufTy).Contents (Elt F)),
    unary main_v74 main_v83 (broadcastInDim S16 ![] bcast_S_S16 : (⟨S_, .f32⟩ : BufTy).Contents (Elt F) → (⟨S16, .f32⟩ : BufTy).Contents (Elt F)),
    binary main_v67 main_v83 main_v84 (addf : (⟨S16, .f32⟩ : BufTy).Contents (Elt F) → (⟨S16, .f32⟩ : BufTy).Contents (Elt F) → (⟨S16, .f32⟩ : BufTy).Contents (Elt F)) ]

set_option maxRecDepth 8192 in
theorem ops_split : (ops : List (HloOp τ sig (Elt F))) = opsSlices ++ (opsWeights ++ opsLoss) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., unary_bufs_sub .., nullary_bufs_sub .., unary_bufs_sub .., binary_bufs_sub .., unary_bufs_sub .., nullary_bufs_sub .., binary_bufs_sub .., unary_bufs_sub .., unary_bufs_sub .., reshape_bufs_sub .., nullary_bufs_sub .., binary_bufs_sub .., nullary_bufs_sub .., nullary_bufs_sub .., unary_bufs_sub .., binary_bufs_sub .., unary_bufs_sub .., nullary_bufs_sub .., binary_bufs_sub .., nullary_bufs_sub .., unary_bufs_sub .., binary_bufs_sub .., unary_bufs_sub .., binary_bufs_sub .., nullary_bufs_sub .., unary_bufs_sub .., binary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., nullary_bufs_sub .., unary_bufs_sub .., binary_bufs_sub .., nullary_bufs_sub .., nullary_bufs_sub .., unary_bufs_sub .., unary_bufs_sub .., ternary_bufs_sub .., unary_bufs_sub .., binary_bufs_sub .., binary_bufs_sub .., unary_bufs_sub .., binary_bufs_sub .., nullary_bufs_sub .., binary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., binary_bufs_sub .., binary_bufs_sub .., nullary_bufs_sub .., binary_bufs_sub .., nullary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub ..⟩

/-- On every device, for any float values, from any memory with zero counters: every weakly fair execution of @main
    terminates with each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefArgs.lean ====
/-
  No operation of the reference writes one of its four argument arrays: each ends as launched.
-/
import proofs.«105772_j77627238908096_1_alg».proof.Proof.RefRun

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem keeps_arg0 (m : (ℓ : Loc nD τ sig) → Buf (Elt F) ℓ) (c : Dev nD) :
    after ops (launchContents m c) (Proc.devRef .tc main_arg0) = m ((c.tc : Thread nD τ).loc main_arg0) :=
  after_of_forall_not_mem (b := Proc.devRef .tc main_arg0) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

theorem keeps_arg1 (m : (ℓ : Loc nD τ sig) → Buf (Elt F) ℓ) (c : Dev nD) :
    after ops (launchContents m c) (Proc.devRef .tc main_arg1) = m ((c.tc : Thread nD τ).loc main_arg1) :=
  after_of_forall_not_mem (b := Proc.devRef .tc main_arg1) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

theorem keeps_arg2 (m : (ℓ : Loc nD τ sig) → Buf (Elt F) ℓ) (c : Dev nD) :
    after ops (launchContents m c) (Proc.devRef .tc main_arg2) = m ((c.tc : Thread nD τ).loc main_arg2) :=
  after_of_forall_not_mem (b := Proc.devRef .tc main_arg2) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

theorem keeps_arg3 (m : (ℓ : Loc nD τ sig) → Buf (Elt F) ℓ) (c : Dev nD) :
    after ops (launchContents m c) (Proc.devRef .tc main_arg3) = m ((c.tc : Thread nD τ).loc main_arg3) :=
  after_of_forall_not_mem (b := Proc.devRef .tc main_arg3) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

end Cert.ReferenceIdeal.Hand

end
-- ==== Proof.IdealPayload.lean ====
/-
  The kernel body's arithmetic at the ideal instance. Each accumulator update is

      new = old + Σ_{(r, c) ∈ 384 × 768}  w[r, c] · | u[r, c] − v[r, c] |

  where `w` is the weight block, `u` one channel of the prediction block and `v` the same channel of the ground-truth
  block: a lane sum over both axes of a one-row 1 × 384 × 768 vector is the total of its entries, and the reshapes
  around it only drop or add unit axes.
-/
import proofs.«105772_j77627238908096_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- A block's weighted sum of absolute differences: `Σ w · |u − v|` over the 384 × 768 pixels of the block. -/
def blockLoss (u v : FVec Ideal S1x1x384x768 .f32) (w : FVec Ideal S1x384x768 .f32) : EReal :=
  ∑ j : S1x384x768.Idx,
    w (ix3 (0 : Fin 1) (j 1 : Fin 384) (j 2 : Fin 768))
      * max (u (ix4 (0 : Fin 1) (0 : Fin 1) (j 1 : Fin 384) (j 2 : Fin 768)) - v (ix4 (0 : Fin 1) (0 : Fin 1) (j 1 : Fin 384) (j 2 : Fin 768)))
            (-(u (ix4 (0 : Fin 1) (0 : Fin 1) (j 1 : Fin 384) (j 2 : Fin 768)) - v (ix4 (0 : Fin 1) (0 : Fin 1) (j 1 : Fin 384) (j 2 : Fin 768))))

/-! ## The layout operations of the body, each read at an index -/

/-- The one entry of a one-element vector viewed 1 × 1 × 1. -/
theorem extract_cast_one (s : FVec Ideal S1 .f32) :
    extractAt ![0, 0, 0] (shapeCast S1x1x1 s shapeCasts_S1_S1x1x1) inpos_S1x1x1_p0_0_0 = s (ix1 (0 : Fin 1)) := by
  unfold extractAt
  exact shapeCast_apply s shapeCasts_S1_S1x1x1 _ (ix1 (0 : Fin 1)) (by
    rw [Shape.rowMajor_val_one, Shape.rowMajor_val_three]; rfl)

/-- Summing a 1 × 384 × 768 vector over its two long axes leaves the total of its entries. -/
theorem lane_sum_total (src : FVec Ideal S1x384x768 .f32) (hφ : FKind.Formats .f32)
    (hacc : (0x00000000#32 : BitVec 32) = FKind.add.neutral .f32 hφ) (j : S1.Idx) :
    multiReduction (F := Ideal) .add [1, 2] S1 src 0x00000000#32 reduces_S1x384x768_S1 hφ hacc j = ∑ i : S1x384x768.Idx, src i :=
  Ideal.multiReduction_add_total src 0x00000000#32 reduces_S1x384x768_S1 (by decide) hφ hacc j

/-- A 384 × 768 matrix viewed 1 × 384 × 768 reads its entry at the two trailing coordinates. -/
theorem cast_addUnit (x : FVec Ideal S384x768 .f32) (j : S1x384x768.Idx) :
    shapeCast S1x384x768 x shapeCasts_S384x768_S1x384x768 j = x (ix2 (j 1 : Fin 384) (j 2 : Fin 768)) := by
  refine shapeCast_apply x shapeCasts_S384x768_S1x384x768 j _ ?_
  have h0 : (j 0).val = 0 := by have : (j 0).val < 1 := (j 0).isLt; omega
  rw [Shape.rowMajor_val_two, Shape.rowMajor_val_three, h0]
  show (j 1).val * 768 + (j 2).val = ((0 * 384 + (j 1).val) * 768 + (j 2).val)
  omega

/-- A 1 × 384 × 768 block viewed 384 × 768. -/
theorem cast_dropUnit (x : FVec Ideal S1x384x768 .f32) (r : Fin 384) (c : Fin 768) :
    shapeCast S384x768 x shapeCasts_S1x384x768_S384x768 (ix2 r c) = x (ix3 (0 : Fin 1) r c) := by
  refine shapeCast_apply x shapeCasts_S1x384x768_S384x768 _ _ ?_
  rw [Shape.rowMajor_val_two, Shape.rowMajor_val_three]
  show ((0 * 384 + r.val) * 768 + c.val) = r.val * 768 + c.val
  omega

/-- A 1 × 1 × 384 × 768 channel viewed 384 × 768. -/
theorem cast_dropUnits (x : FVec Ideal S1x1x384x768 .f32) (r : Fin 384) (c : Fin 768) :
    shapeCast S384x768 x shapeCasts_S1x1x384x768_S384x768 (ix2 r c) = x (ix4 (0 : Fin 1) (0 : Fin 1) r c) := by
  refine shapeCast_apply x shapeCasts_S1x1x384x768_S384x768 _ _ ?_
  rw [Shape.rowMajor_val_two, Shape.rowMajor_val_four]
  show (((0 * 1 + 0) * 384 + r.val) * 768 + c.val) = r.val * 768 + c.val
  omega

/-! ## The weighted sum the body computes from its three loads -/

/-- The absolute value of a vector, read at an index: the larger of the entry and its negation. -/
theorem abs_at {s : Shape} (x : FVec Ideal s .f32) (i : s.Idx) : absf x i = max (x i) (-(x i)) := rfl

/-- One pixel's term: the weight times the absolute difference, read through the three reshapes. -/
theorem pixel_term (u v : FVec Ideal S1x1x384x768 .f32) (w : FVec Ideal S1x384x768 .f32) (r : Fin 384) (c : Fin 768) :
    mulf (F := Ideal) (shapeCast S384x768 w shapeCasts_S1x384x768_S384x768)
        (absf (F := Ideal) (subf (F := Ideal) (shapeCast S384x768 u shapeCasts_S1x1x384x768_S384x768) (shapeCast S384x768 v shapeCasts_S1x1x384x768_S384x768)))
        (ix2 r c)
      = w (ix3 (0 : Fin 1) r c)
          * max (u (ix4 (0 : Fin 1) (0 : Fin 1) r c) - v (ix4 (0 : Fin 1) (0 : Fin 1) r c))
                (-(u (ix4 (0 : Fin 1) (0 : Fin 1) r c) - v (ix4 (0 : Fin 1) (0 : Fin 1) r c))) := by
  have hd : subf (F := Ideal) (shapeCast S384x768 u shapeCasts_S1x1x384x768_S384x768) (shapeCast S384x768 v shapeCasts_S1x1x384x768_S384x768) (ix2 r c)
      = u (ix4 (0 : Fin 1) (0 : Fin 1) r c) - v (ix4 (0 : Fin 1) (0 : Fin 1) r c) :=
    (subf_apply _ _ _).trans (congrArg₂ (· - ·) (cast_dropUnits u r c) (cast_dropUnits v r c))
  refine (mulf_apply _ _ _).trans (congrArg₂ (· * ·) (cast_dropUnit w r c) ?_)
  refine (abs_at _ _).trans ?_
  rw [hd]

/-- The lane-summed product of the weights with the absolute differences is the block's weighted sum. -/
theorem weighted_sum_eq (u v : FVec Ideal S1x1x384x768 .f32) (w : FVec Ideal S1x384x768 .f32) (hφ : FKind.Formats .f32)
    (hacc : (0x00000000#32 : BitVec 32) = FKind.add.neutral .f32 hφ) :
    extractAt ![0, 0, 0]
      (shapeCast S1x1x1
        (multiReduction (F := Ideal) .add [1, 2] S1
          (shapeCast S1x384x768
            (mulf (F := Ideal) (shapeCast S384x768 w shapeCasts_S1x384x768_S384x768)
              (absf (F := Ideal) (subf (F := Ideal) (shapeCast S384x768 u shapeCasts_S1x1x384x768_S384x768) (shapeCast S384x768 v shapeCasts_S1x1x384x768_S384x768))))
            shapeCasts_S384x768_S1x384x768)
          0x00000000#32 reduces_S1x384x768_S1 hφ hacc)
        shapeCasts_S1_S1x1x1)
      inpos_S1x1x1_p0_0_0
    = (blockLoss u v w : Ideal .f32) := by
  refine (extract_cast_one _).trans ((lane_sum_total _ hφ hacc _).trans ?_)
  unfold blockLoss
  exact Finset.sum_congr rfl fun j _ => (cast_addUnit _ j).trans (pixel_term u v w (j 1 : Fin 384) (j 2 : Fin 768))

/-- The sine accumulator's update: the old word plus the block's weighted sum over channel 0. -/
theorem sinUpdate_apply (u v : Vec Ideal S1x1x384x768 .f32) (w : Vec Ideal S1x384x768 .f32) (old : Vec Ideal S1x1x1 .f32) (y : S1x1x1.Idx) :
    k0_pay6 (F := Ideal) u v w old y = old y + blockLoss u v w := by
  unfold k0_pay6 k0_pay4
  refine (addf_apply _ _ y).trans ?_
  refine congrArg₂ (· + ·) (congrFun (shapeCast_self old _) y) ?_
  refine (broadcast_apply _ y).trans ?_
  exact weighted_sum_eq u v w _ _

/-- The block's weighted sum over channel 1, as the body hands it on. -/
theorem cosSum_eq (u v : Vec Ideal S1x1x384x768 .f32) (w : Vec Ideal S1x384x768 .f32) :
    k0_pay5 (F := Ideal) u v w = blockLoss u v w := by
  unfold k0_pay5 k0_pay4
  exact weighted_sum_eq u v w _ _

/-- The cosine accumulator's update: the old word plus that sum. -/
theorem cosUpdate_apply (sum : Ideal .f32) (old : Vec Ideal S1x1x1 .f32) (y : S1x1x1.Idx) :
    k0_pay1 (F := Ideal) sum old y = old y + sum := by
  unfold k0_pay1
  refine (addf_apply _ _ y).trans ?_
  exact congrArg₂ (· + ·) (congrFun (shapeCast_self old _) y) (broadcast_apply _ y)

/-- The zero word the accumulators are reset to. -/
theorem sinZero_apply (y : S1x1x1.Idx) : k0_pay2 (F := Ideal) y = 0 := by
  unfold k0_pay2
  show Ideal.ofBits .f32 0x00000000#32 = 0
  exact Ideal.ofBits_zero_f32
theorem cosZero_apply (y : S1x1x1.Idx) : k0_pay3 (F := Ideal) y = 0 := by
  unfold k0_pay3
  show Ideal.ofBits .f32 0x00000000#32 = 0
  exact Ideal.ofBits_zero_f32

end Cert.KernelIdeal.Hand

end
-- ==== Proof.IdealRunFirst.lean ====
/-
  The kernel body run on whole staging memrefs at an image's first row block: two accumulators reset and then
  added to. Stated at any float instance.
-/
import proofs.«105772_j77627238908096_1_alg».proof.Proof.Gen.KernelIdeal.Frame
import proofs.«105772_j77627238908096_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which grid points reset the accumulators

The grid is 16 images by 2 row blocks of 384 rows; a point's second coordinate is its row block. The body tests it
against zero: at row block 0 the two one-word accumulators (the sine loss and the cosine loss of the image) are
zeroed before anything is added to them. -/

/-- The body's test "this is the image's first row block", as the printed scalar chain over the coordinates. -/
abbrev firstBlock (i : grid0.Coords) : Prop :=
  (Scalar.cmpi .ne (Scalar.extui (Scalar.cmpi .eq (BitVec.ofNat 32 (i 1).val) 0#32)) 0#32) = 1#1

/-- Points are numbered image-major, so the first row blocks are the even points. -/
theorem firstBlock_iff : ∀ t : Fin cfg0.N, firstBlock (grid0.coords t) ↔ t.val % 2 = 0 :=
  (by decide +kernel : ∀ t : Fin grid0.N, firstBlock (grid0.coords t) ↔ t.val % 2 = 0)

/-- A store into a one-word accumulator, as a piece. -/
abbrev Piece1 (F : FTy → Type) [FloatOps F] := View.Piece (Elt F) S1x1x1 .f32

-- (the run's proof term is large)
set_option maxHeartbeats 4000000 in
/-- The body at an image's FIRST row block, on whole staging memrefs: the prediction block `x0`, the ground-truth
    block `x1` and the weight block `x2` are read and left as they were; the two accumulators, whatever they held,
    end with the stores the body made into them (zero, then zero plus the block's weighted sum), listed last first. -/
noncomputable def runFirst (c : Dev nD) (i : grid0.Coords)
    (a2 : Memref sig .tc .vmem S1x2x384x768 .f32) (h2 : a2.IsWhole) (a3 : Memref sig .tc .vmem S1x2x384x768 .f32) (h3 : a3.IsWhole)
    (a4 : Memref sig .tc .vmem S1x384x768 .f32) (h4 : a4.IsWhole) (a5 : Memref sig .tc .vmem S1x1x1 .f32) (h5 : a5.IsWhole)
    (a6 : Memref sig .tc .vmem S1x1x1 .f32) (h6 : a6.IsWhole) (hc : firstBlock i)
    (x0 x1 : Vec F S1x2x384x768 .f32) (x2 : Vec F S1x384x768 .f32) :
    Σ' (Ls Lc : List (Piece1 F)),
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f Ls)
                ∗ (∃ f, a6.view.loc (c : Thread nD τ) ↦[a6.view.set]{fullShare} a6.view.writes (Elt F) f Lc)) -∗ K ⟨⟩))
          ⊢ wp frame (wpE (defs₀ (F := F)) Variants.none c none) E (cc0__weighted_l1_kernel i a2 h2 a3 h3 a4 h4 a5 h5 a6 h6) K := by
  refine ⟨?_, ?_, fun E K => ?run⟩
  case run =>
    simp only [cc0__weighted_l1_kernel_eq_skeleton]; unfold cc0__weighted_l1_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact H4

end Cert.KernelIdeal.Hand

end
-- ==== Proof.IdealRunLater.lean ====
/-
  The kernel body run on whole staging memrefs at a later row block of an image: the two accumulators carried from
  the row block before and added to. Stated at any float instance.
-/
import proofs.«105772_j77627238908096_1_alg».proof.Proof.IdealRunFirst

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a LATER row block of an image, on whole staging memrefs: the three input blocks read and left as they
    were; the accumulators arrive holding the running sums `s` (sine) and `k` (cosine) of the row blocks before, and end with
    the one store the body makes into each (the running sum plus this block's weighted sum). -/
noncomputable def runLater (c : Dev nD) (i : grid0.Coords)
    (a2 : Memref sig .tc .vmem S1x2x384x768 .f32) (h2 : a2.IsWhole) (a3 : Memref sig .tc .vmem S1x2x384x768 .f32) (h3 : a3.IsWhole)
    (a4 : Memref sig .tc .vmem S1x384x768 .f32) (h4 : a4.IsWhole) (a5 : Memref sig .tc .vmem S1x1x1 .f32) (h5 : a5.IsWhole)
    (a6 : Memref sig .tc .vmem S1x1x1 .f32) (h6 : a6.IsWhole) (hc : ¬firstBlock i)
    (x0 x1 : Vec F S1x2x384x768 .f32) (x2 : Vec F S1x384x768 .f32) (s k : Vec F S1x1x1 .f32) :
    Σ' (Ls Lc : List (Piece1 F)),
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare s ∗ owns (c : Thread nD τ) a6 fullShare k
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f Ls)
                ∗ (∃ f, a6.view.loc (c : Thread nD τ) ↦[a6.view.set]{fullShare} a6.view.writes (Elt F) f Lc)) -∗ K ⟨⟩))
          ⊢ wp frame (wpE (defs₀ (F := F)) Variants.none c none) E (cc0__weighted_l1_kernel i a2 h2 a3 h3 a4 h4 a5 h5 a6 h6) K := by
  refine ⟨?_, ?_, fun E K => ?run⟩
  case run =>
    simp only [cc0__weighted_l1_kernel_eq_skeleton]; unfold cc0__weighted_l1_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h2.eq_unread hf0; obtain rfl := h3.eq_unread hf1; obtain rfl := h4.eq_unread hf2
    obtain rfl := h5.eq_unread hf3; obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact H4

end Cert.KernelIdeal.Hand

end
-- ==== Proof.IdealFrame.lean ====
/-
  The frame of the idealized kernel program, at any float instance: what the two one-word accumulators hold after
  each grid point, the pipeline's proof data, the body obligation at every point, and the run of the whole program.

  The grid is 16 images by 2 row blocks. Per image the body zeroes the accumulators at row block 0 and adds the row block's
  weighted sum of absolute differences at both; the accumulators are written back after row block 1.
-/
import proofs.«105772_j77627238908096_1_alg».proof.Proof.IdealRunLater
import Idealize.ShloMosaic.Lib.Pipeline.FrameSuffix

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- One staging buffer of each accumulator's window, through which its contents are stated (the choice does not
    matter: a covered block's contents are the stores' alone). -/
abbrev sinView : View sig .tc .vmem S1x1x1 .f32 := (Memref.whole cc0_stg3_0 : Memref sig .tc .vmem S1x1x1 .f32).view
abbrev cosView : View sig .tc .vmem S1x1x1 .f32 := (Memref.whole cc0_stg4_0 : Memref sig .tc .vmem S1x1x1 .f32).view

/-- Each window's current staging memref at point `t`, as the pipeline passes it to the body, and its wholeness. -/
abbrev mPred (t : Fin cfg0.N) : Memref sig .tc .vmem S1x2x384x768 .f32 := win0_0.stage (cfg0.slots t 0)
abbrev hPred (t : Fin cfg0.N) : (mPred t).IsWhole := hstage0_0 ((cfg0.slots t 0).cast nbuf0_0)
abbrev mTruth (t : Fin cfg0.N) : Memref sig .tc .vmem S1x2x384x768 .f32 := win0_1.stage (cfg0.slots t 1)
abbrev hTruth (t : Fin cfg0.N) : (mTruth t).IsWhole := hstage0_1 ((cfg0.slots t 1).cast nbuf0_1)
abbrev mWeight (t : Fin cfg0.N) : Memref sig .tc .vmem S1x384x768 .f32 := win0_2.stage (cfg0.slots t 2)
abbrev hWeight (t : Fin cfg0.N) : (mWeight t).IsWhole := hstage0_2 ((cfg0.slots t 2).cast nbuf0_2)
abbrev mSin (t : Fin cfg0.N) : Memref sig .tc .vmem S1x1x1 .f32 := win0_3.stage (cfg0.slots t 3)
abbrev hSin (t : Fin cfg0.N) : (mSin t).IsWhole := hstage0_3 ((cfg0.slots t 3).cast nbuf0_3)
abbrev mCos (t : Fin cfg0.N) : Memref sig .tc .vmem S1x1x1 .f32 := win0_4.stage (cfg0.slots t 4)
abbrev hCos (t : Fin cfg0.N) : (mCos t).IsWhole := hstage0_4 ((cfg0.slots t 4).cast nbuf0_4)

/-! ## The ground-truth window is never cut

Its blocks are two channels wide on an axis of five channels, so a block at channel index 2 would overhang; the
index map only ever asks for channel index 1 (channels 2 and 3), which lies inside. Decided over the grid. -/

theorem truth_uncut : ∀ (t : Fin cfg0.N) (a : Fin 4), (cfg0.win 1).clip (cfg0.grid.coords t) a = none :=
  (by decide +kernel : ∀ (t : Fin grid0.N) (a : Fin 4), win0_1.clip (grid0.coords t) a = none)

/-- The ground-truth window's staging contents at point `t`: its block of the array, laid into the whole buffer (the
    filler is never seen: the fetch is uncut). -/
def truthBlock (c : Dev nD) (t : Fin cfg0.N) : Vec F S1x2x384x768 .f32 :=
  win0_1.fill (grid0.coords t) (fun _ => @Classical.arbitrary _ (Elt.nonempty F _)) (iblk m c 1 t)

/-! ## What the accumulators hold after each point -/

/-- The stores of either run cover the one word of each accumulator. -/
theorem cover_first_sin (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) (y : S1x1x1.Idx) :
    ∃ pc ∈ (runFirst c i a2 h2 a3 h3 a4 h4 a5 h5 a6 h6 hc x0 x1 x2).1, y ∈ pc.1.set :=
  View.cover_of_tiledL (runFirst c i a2 h2 a3 h3 a4 h4 a5 h5 a6 h6 hc x0 x1 x2).1 S1x1x1.size (by sl_kernel_rfl) y
theorem cover_first_cos (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) (y : S1x1x1.Idx) :
    ∃ pc ∈ (runFirst c i a2 h2 a3 h3 a4 h4 a5 h5 a6 h6 hc x0 x1 x2).2.1, y ∈ pc.1.set :=
  View.cover_of_tiledL (runFirst c i a2 h2 a3 h3 a4 h4 a5 h5 a6 h6 hc x0 x1 x2).2.1 S1x1x1.size (by sl_kernel_rfl) y
theorem cover_later_sin (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) (y : S1x1x1.Idx) :
    ∃ pc ∈ (runLater c i a2 h2 a3 h3 a4 h4 a5 h5 a6 h6 hc x0 x1 x2 s k).1, y ∈ pc.1.set :=
  View.cover_of_tiledL (runLater c i a2 h2 a3 h3 a4 h4 a5 h5 a6 h6 hc x0 x1 x2 s k).1 S1x1x1.size (by sl_kernel_rfl) y
theorem cover_later_cos (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) (y : S1x1x1.Idx) :
    ∃ pc ∈ (runLater c i a2 h2 a3 h3 a4 h4 a5 h5 a6 h6 hc x0 x1 x2 s k).2.1, y ∈ pc.1.set :=
  View.cover_of_tiledL (runLater c i a2 h2 a3 h3 a4 h4 a5 h5 a6 h6 hc x0 x1 x2 s k).2.1 S1x1x1.size (by sl_kernel_rfl) y

/-- What a first-row-block run leaves in the sine accumulator: its stores read back. -/
def sinFirst (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) : Vec F S1x1x1 .f32 :=
  sinView.read (Elt F) (sinView.writes (Elt F) sinView.junk (runFirst c i a2 h2 a3 h3 a4 h4 a5 h5 a6 h6 hc x0 x1 x2).1)
/-- … and in the cosine accumulator. -/
def cosFirst (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) : Vec F S1x1x1 .f32 :=
  cosView.read (Elt F) (cosView.writes (Elt F) cosView.junk (runFirst c i a2 h2 a3 h3 a4 h4 a5 h5 a6 h6 hc x0 x1 x2).2.1)
/-- What a later-row-block run leaves in the sine accumulator, from the running sums `s`, `k`. -/
def sinLater (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) : Vec F S1x1x1 .f32 :=
  sinView.read (Elt F) (sinView.writes (Elt F) sinView.junk (runLater c i a2 h2 a3 h3 a4 h4 a5 h5 a6 h6 hc x0 x1 x2 s k).1)
/-- … and in the cosine accumulator. -/
def cosLater (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) : Vec F S1x1x1 .f32 :=
  cosView.read (Elt F) (cosView.writes (Elt F) cosView.junk (runLater c i a2 h2 a3 h3 a4 h4 a5 h5 a6 h6 hc x0 x1 x2 s k).2.1)

/-- THE ACCUMULATION. The pair (sine, cosine) the accumulators hold after the body at position `n`: at an even
    position the first-row-block run's result on that point's blocks; at an odd one the later-row-block run's, from what
    the position before left (the accumulators are not written back in between). -/
def accAt (c : Dev nD) : (n : ℕ) → n < cfg0.N → Vec F S1x1x1 .f32 × Vec F S1x1x1 .f32
  | 0, hn =>
    (sinFirst c (grid0.coords ⟨0, hn⟩) (mPred ⟨0, hn⟩) (hPred ⟨0, hn⟩) (mTruth ⟨0, hn⟩) (hTruth ⟨0, hn⟩) (mWeight ⟨0, hn⟩) (hWeight ⟨0, hn⟩)
        (mSin ⟨0, hn⟩) (hSin ⟨0, hn⟩) (mCos ⟨0, hn⟩) (hCos ⟨0, hn⟩) ((firstBlock_iff ⟨0, hn⟩).mpr (Nat.zero_mod _))
        (iblk m c 0 ⟨0, hn⟩) (truthBlock m c ⟨0, hn⟩) (iblk m c 2 ⟨0, hn⟩),
     cosFirst c (grid0.coords ⟨0, hn⟩) (mPred ⟨0, hn⟩) (hPred ⟨0, hn⟩) (mTruth ⟨0, hn⟩) (hTruth ⟨0, hn⟩) (mWeight ⟨0, hn⟩) (hWeight ⟨0, hn⟩)
        (mSin ⟨0, hn⟩) (hSin ⟨0, hn⟩) (mCos ⟨0, hn⟩) (hCos ⟨0, hn⟩) ((firstBlock_iff ⟨0, hn⟩).mpr (Nat.zero_mod _))
        (iblk m c 0 ⟨0, hn⟩) (truthBlock m c ⟨0, hn⟩) (iblk m c 2 ⟨0, hn⟩))
  | n + 1, hn =>
    if h0 : (n + 1) % 2 = 0 then
      (sinFirst c (grid0.coords ⟨n + 1, hn⟩) (mPred ⟨n + 1, hn⟩) (hPred ⟨n + 1, hn⟩) (mTruth ⟨n + 1, hn⟩) (hTruth ⟨n + 1, hn⟩) (mWeight ⟨n + 1, hn⟩) (hWeight ⟨n + 1, hn⟩)
          (mSin ⟨n + 1, hn⟩) (hSin ⟨n + 1, hn⟩) (mCos ⟨n + 1, hn⟩) (hCos ⟨n + 1, hn⟩) ((firstBlock_iff ⟨n + 1, hn⟩).mpr h0)
          (iblk m c 0 ⟨n + 1, hn⟩) (truthBlock m c ⟨n + 1, hn⟩) (iblk m c 2 ⟨n + 1, hn⟩),
       cosFirst c (grid0.coords ⟨n + 1, hn⟩) (mPred ⟨n + 1, hn⟩) (hPred ⟨n + 1, hn⟩) (mTruth ⟨n + 1, hn⟩) (hTruth ⟨n + 1, hn⟩) (mWeight ⟨n + 1, hn⟩) (hWeight ⟨n + 1, hn⟩)
          (mSin ⟨n + 1, hn⟩) (hSin ⟨n + 1, hn⟩) (mCos ⟨n + 1, hn⟩) (hCos ⟨n + 1, hn⟩) ((firstBlock_iff ⟨n + 1, hn⟩).mpr h0)
          (iblk m c 0 ⟨n + 1, hn⟩) (truthBlock m c ⟨n + 1, hn⟩) (iblk m c 2 ⟨n + 1, hn⟩))
    else
      (sinLater c (grid0.coords ⟨n + 1, hn⟩) (mPred ⟨n + 1, hn⟩) (hPred ⟨n + 1, hn⟩) (mTruth ⟨n + 1, hn⟩) (hTruth ⟨n + 1, hn⟩) (mWeight ⟨n + 1, hn⟩) (hWeight ⟨n + 1, hn⟩)
          (mSin ⟨n + 1, hn⟩) (hSin ⟨n + 1, hn⟩) (mCos ⟨n + 1, hn⟩) (hCos ⟨n + 1, hn⟩) (fun h => h0 ((firstBlock_iff ⟨n + 1, hn⟩).mp h))
          (iblk m c 0 ⟨n + 1, hn⟩) (truthBlock m c ⟨n + 1, hn⟩) (iblk m c 2 ⟨n + 1, hn⟩)
          (accAt c n (Nat.lt_of_succ_lt hn)).1 (accAt c n (Nat.lt_of_succ_lt hn)).2,
       cosLater c (grid0.coords ⟨n + 1, hn⟩) (mPred ⟨n + 1, hn⟩) (hPred ⟨n + 1, hn⟩) (mTruth ⟨n + 1, hn⟩) (hTruth ⟨n + 1, hn⟩) (mWeight ⟨n + 1, hn⟩) (hWeight ⟨n + 1, hn⟩)
          (mSin ⟨n + 1, hn⟩) (hSin ⟨n + 1, hn⟩) (mCos ⟨n + 1, hn⟩) (hCos ⟨n + 1, hn⟩) (fun h => h0 ((firstBlock_iff ⟨n + 1, hn⟩).mp h))
          (iblk m c 0 ⟨n + 1, hn⟩) (truthBlock m c ⟨n + 1, hn⟩) (iblk m c 2 ⟨n + 1, hn⟩)
          (accAt c n (Nat.lt_of_succ_lt hn)).1 (accAt c n (Nat.lt_of_succ_lt hn)).2)

/-- At a first row block: that run's results. -/
theorem accAt_first (c : Dev nD) (t : Fin cfg0.N) (h0 : t.val % 2 = 0) :
    accAt m c t.val t.isLt =
      (sinFirst c (grid0.coords t) (mPred t) (hPred t) (mTruth t) (hTruth t) (mWeight t) (hWeight t) (mSin t) (hSin t) (mCos t) (hCos t)
          ((firstBlock_iff t).mpr h0) (iblk m c 0 t) (truthBlock m c t) (iblk m c 2 t),
       cosFirst c (grid0.coords t) (mPred t) (hPred t) (mTruth t) (hTruth t) (mWeight t) (hWeight t) (mSin t) (hSin t) (mCos t) (hCos t)
          ((firstBlock_iff t).mpr h0) (iblk m c 0 t) (truthBlock m c t) (iblk m c 2 t)) := by
  obtain ⟨n, hn⟩ := t
  cases n with
  | zero => exact rfl
  | succ n => exact (dif_pos h0).trans rfl

/-- At a later row block: that run's results over what the point before left. -/
theorem accAt_later (c : Dev nD) (t : Fin cfg0.N) (h0 : ¬t.val % 2 = 0) :
    accAt m c t.val t.isLt =
      (sinLater c (grid0.coords t) (mPred t) (hPred t) (mTruth t) (hTruth t) (mWeight t) (hWeight t) (mSin t) (hSin t) (mCos t) (hCos t)
          (fun h => h0 ((firstBlock_iff t).mp h)) (iblk m c 0 t) (truthBlock m c t) (iblk m c 2 t)
          (accAt m c (t.val - 1) (Nat.lt_of_le_of_lt (Nat.sub_le _ _) t.isLt)).1 (accAt m c (t.val - 1) (Nat.lt_of_le_of_lt (Nat.sub_le _ _) t.isLt)).2,
       cosLater c (grid0.coords t) (mPred t) (hPred t) (mTruth t) (hTruth t) (mWeight t) (hWeight t) (mSin t) (hSin t) (mCos t) (hCos t)
          (fun h => h0 ((firstBlock_iff t).mp h)) (iblk m c 0 t) (truthBlock m c t) (iblk m c 2 t)
          (accAt m c (t.val - 1) (Nat.lt_of_le_of_lt (Nat.sub_le _ _) t.isLt)).1 (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block, the accumulators' at `accAt`; the class invariant (the scoped rest and the
    generator register, which the body neither uses nor describes); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => truthBlock m c t
    | ⟨2, _⟩ => iblk m c 2 t
    | ⟨3, _⟩ => (accAt m c t.val t.isLt).1
    | ⟨4, _⟩ => (accAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_pred (c : Dev nD) (t : Fin cfg0.N) : (dats m 0 c).after 0 t = iblk m c 0 t := by dsimp only [dats]
theorem after_truth (c : Dev nD) (t : Fin cfg0.N) : (dats m 0 c).after 1 t = truthBlock m c t := by dsimp only [dats]
theorem after_weight (c : Dev nD) (t : Fin cfg0.N) : (dats m 0 c).after 2 t = iblk m c 2 t := by dsimp only [dats]
theorem after_sin (c : Dev nD) (t : Fin cfg0.N) : (dats m 0 c).after 3 t = (accAt m c t.val t.isLt).1 := by dsimp only [dats]
theorem after_cos (c : Dev nD) (t : Fin cfg0.N) : (dats m 0 c).after 4 t = (accAt m c t.val t.isLt).2 := by dsimp only [dats]

/-! ## What each staging buffer holds when the body runs -/

theorem before_pred (c : Dev nD) (t : Fin cfg0.N) (d) : (dats m 0 c).before 0 t d = iblk m c 0 t :=
  before0_0_of m (dats m 0 c) (A_eq m c 0) (after_pred m c) t d
theorem before_weight (c : Dev nD) (t : Fin cfg0.N) (d) : (dats m 0 c).before 2 t d = iblk m c 2 t :=
  before0_2_of m (dats m 0 c) (A_eq m c 2) (after_weight m c) t d

/-- The ground-truth window is fetched at every point, and the fetch, being uncut, fills the whole buffer with the
    block: nothing of what the buffer held before shows. -/
theorem before_truth (c : Dev nD) (t : Fin cfg0.N) (d) : (dats m 0 c).before 1 t d = truthBlock m c t := by
  rw [Dat.before_fetched _ 1 t (fetch0_1 t)]
  unfold Dat.fetched Dat.blockOf truthBlock iblk
  rw [A_eq]
  exact Pipeline.fill_of_clip_none (cfg := cfg0) 1 (cfg0.grid.coords t) (truth_uncut t) _ _ _

/-- At a first row block an accumulator's buffer holds nothing the proof names: the point is the first of all, or the
    point before wrote the accumulator back. -/
theorem before_sin_first (c : Dev nD) (t : Fin cfg0.N) (h0 : t.val % 2 = 0) (d) : (dats m 0 c).before 3 t d = d := by
  refine Dat.before_out_reset _ 3 rfl t ?_ d
  by_cases hz : t.val = 0
  · exact .inl hz
  · exact .inr ⟨hz, (flush0_3 _).mpr (by dsimp only; omega)⟩
theorem before_cos_first (c : Dev nD) (t : Fin cfg0.N) (h0 : t.val % 2 = 0) (d) : (dats m 0 c).before 4 t d = d := by
  refine Dat.before_out_reset _ 4 rfl t ?_ d
  by_cases hz : t.val = 0
  · exact .inl hz
  · exact .inr ⟨hz, (flush0_4 _).mpr (by dsimp only; omega)⟩

/-- At a later row block it holds what the body left at the point before: no write-back came between. -/
theorem before_sin_later (c : Dev nD) (t : Fin cfg0.N) (h0 : ¬t.val % 2 = 0) (d) :
    (dats m 0 c).before 3 t d = (accAt m c (t.val - 1) (Nat.lt_of_le_of_lt (Nat.sub_le _ _) t.isLt)).1 := by
  rw [Dat.before_out_kept _ 3 rfl t (by omega) (Bool.eq_false_iff.mpr fun h => by have := (flush0_3 _).mp h; dsimp only at this; omega)
    (fun _ => rfl) (fun _ _ => rfl)]
  dsimp only [dats]
theorem before_cos_later (c : Dev nD) (t : Fin cfg0.N) (h0 : ¬t.val % 2 = 0) (d) :
    (dats m 0 c).before 4 t d = (accAt m c (t.val - 1) (Nat.lt_of_le_of_lt (Nat.sub_le _ _) t.isLt)).2 := by
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (mPred t) fullShare ((dats m 0 c).before 0 t d))
    ∗ (∃ d, owns (c : Thread nD τ) (mTruth t) fullShare ((dats m 0 c).before 1 t d))
    ∗ (∃ d, owns (c : Thread nD τ) (mWeight t) fullShare ((dats m 0 c).before 2 t d))
    ∗ (∃ d, owns (c : Thread nD τ) (mSin t) fullShare ((dats m 0 c).before 3 t d))
    ∗ (∃ d, owns (c : Thread nD τ) (mCos t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (mPred t) fullShare ((dats m 0 c).after 0 t)
    ∗ owns (c : Thread nD τ) (mTruth t) fullShare ((dats m 0 c).after 1 t)
    ∗ owns (c : Thread nD τ) (mWeight t) fullShare ((dats m 0 c).after 2 t)
    ∗ owns (c : Thread nD τ) (mSin t) fullShare ((dats m 0 c).after 3 t)
    ∗ owns (c : Thread nD τ) (mCos t) fullShare ((dats m 0 c).after 4 t))

set_option maxHeartbeats 1600000 in
/-- The body at any point: the three inputs' buffers hold their blocks; an even point is a first row block (the
    accumulators hold anything and are reset), an odd one a later row block (they hold what the point before left); so the
    matching run applies. The invariant passes through untouched; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pred, before_truth, before_weight]
  rw [show (dats m 0 c).Φ t.succ = (dats m 0 c).Φ t.castSucc from rfl,
    show (dats m 0 c).owesAt () t.succ = (dats m 0 c).owesAt () t.castSucc from rfl,
    after_pred, after_truth, after_weight, after_sin, after_cos]
  by_cases h0 : t.val % 2 = 0
  · rw [accAt_first m c t h0]
    dsimp only
    unfold sinFirst cosFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((firstBlock_iff t).mpr h0) (iblk m c 0 t) (truthBlock m c t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_first_sin c _ _ _ _ _ _ _ _ _ _ _ _ _ _ _)
    · unfold owns; iexists _; isplitr
      swap; · iexact H4
      ipureintro; exact View.read_writes_of_cover _ _ _ _ _ (cover_first_cos c _ _ _ _ _ _ _ _ _ _ _ _ _ _ _)
  · rw [accAt_later m c t h0]
    dsimp only
    simp only [before_sin_later m c t h0, before_cos_later m c t h0]
    unfold sinLater cosLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((firstBlock_iff t).mp h)) (iblk m c 0 t) (truthBlock m c t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_later_sin c _ _ _ _ _ _ _ _ _ _ _ _ _ _ _ _ _)
    · unfold owns; iexists _; isplitr
      swap; · iexact H4
      ipureintro; exact View.read_writes_of_cover _ _ _ _ _ (cover_later_cos c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the pipeline at what the library computes from the proof data and
    every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.IdealPieces.lean ====
/-
  What each run of the body leaves in the two accumulators, as the body's own arithmetic of what it loaded — at any
  float instance. The loads are: channel 0 and channel 1 of the prediction block and of the ground-truth block (each a
  1 × 1 × 384 × 768 slice of the 1 × 2 × 384 × 768 buffer), the whole weight block, and the accumulator's word.
-/
import proofs.«105772_j77627238908096_1_alg».proof.Proof.IdealFrame
import Idealize.ShloMosaic.Lib.Pipeline.Value

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Channel 0 of a two-channel block, as the body's load rectangle spells it. -/
abbrev chan0 : Rect S1x2x384x768 := Rect.unit (s := S1x2x384x768) ![0, 0, 0, 0] S1x1x384x768.size inb_S1x2x384x768_S1x1x384x768_0_0_0_0
/-- Channel 1. -/
abbrev chan1 : Rect S1x2x384x768 := Rect.unit (s := S1x2x384x768) ![0, 1, 0, 0] S1x1x384x768.size inb_S1x2x384x768_S1x1x384x768_0_1_0_0

theorem zero3 : (![0, 0, 0] : Fin 3 → Nat) = fun _ => 0 := funext fun a => by fin_cases a <;> rfl

/-- First row block, sine accumulator: the zero word plus channel 0's weighted sum. -/
theorem sinFirst_eq (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) :
    sinFirst c i a2 h2 a3 h3 a4 h4 a5 h5 a6 h6 hc x0 x1 x2 = k0_pay6 (View.ld x0 chan0) (View.ld x1 chan0) x2 (k0_pay2 (F := F)) := by
  unfold sinFirst
  rw [View.read_writes_junk_eq_canon]
  unfold runFirst
  dsimp only
  sl_unfold_words
  rw [View.canon_cons_unit_zero zero3]
  simp only [View.readAt_eq_ld, h2.read_unread, h3.read_unread, h4.read_unread, View.ld_unit_zero (S := S1x384x768) zero3,
    View.readCov_unit_zero (S := S1x1x1) _ zero3]
  try rfl

/-- First row block, cosine accumulator: the zero word plus channel 1's weighted sum. -/
theorem cosFirst_eq (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : firstBlock i)
    (x0 x1 : Vec F S1x2x384x768 .f32) (x2 : Vec F S1x384x768 .f32) :
    cosFirst c i a2 h2 a3 h3 a4 h4 a5 h5 a6 h6 hc x0 x1 x2 = k0_pay1 (k0_pay5 (View.ld x0 chan1) (View.ld x1 chan1) x2) (k0_pay3 (F := F)) := by
  unfold cosFirst
  rw [View.read_writes_junk_eq_canon]
  unfold runFirst
  dsimp only
  sl_unfold_words
  rw [View.canon_cons_unit_zero zero3]
  simp only [View.readAt_eq_ld, h2.read_unread, h3.read_unread, h4.read_unread, View.ld_unit_zero (S := S1x384x768) zero3,
    View.readCov_unit_zero (S := S1x1x1) _ zero3]
  try rfl

/-- Later row block, sine accumulator: the running sum plus channel 0's weighted sum. -/
theorem sinLater_eq (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) :
    sinLater c i a2 h2 a3 h3 a4 h4 a5 h5 a6 h6 hc x0 x1 x2 s k = k0_pay6 (View.ld x0 chan0) (View.ld x1 chan0) x2 s := by
  unfold sinLater
  rw [View.read_writes_junk_eq_canon]
  unfold runLater
  dsimp only
  sl_unfold_words
  rw [View.canon_unit_zero zero3]
  simp only [View.readAt_eq_ld, h2.read_unread, h3.read_unread, h4.read_unread, h5.read_unread, View.ld_unit_zero (S := S1x384x768) zero3,
    View.ld_unit_zero (S := S1x1x1) zero3]

/-- Later row block, cosine accumulator: the running sum plus channel 1's weighted sum. -/
theorem cosLater_eq (c : Dev nD) (i : grid0.Coords) (a2 : Memref sig .tc .vmem S1x2x384x768 .f32) (h2 : a2.IsWhole) (a3 : Memref sig .tc .vmem S1x2x384x768 .f32) (h3 : a3.IsWhole) (a4 : Memref sig .tc .vmem S1x384x768 .f32) (h4 : a4.IsWhole) (a5 : Memref sig .tc .vmem S1x1x1 .f32) (h5 : a5.IsWhole) (a6 : Memref sig .tc .vmem S1x1x1 .f32) (h6 : a6.IsWhole) (hc : ¬firstBlock i)
    (x0 x1 : Vec F S1x2x384x768 .f32) (x2 : Vec F S1x384x768 .f32) (s k : Vec F S1x1x1 .f32) :
    cosLater c i a2 h2 a3 h3 a4 h4 a5 h5 a6 h6 hc x0 x1 x2 s k = k0_pay1 (k0_pay5 (View.ld x0 chan1) (View.ld x1 chan1) x2) k := by
  unfold cosLater
  rw [View.read_writes_junk_eq_canon]
  unfold runLater
  dsimp only
  sl_unfold_words
  rw [View.canon_unit_zero zero3]
  simp only [View.readAt_eq_ld, h2.read_unread, h3.read_unread, h4.read_unread, h6.read_unread, View.ld_unit_zero (S := S1x384x768) zero3,
    View.ld_unit_zero (S := S1x1x1) zero3]

end Cert.KernelIdeal.Hand

end
-- ==== Proof.IdealBlocks.lean ====
/-
  Each input window's block at a grid point, as a read of its array. Point `t` is image `t / 2`, row block `t % 2`:
  the prediction block is that image's two channels on rows `384·(t % 2) …`; the ground-truth block is the same rows of
  channels 2 and 3 (block index 1 on the channel axis, two channels per block); the weight block the same rows of the
  image's weights.
-/
import proofs.«105772_j77627238908096_1_alg».proof.Proof.IdealFrame
import Idealize.ShloMosaic.Lib.Pipeline.Value
import Idealize.ShloMosaic.Lib.ValueIdx

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The index maps over the grid -/

theorem pred_index : ∀ t : Fin cfg0.N, win0_0.index t 0 = t.val / 2 ∧ win0_0.index t 1 = 0 ∧ win0_0.index t 2 = t.val % 2 ∧ win0_0.index t 3 = 0 :=
  (by decide +kernel : ∀ t : Fin grid0.N, win0_0.index t 0 = t.val / 2 ∧ win0_0.index t 1 = 0 ∧ win0_0.index t 2 = t.val % 2 ∧ win0_0.index t 3 = 0)
theorem truth_index : ∀ t : Fin cfg0.N, win0_1.index t 0 = t.val / 2 ∧ win0_1.index t 1 = 1 ∧ win0_1.index t 2 = t.val % 2 ∧ win0_1.index t 3 = 0 :=
  (by decide +kernel : ∀ t : Fin grid0.N, win0_1.index t 0 = t.val / 2 ∧ win0_1.index t 1 = 1 ∧ win0_1.index t 2 = t.val % 2 ∧ win0_1.index t 3 = 0)
theorem weight_index : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)
theorem sin_index : ∀ t : Fin cfg0.N, win0_3.index t 0 = t.val / 2 ∧ win0_3.index t 1 = 0 ∧ win0_3.index t 2 = 0 :=
  (by decide +kernel : ∀ t : Fin grid0.N, win0_3.index t 0 = t.val / 2 ∧ win0_3.index t 1 = 0 ∧ win0_3.index t 2 = 0)
theorem cos_index : ∀ t : Fin cfg0.N, win0_4.index t 0 = t.val / 2 ∧ win0_4.index t 1 = 0 ∧ win0_4.index t 2 = 0 :=
  (by decide +kernel : ∀ t : Fin grid0.N, win0_4.index t 0 = t.val / 2 ∧ win0_4.index t 1 = 0 ∧ win0_4.index t 2 = 0)

/-! ## The blocks -/

/-- The prediction block at point `t`: image `t / 2`, both channels, rows `384·(t % 2) + ·`. -/
theorem pred_block_apply (c : Dev nD) (t : Fin cfg0.N) (x : S1x2x384x768.Idx) (k : S16x2x768x768.Idx)
    (hk0 : (k 0).val = t.val / 2) (hk1 : (k 1).val = (x 1).val) (hk2 : (k 2).val = 384 * (t.val % 2) + (x 2).val) (hk3 : (k 3).val = (x 3).val) :
    (iblk m c 0 t : Vec F S1x2x384x768 .f32) x = (V m c main_arg0 : S16x2x768x768.Idx → Elt F .f32) k := by
  have hi := pred_index t
  have hx0 : (x 0).val = 0 := by have : (x 0).val < 1 := (x 0).isLt; omega
  unfold iblk
  rw [View.read_apply]
  show V m c main_arg0 _ = V m c main_arg0 _
  congr 1
  funext a
  apply Fin.ext
  match a with
  | ⟨0, _⟩ => show win0_0.index t 0 * 1 + 1 * (x 0).val = (k 0).val; rw [hi.1, hk0]; omega
  | ⟨1, _⟩ => show win0_0.index t 1 * 2 + 1 * (x 1).val = (k 1).val; rw [hi.2.1, hk1]; omega
  | ⟨2, _⟩ => show win0_0.index t 2 * 384 + 1 * (x 2).val = (k 2).val; rw [hi.2.2.1, hk2]; omega
  | ⟨3, _⟩ => show win0_0.index t 3 * 768 + 1 * (x 3).val = (k 3).val; rw [hi.2.2.2, hk3]; omega

/-- The weight block at point `t`: image `t / 2`, rows `384·(t % 2) + ·`. -/
theorem weight_block_apply (c : Dev nD) (t : Fin cfg0.N) (x : S1x384x768.Idx) (k : S16x768x768.Idx)
    (hk0 : (k 0).val = t.val / 2) (hk1 : (k 1).val = 384 * (t.val % 2) + (x 1).val) (hk2 : (k 2).val = (x 2).val) :
    (iblk m c 2 t : Vec F S1x384x768 .f32) x = (V m c main_v52 : S16x768x768.Idx → Elt F .f32) k := by
  have hi := weight_index t
  have hx0 : (x 0).val = 0 := by have : (x 0).val < 1 := (x 0).isLt; omega
  unfold iblk
  rw [View.read_apply]
  show V m c main_v52 _ = V m c main_v52 _
  congr 1
  funext a
  apply Fin.ext
  match a with
  | ⟨0, _⟩ => show win0_2.index t 0 * 1 + 1 * (x 0).val = (k 0).val; rw [hi.1, hk0]; omega
  | ⟨1, _⟩ => show win0_2.index t 1 * 384 + 1 * (x 1).val = (k 1).val; rw [hi.2.1, hk1]; omega
  | ⟨2, _⟩ => show win0_2.index t 2 * 768 + 1 * (x 2).val = (k 2).val; rw [hi.2.2, hk2]; omega

/-- The ground-truth window's transfers are never cut, so every place of its staging buffer is filled by the fetch. -/
theorem truth_moved (t : Fin cfg0.N) (x : S1x2x384x768.Idx) : win0_1.moved (grid0.coords t) x = true :=
  (win0_1.moved_iff _ x).mpr fun a => by
    have hlt := (x a).isLt
    have hn : win0_1.clip (grid0.coords t) a = none := truth_uncut t a
    unfold Window.xsize; rw [hn]; exact hlt

/-- The ground-truth block at point `t`: image `t / 2`, channels 2 and 3, rows `384·(t % 2) + ·`. -/
theorem truth_block_apply (c : Dev nD) (t : Fin cfg0.N) (x : S1x2x384x768.Idx) (k : S16x5x768x768.Idx)
    (hk0 : (k 0).val = t.val / 2) (hk1 : (k 1).val = 2 + (x 1).val) (hk2 : (k 2).val = 384 * (t.val % 2) + (x 2).val) (hk3 : (k 3).val = (x 3).val) :
    truthBlock m c t x = (V m c main_arg3 : S16x5x768x768.Idx → Elt F .f32) k := by
  have hi := truth_index t
  have hx0 : (x 0).val = 0 := by have : (x 0).val < 1 := (x 0).isLt; omega
  unfold truthBlock Window.fill
  rw [dif_pos (truth_moved t x)]
  unfold iblk
  rw [View.read_apply]
  show V m c main_arg3 _ = V m c main_arg3 _
  congr 1
  funext a
  apply Fin.ext
  match a with
  | ⟨0, _⟩ => show win0_1.index t 0 * 1 + 1 * (x 0).val = (k 0).val; rw [hi.1, hk0]; omega
  | ⟨1, _⟩ => show win0_1.index t 1 * 2 + 1 * (x 1).val = (k 1).val; rw [hi.2.1, hk1]; omega
  | ⟨2, _⟩ => show win0_1.index t 2 * 384 + 1 * (x 2).val = (k 2).val; rw [hi.2.2.1, hk2]; omega
  | ⟨3, _⟩ => show win0_1.index t 3 * 768 + 1 * (x 3).val = (k 3).val; rw [hi.2.2.2, hk3]; omega

/-! ## The same, at an image, a row block, a row and a column -/

open Idealize.ShloMosaic.ValueIdx in
/-- A row of row block `h`, as a row of the image. -/
def imageRow (h : Fin 2) (r : Fin 384) : Fin 768 := ⟨384 * h.val + r.val, by have := h.isLt; have := r.isLt; omega⟩

open Idealize.ShloMosaic.ValueIdx in
theorem pred_at (c : Dev nD) (t : Fin cfg0.N) (b : Fin 16) (h : Fin 2) (hb : b.val = t.val / 2) (hh : h.val = t.val % 2)
    (ch : Fin 2) (r : Fin 384) (col : Fin 768) :
    (iblk m c 0 t : Vec F S1x2x384x768 .f32) (ix4 (0 : Fin 1) ch r col)
      = (V m c main_arg0 : S16x2x768x768.Idx → Elt F .f32) (ix4 b ch (imageRow h r) col) :=
  pred_block_apply m c t _ _ hb rfl (by show 384 * h.val + r.val = 384 * (t.val % 2) + r.val; rw [hh]) rfl

open Idealize.ShloMosaic.ValueIdx in
theorem truth_at (c : Dev nD) (t : Fin cfg0.N) (b : Fin 16) (h : Fin 2) (hb : b.val = t.val / 2) (hh : h.val = t.val % 2)
    (ch : Fin 2) (r : Fin 384) (col : Fin 768) :
    truthBlock m c t (ix4 (0 : Fin 1) ch r col)
      = (V m c main_arg3 : S16x5x768x768.Idx → Elt F .f32) (ix4 b (⟨2 + ch.val, by have := ch.isLt; omega⟩ : Fin 5) (imageRow h r) col) :=
  truth_block_apply m c t _ _ hb rfl (by show 384 * h.val + r.val = 384 * (t.val % 2) + r.val; rw [hh]) rfl

open Idealize.ShloMosaic.ValueIdx in
theorem weight_at (c : Dev nD) (t : Fin cfg0.N) (b : Fin 16) (h : Fin 2) (hb : b.val = t.val / 2) (hh : h.val = t.val % 2)
    (r : Fin 384) (col : Fin 768) :
    (iblk m c 2 t : Vec F S1x384x768 .f32) (ix3 (0 : Fin 1) r col)
      = (V m c main_v52 : S16x768x768.Idx → Elt F .f32) (ix3 b (imageRow h r) col) :=
  weight_block_apply m c t _ _ hb (by show 384 * h.val + r.val = 384 * (t.val % 2) + r.val; rw [hh]) rfl

end Cert.KernelIdeal.Hand

end
-- ==== Proof.LibRowBlocks.lean ====
/-
  A general fact about sums over the indices of an array with a leading batch axis, a unit axis, a row axis of
  `2·R` rows and a column axis: the sum over the indices whose batch coordinate is `b` is the sum over the first
  `R` rows plus the sum over the last `R` rows, each taken over the indices of a `1 × R × C` block. It holds in any
  commutative additive monoid — in particular on the extended reals, where no finiteness is needed: only the order
  and the grouping of the terms change.

  Stated here at the extents 16 × 1 × 768 × 768 and blocks 1 × 384 × 768.
-/
import Idealize.ShloMosaic.Lib.ValueIdx
import Idealize.ShloMosaic.PureOps.Ideal

noncomputable section

namespace Cert.RowBlocks

open Idealize.ShloMosaic Idealize.ShloMosaic.ValueIdx

/-- The image-major array of per-pixel terms: 16 images, a unit channel axis, 768 rows, 768 columns. -/
abbrev Img : Shape := ⟨4, ![16, 1, 768, 768]⟩
/-- One row block of one image: a unit axis, 384 rows, 768 columns. -/
abbrev Blk : Shape := ⟨3, ![1, 384, 768]⟩

/-- The array index of element `j` of row block `h` of image `b`: row `384·h + j₁`, column `j₂`. -/
def blockIdx (b : Fin 16) (h : Fin 2) (j : Blk.Idx) : Img.Idx :=
  ix4 b (0 : Fin 1) (⟨384 * h.val + (j 1).val, by have h1 : (j 1).val < 384 := (j 1).isLt; have h2 : h.val < 2 := h.isLt; show _ < 768; omega⟩ : Fin 768) (j 2 : Fin 768)

theorem blockIdx_val0 (b : Fin 16) (h : Fin 2) (j : Blk.Idx) : (blockIdx b h j 0).val = b.val := rfl
theorem blockIdx_val1 (b : Fin 16) (h : Fin 2) (j : Blk.Idx) : (blockIdx b h j 1).val = 0 := rfl
theorem blockIdx_val2 (b : Fin 16) (h : Fin 2) (j : Blk.Idx) : (blockIdx b h j 2).val = 384 * h.val + (j 1).val := rfl
theorem blockIdx_val3 (b : Fin 16) (h : Fin 2) (j : Blk.Idx) : (blockIdx b h j 3).val = (j 2).val := rfl

/-- The row block and the index inside it of an array index. -/
def blockOf (i : Img.Idx) : Fin 2 × Blk.Idx :=
  (⟨(i 2).val / 384, by have : (i 2).val < 768 := (i 2).isLt; omega⟩,
   ix3 (0 : Fin 1) (⟨(i 2).val % 384, Nat.mod_lt _ (by norm_num)⟩ : Fin 384) (i 3 : Fin 768))

/-- THE REGROUPING: the terms of image `b`, summed in one go, are the terms of its first row block plus the terms
    of its second. -/
theorem sum_image_eq_blocks {M : Type*} [AddCommMonoid M] (x : Img.Idx → M) (b : Fin 16) :
    ∑ i ∈ Finset.univ.filter (fun i : Img.Idx => (i 0).val = b.val), x i
      = ∑ j : Blk.Idx, x (blockIdx b 0 j) + ∑ j : Blk.Idx, x (blockIdx b 1 j) := by
  have hprod : ∑ j : Blk.Idx, x (blockIdx b 0 j) + ∑ j : Blk.Idx, x (blockIdx b 1 j)
      = ∑ p : Fin 2 × Blk.Idx, x (blockIdx b p.1 p.2) := by
    rw [Fintype.sum_prod_type, Fin.sum_univ_two]
  rw [hprod]
  refine Finset.sum_nbij' blockOf (fun p => blockIdx b p.1 p.2) (fun _ _ => Finset.mem_univ _)
    (fun p _ => Finset.mem_filter.mpr ⟨Finset.mem_univ _, rfl⟩) ?_ ?_ ?_
  · -- an index of image `b` is rebuilt from its row block and its place in it
    intro i hi
    have hb : (i 0).val = b.val := (Finset.mem_filter.mp hi).2
    funext a
    apply Fin.ext
    match a with
    | ⟨0, _⟩ => exact hb.symm
    | ⟨1, _⟩ => have : (i 1).val < 1 := (i 1).isLt; show 0 = (i 1).val; omega
    | ⟨2, _⟩ => show 384 * ((i 2).val / 384) + (i 2).val % 384 = (i 2).val; exact Nat.div_add_mod _ _
    | ⟨3, _⟩ => rfl
  · -- and a row block and a place in it are read back off the index they give
    intro p _
    obtain ⟨h, j⟩ := p
    have hj1 : (j 1).val < 384 := (j 1).isLt
    have hj0 : (j 0).val < 1 := (j 0).isLt
    refine Prod.ext (Fin.ext ?_) (funext fun a => Fin.ext ?_)
    · show (384 * h.val + (j 1).val) / 384 = h.val
      omega
    · match a with
      | ⟨0, _⟩ => show 0 = (j 0).val; omega
      | ⟨1, _⟩ => show (384 * h.val + (j 1).val) % 384 = (j 1).val; omega
      | ⟨2, _⟩ => rfl
  · intro i hi
    have hb : (i 0).val = b.val := (Finset.mem_filter.mp hi).2
    congr 1
    funext a
    apply Fin.ext
    match a with
    | ⟨0, _⟩ => exact hb
    | ⟨1, _⟩ => have : (i 1).val < 1 := (i 1).isLt; show (i 1).val = 0; omega
    | ⟨2, _⟩ => show (i 2).val = 384 * ((i 2).val / 384) + (i 2).val % 384; exact (Nat.div_add_mod _ _).symm
    | ⟨3, _⟩ => rfl

end Cert.RowBlocks

end
-- ==== Proof.LossSpec.lean ====
/-
  The quantity both programs compute, on the extended reals. For a direction channel `ch` (0: sine, 1: cosine), image `b`:

      loss ch b  =  Σ over the pixels (r, c) of image b of   W[b, 0, r, c] · | P[b, ch, r, c] − G[b, ch + 2, r, c] |

  with `W` the per-pixel weights (16 × 1 × 768 × 768), `P` the prediction (16 × 2 × 768 × 768), `G` the ground truth
  (16 × 5 × 768 × 768, its channels 2 and 3 the direction's sine and cosine). The reference adds the image's 768 × 768 terms to
  zero in one reduction; the kernel adds the first 384 rows' terms to zero, then the last 384 rows' terms to that. The two
  agree because addition of extended reals is commutative and associative and zero is its unit: no term need be finite.
-/
import proofs.«105772_j77627238908096_1_alg».proof.Proof.LibRowBlocks

noncomputable section

namespace Cert.LossSpec

open Idealize.ShloMosaic Idealize.ShloMosaic.ValueIdx Cert.RowBlocks

abbrev Pred : Shape := ⟨4, ![16, 2, 768, 768]⟩
abbrev Truth : Shape := ⟨4, ![16, 5, 768, 768]⟩

/-- The ground truth's channel for direction channel `ch`: 2 for the sine, 3 for the cosine. -/
def truthChan (ch : Fin 2) : Fin 5 := ⟨2 + ch.val, by have := ch.isLt; omega⟩

/-- One pixel's term. -/
def pixelTerm (ch : Fin 2) (W : Img.Idx → EReal) (P : Pred.Idx → EReal) (G : Truth.Idx → EReal) (i : Img.Idx) : EReal :=
  W i * max (P (ix4 (i 0 : Fin 16) ch (i 2 : Fin 768) (i 3 : Fin 768)) - G (ix4 (i 0 : Fin 16) (truthChan ch) (i 2 : Fin 768) (i 3 : Fin 768)))
            (-(P (ix4 (i 0 : Fin 16) ch (i 2 : Fin 768) (i 3 : Fin 768)) - G (ix4 (i 0 : Fin 16) (truthChan ch) (i 2 : Fin 768) (i 3 : Fin 768))))

/-- Image `b`'s loss: its pixels' terms, summed. -/
def imageLoss (ch : Fin 2) (W : Img.Idx → EReal) (P : Pred.Idx → EReal) (G : Truth.Idx → EReal) (b : Fin 16) : EReal :=
  ∑ i ∈ Finset.univ.filter (fun i : Img.Idx => (i 0).val = b.val), pixelTerm ch W P G i

/-- The part of it on row block `h`. -/
def blockPart (ch : Fin 2) (W : Img.Idx → EReal) (P : Pred.Idx → EReal) (G : Truth.Idx → EReal) (b : Fin 16) (h : Fin 2) : EReal :=
  ∑ j : Blk.Idx, pixelTerm ch W P G (blockIdx b h j)

/-- What the kernel's accumulator holds when an image is done: zero, plus the first row block's part, plus the second's. -/
def accumulated (ch : Fin 2) (W : Img.Idx → EReal) (P : Pred.Idx → EReal) (G : Truth.Idx → EReal) (b : Fin 16) : EReal :=
  (0 + blockPart ch W P G b 0) + blockPart ch W P G b 1

/-- The reference's reduction from zero is the kernel's accumulation. -/
theorem zero_add_imageLoss (ch : Fin 2) (W : Img.Idx → EReal) (P : Pred.Idx → EReal) (G : Truth.Idx → EReal) (b : Fin 16) :
    0 + imageLoss ch W P G b = accumulated ch W P G b := by
  unfold imageLoss accumulated blockPart
  rw [sum_image_eq_blocks (fun i => pixelTerm ch W P G i) b, add_assoc]

end Cert.LossSpec

end
-- ==== Proof.IdealTotals.lean ====
/-
  The kernel's accumulators, read at the ideal instance. At point `t` (image `t / 2`, row block `t % 2`) the block's
  weighted sum of absolute differences is the specification's part of that image on that row block; so after an image's
  second row block the sine accumulator holds  (0 + part 0) + part 1  of channel 0, the cosine accumulator the same of
  channel 1 — the specification's `accumulated`.
-/
import proofs.«105772_j77627238908096_1_alg».proof.Proof.IdealPayload
import proofs.«105772_j77627238908096_1_alg».proof.Proof.IdealPieces
import proofs.«105772_j77627238908096_1_alg».proof.Proof.IdealBlocks
import proofs.«105772_j77627238908096_1_alg».proof.Proof.LossSpec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LossSpec Cert.RowBlocks

variable (m : (ℓ : Loc nD τ sig) → Buf (Elt Ideal) ℓ)

/-- The prediction and the ground truth as the region finds them, and the image and row block of a grid point. -/
abbrev predArr (c : Dev nD) : Pred.Idx → EReal := (V m c main_arg0 : S16x2x768x768.Idx → Elt Ideal .f32)
abbrev truthArr (c : Dev nD) : Truth.Idx → EReal := (V m c main_arg3 : S16x5x768x768.Idx → Elt Ideal .f32)
def imgOf (t : Fin cfg0.N) : Fin 16 := ⟨t.val / 2, by have h : t.val < 32 := lt_of_lt_of_eq t.isLt (show cfg0.N = 32 from N_0); omega⟩
def rowOf (t : Fin cfg0.N) : Fin 2 := ⟨t.val % 2, Nat.mod_lt _ (by norm_num)⟩

/-- Channel 0 of a two-channel block: an index of the slice is the same place of the block, on channel 0. -/
theorem chan0_idx_eq (r : Fin 384) (col : Fin 768) :
    (chan0 : Rect S1x2x384x768).idx (ix4 (0 : Fin 1) (0 : Fin 1) r col) = ix4 (0 : Fin 1) (0 : Fin 2) r col := by
  funext a
  apply Fin.ext
  match a with
  | ⟨0, _⟩ => rfl
  | ⟨1, _⟩ => rfl
  | ⟨2, _⟩ => show 0 + 1 * r.val = r.val; omega
  | ⟨3, _⟩ => show 0 + 1 * col.val = col.val; omega

/-- At point `t`, channel 0: the block's weighted sum is the specification's part of image `t / 2` on row block `t % 2`. -/
theorem block_loss_sin (c : Dev nD) (t : Fin cfg0.N) (W : Img.Idx → EReal)
    (hW : ∀ k : S16x768x768.Idx, (V m c main_v52 : S16x768x768.Idx → EReal) k = W (ix4 (k 0 : Fin 16) (0 : Fin 1) (k 1 : Fin 768) (k 2 : Fin 768))) :
    blockLoss (View.ld (iblk m c 0 t : Vec Ideal S1x2x384x768 .f32) chan0) (View.ld (truthBlock m c t) chan0) (iblk m c 2 t : Vec Ideal S1x384x768 .f32)
      = blockPart (0 : Fin 2) W (predArr m c) (truthArr m c) (imgOf t) (rowOf t) := by
  unfold blockLoss blockPart pixelTerm
  refine Finset.sum_congr rfl fun j _ => ?_
  have hw : ((iblk m c 2 t : Vec Ideal S1x384x768 .f32) (ix3 (0 : Fin 1) (j 1 : Fin 384) (j 2 : Fin 768)) : EReal) = W (blockIdx (imgOf t) (rowOf t) j) :=
    (weight_at m c t (imgOf t) (rowOf t) rfl rfl (j 1 : Fin 384) (j 2 : Fin 768)).trans (hW _)
  have hp : ((iblk m c 0 t : Vec Ideal S1x2x384x768 .f32) ((chan0 : Rect S1x2x384x768).idx (ix4 (0 : Fin 1) (0 : Fin 1) (j 1 : Fin 384) (j 2 : Fin 768))) : EReal)
      = predArr m c (ix4 (imgOf t) (0 : Fin 2) (imageRow (rowOf t) (j 1 : Fin 384)) (j 2 : Fin 768)) :=
    (congrArg (iblk m c 0 t : Vec Ideal S1x2x384x768 .f32) (chan0_idx_eq (j 1 : Fin 384) (j 2 : Fin 768))).trans
      (pred_at m c t (imgOf t) (rowOf t) rfl rfl (0 : Fin 2) (j 1 : Fin 384) (j 2 : Fin 768))
  have hg : ((truthBlock m c t) ((chan0 : Rect S1x2x384x768).idx (ix4 (0 : Fin 1) (0 : Fin 1) (j 1 : Fin 384) (j 2 : Fin 768))) : EReal)
      = truthArr m c (ix4 (imgOf t) (truthChan (0 : Fin 2)) (imageRow (rowOf t) (j 1 : Fin 384)) (j 2 : Fin 768)) :=
    (congrArg (truthBlock m c t) (chan0_idx_eq (j 1 : Fin 384) (j 2 : Fin 768))).trans
      (truth_at m c t (imgOf t) (rowOf t) rfl rfl (0 : Fin 2) (j 1 : Fin 384) (j 2 : Fin 768))
  have hd := congrArg₂ (fun a b : EReal => a - b) hp hg
  exact congrArg₂ (fun a b : EReal => a * b) hw (congrArg₂ (fun a b : EReal => max a b) hd (congrArg (fun a : EReal => -a) hd))

/-- Channel 1 of a two-channel block: an index of the slice is the same place of the block, on channel 1. -/
theorem chan1_idx_eq (r : Fin 384) (col : Fin 768) :
    (chan1 : Rect S1x2x384x768).idx (ix4 (0 : Fin 1) (0 : Fin 1) r col) = ix4 (0 : Fin 1) (1 : Fin 2) r col := by
  funext a
  apply Fin.ext
  match a with
  | ⟨0, _⟩ => rfl
  | ⟨1, _⟩ => rfl
  | ⟨2, _⟩ => show 0 + 1 * r.val = r.val; omega
  | ⟨3, _⟩ => show 0 + 1 * col.val = col.val; omega

/-- At point `t`, channel 1: the block's weighted sum is the specification's part of image `t / 2` on row block `t % 2`. -/
theorem block_loss_cos (c : Dev nD) (t : Fin cfg0.N) (W : Img.Idx → EReal)
    (hW : ∀ k : S16x768x768.Idx, (V m c main_v52 : S16x768x768.Idx → EReal) k = W (ix4 (k 0 : Fin 16) (0 : Fin 1) (k 1 : Fin 768) (k 2 : Fin 768))) :
    blockLoss (View.ld (iblk m c 0 t : Vec Ideal S1x2x384x768 .f32) chan1) (View.ld (truthBlock m c t) chan1) (iblk m c 2 t : Vec Ideal S1x384x768 .f32)
      = blockPart (1 : Fin 2) W (predArr m c) (truthArr m c) (imgOf t) (rowOf t) := by
  unfold blockLoss blockPart pixelTerm
  refine Finset.sum_congr rfl fun j _ => ?_
  have hw : ((iblk m c 2 t : Vec Ideal S1x384x768 .f32) (ix3 (0 : Fin 1) (j 1 : Fin 384) (j 2 : Fin 768)) : EReal) = W (blockIdx (imgOf t) (rowOf t) j) :=
    (weight_at m c t (imgOf t) (rowOf t) rfl rfl (j 1 : Fin 384) (j 2 : Fin 768)).trans (hW _)
  have hp : ((iblk m c 0 t : Vec Ideal S1x2x384x768 .f32) ((chan1 : Rect S1x2x384x768).idx (ix4 (0 : Fin 1) (0 : Fin 1) (j 1 : Fin 384) (j 2 : Fin 768))) : EReal)
      = predArr m c (ix4 (imgOf t) (1 : Fin 2) (imageRow (rowOf t) (j 1 : Fin 384)) (j 2 : Fin 768)) :=
    (congrArg (iblk m c 0 t : Vec Ideal S1x2x384x768 .f32) (chan1_idx_eq (j 1 : Fin 384) (j 2 : Fin 768))).trans
      (pred_at m c t (imgOf t) (rowOf t) rfl rfl (1 : Fin 2) (j 1 : Fin 384) (j 2 : Fin 768))
  have hg : ((truthBlock m c t) ((chan1 : Rect S1x2x384x768).idx (ix4 (0 : Fin 1) (0 : Fin 1) (j 1 : Fin 384) (j 2 : Fin 768))) : EReal)
      = truthArr m c (ix4 (imgOf t) (truthChan (1 : Fin 2)) (imageRow (rowOf t) (j 1 : Fin 384)) (j 2 : Fin 768)) :=
    (congrArg (truthBlock m c t) (chan1_idx_eq (j 1 : Fin 384) (j 2 : Fin 768))).trans
      (truth_at m c t (imgOf t) (rowOf t) rfl rfl (1 : Fin 2) (j 1 : Fin 384) (j 2 : Fin 768))
  have hd := congrArg₂ (fun a b : EReal => a - b) hp hg
  exact congrArg₂ (fun a b : EReal => a * b) hw (congrArg₂ (fun a b : EReal => max a b) hd (congrArg (fun a : EReal => -a) hd))

/-! ## An image's two points -/

/-- The accumulation at equal positions (the position is a number; its bound is a proof). -/
theorem accAt_congr (c : Dev nD) {n n' : ℕ} (e : n = n') (h : n < cfg0.N) (h' : n' < cfg0.N) : accAt m c n h = accAt m c n' h' := by
  subst e; rfl

/-- Image `b`'s first point (row block 0) and last point (row block 1). -/
def firstPt (b : Fin 16) : Fin cfg0.N := ⟨2 * b.val, by rw [show cfg0.N = 32 from N_0]; have := b.isLt; omega⟩
def lastPt (b : Fin 16) : Fin cfg0.N := ⟨2 * b.val + 1, by rw [show cfg0.N = 32 from N_0]; have := b.isLt; omega⟩

theorem imgOf_firstPt (b : Fin 16) : imgOf (firstPt b) = b := Fin.ext (by show 2 * b.val / 2 = b.val; omega)
theorem rowOf_firstPt (b : Fin 16) : rowOf (firstPt b) = 0 := Fin.ext (by show 2 * b.val % 2 = 0; omega)
theorem imgOf_lastPt (b : Fin 16) : imgOf (lastPt b) = b := Fin.ext (by show (2 * b.val + 1) / 2 = b.val; omega)
theorem rowOf_lastPt (b : Fin 16) : rowOf (lastPt b) = 1 := Fin.ext (by show (2 * b.val + 1) % 2 = 1; omega)

/-- After an image's first row block the sin accumulator holds zero plus that block's part. -/
theorem sin_after_first (c : Dev nD) (b : Fin 16) (W : Img.Idx → EReal)
    (hW : ∀ k : S16x768x768.Idx, (V m c main_v52 : S16x768x768.Idx → EReal) k = W (ix4 (k 0 : Fin 16) (0 : Fin 1) (k 1 : Fin 768) (k 2 : Fin 768)))
    (y : S1x1x1.Idx) :
    (accAt m c (firstPt b).val (firstPt b).isLt).1 y = 0 + blockPart (0 : Fin 2) W (predArr m c) (truthArr m c) b 0 := by
  rw [accAt_first m c (firstPt b) (by show 2 * b.val % 2 = 0; omega)]
  dsimp only
  rw [sinFirst_eq]
  refine (sinUpdate_apply _ _ _ _ y).trans ?_
  rw [sinZero_apply]
  refine (congrArg (0 + ·) (block_loss_sin m c (firstPt b) W hW)).trans ?_
  rw [imgOf_firstPt, rowOf_firstPt]

/-- After its second row block: the specification's accumulation. -/
theorem sin_done (c : Dev nD) (b : Fin 16) (W : Img.Idx → EReal)
    (hW : ∀ k : S16x768x768.Idx, (V m c main_v52 : S16x768x768.Idx → EReal) k = W (ix4 (k 0 : Fin 16) (0 : Fin 1) (k 1 : Fin 768) (k 2 : Fin 768)))
    (y : S1x1x1.Idx) :
    (accAt m c (lastPt b).val (lastPt b).isLt).1 y = accumulated (0 : Fin 2) W (predArr m c) (truthArr m c) b := by
  rw [accAt_later m c (lastPt b) (by show ¬(2 * b.val + 1) % 2 = 0; omega)]
  dsimp only
  rw [sinLater_eq]
  refine (sinUpdate_apply _ _ _ _ y).trans ?_
  refine (congrArg₂ (· + ·) rfl (block_loss_sin m c (lastPt b) W hW)).trans ?_
  rw [imgOf_lastPt, rowOf_lastPt,
    accAt_congr m c (show (lastPt b).val - 1 = (firstPt b).val from by show 2 * b.val + 1 - 1 = 2 * b.val; omega) _ (firstPt b).isLt,
    sin_after_first m c b W hW]
  rfl

/-- The sin result array after the run: image `b`'s entry is the specification's accumulation. -/
theorem final_sin (c : Dev nD) (W : Img.Idx → EReal)
    (hW : ∀ k : S16x768x768.Idx, (V m c main_v52 : S16x768x768.Idx → EReal) k = W (ix4 (k 0 : Fin 16) (0 : Fin 1) (k 1 : Fin 768) (k 2 : Fin 768))) :
    (dats m 0 c).arrAt 3 cfg0.N = (fun i : S16x1x1.Idx => accumulated (0 : Fin 2) W (predArr m c) (truthArr m c) (i 0 : Fin 16)) := by
  refine (dats m 0 c).arrAt_eq_of_cover 3 _ (fun t hf => ?_) (fun i => ?_)
  · -- an odd point `t` closes image `t / 2` and writes the accumulator back to that image's entry
    have hodd : t.val % 2 = 1 := (flush0_3 t).mp hf
    have hi := sin_index t
    have ht : t.val = (lastPt (imgOf t)).val := by show t.val = 2 * (t.val / 2) + 1; omega
    funext y
    have hy0 : (y 0).val = 0 := by have : (y 0).val < 1 := (y 0).isLt; omega
    rw [View.read_apply]
    show (accAt m c t.val t.isLt).1 _ = accumulated (0 : Fin 2) W (predArr m c) (truthArr m c) _
    rw [accAt_congr m c ht t.isLt (lastPt (imgOf t)).isLt, sin_done m c (imgOf t) W hW]
    refine congrArg (accumulated (0 : Fin 2) W (predArr m c) (truthArr m c)) (Fin.ext ?_)
    show t.val / 2 = win0_3.index t 0 * 1 + 1 * (y 0).val
    rw [hi.1, hy0]; omega
  · -- every image's entry is written back by the image's last point
    have hi0 : (i 0).val < 16 := (i 0).isLt
    have hi1 : (i 1).val < 1 := (i 1).isLt
    have hi2 : (i 2).val < 1 := (i 2).isLt
    refine ⟨lastPt (i 0 : Fin 16), (flush0_3 _).mpr (by show (2 * (i 0).val + 1) % 2 = 1; omega), ?_⟩
    have hi := sin_index (lastPt (i 0 : Fin 16))
    have hq : (lastPt (i 0 : Fin 16)).val / 2 = (i 0).val := by show (2 * (i 0).val + 1) / 2 = (i 0).val; omega
    show i ∈ ((View.whole main_v53_0).slice (win0_3.rect (lastPt (i 0 : Fin 16)))).set
    rw [View.set_slice_whole, Rect.mem_set_unit]
    intro a
    match a with
    | ⟨0, _⟩ =>
      show win0_3.index (lastPt (i 0 : Fin 16)) 0 * 1 ≤ (i 0 : Nat) ∧ (i 0 : Nat) < win0_3.index (lastPt (i 0 : Fin 16)) 0 * 1 + 1
      rw [hi.1, hq]; omega
    | ⟨1, _⟩ =>
      show win0_3.index (lastPt (i 0 : Fin 16)) 1 * 1 ≤ (i 1 : Nat) ∧ (i 1 : Nat) < win0_3.index (lastPt (i 0 : Fin 16)) 1 * 1 + 1
      rw [hi.2.1]; omega
    | ⟨2, _⟩ =>
      show win0_3.index (lastPt (i 0 : Fin 16)) 2 * 1 ≤ (i 2 : Nat) ∧ (i 2 : Nat) < win0_3.index (lastPt (i 0 : Fin 16)) 2 * 1 + 1
      rw [hi.2.2]; omega

/-- After an image's first row block the cos accumulator holds zero plus that block's part. -/
theorem cos_after_first (c : Dev nD) (b : Fin 16) (W : Img.Idx → EReal)
    (hW : ∀ k : S16x768x768.Idx, (V m c main_v52 : S16x768x768.Idx → EReal) k = W (ix4 (k 0 : Fin 16) (0 : Fin 1) (k 1 : Fin 768) (k 2 : Fin 768)))
    (y : S1x1x1.Idx) :
    (accAt m c (firstPt b).val (firstPt b).isLt).2 y = 0 + blockPart (1 : Fin 2) W (predArr m c) (truthArr m c) b 0 := by
  rw [accAt_first m c (firstPt b) (by show 2 * b.val % 2 = 0; omega)]
  dsimp only
  rw [cosFirst_eq]
  refine (cosUpdate_apply _ _ y).trans ?_
  rw [cosZero_apply, cosSum_eq]
  refine (congrArg (0 + ·) (block_loss_cos m c (firstPt b) W hW)).trans ?_
  rw [imgOf_firstPt, rowOf_firstPt]

/-- After its second row block: the specification's accumulation. -/
theorem cos_done (c : Dev nD) (b : Fin 16) (W : Img.Idx → EReal)
    (hW : ∀ k : S16x768x768.Idx, (V m c main_v52 : S16x768x768.Idx → EReal) k = W (ix4 (k 0 : Fin 16) (0 : Fin 1) (k 1 : Fin 768) (k 2 : Fin 768)))
    (y : S1x1x1.Idx) :
    (accAt m c (lastPt b).val (lastPt b).isLt).2 y = accumulated (1 : Fin 2) W (predArr m c) (truthArr m c) b := by
  rw [accAt_later m c (lastPt b) (by show ¬(2 * b.val + 1) % 2 = 0; omega)]
  dsimp only
  rw [cosLater_eq]
  refine (cosUpdate_apply _ _ y).trans ?_
  rw [cosSum_eq]
  refine (congrArg₂ (· + ·) rfl (block_loss_cos m c (lastPt b) W hW)).trans ?_
  rw [imgOf_lastPt, rowOf_lastPt,
    accAt_congr m c (show (lastPt b).val - 1 = (firstPt b).val from by show 2 * b.val + 1 - 1 = 2 * b.val; omega) _ (firstPt b).isLt,
    cos_after_first m c b W hW]
  rfl

/-- The cos result array after the run: image `b`'s entry is the specification's accumulation. -/
theorem final_cos (c : Dev nD) (W : Img.Idx → EReal)
    (hW : ∀ k : S16x768x768.Idx, (V m c main_v52 : S16x768x768.Idx → EReal) k = W (ix4 (k 0 : Fin 16) (0 : Fin 1) (k 1 : Fin 768) (k 2 : Fin 768))) :
    (dats m 0 c).arrAt 4 cfg0.N = (fun i : S16x1x1.Idx => accumulated (1 : Fin 2) W (predArr m c) (truthArr m c) (i 0 : Fin 16)) := by
  refine (dats m 0 c).arrAt_eq_of_cover 4 _ (fun t hf => ?_) (fun i => ?_)
  · -- an odd point `t` closes image `t / 2` and writes the accumulator back to that image's entry
    have hodd : t.val % 2 = 1 := (flush0_4 t).mp hf
    have hi := cos_index t
    have ht : t.val = (lastPt (imgOf t)).val := by show t.val = 2 * (t.val / 2) + 1; omega
    funext y
    have hy0 : (y 0).val = 0 := by have : (y 0).val < 1 := (y 0).isLt; omega
    rw [View.read_apply]
    show (accAt m c t.val t.isLt).2 _ = accumulated (1 : Fin 2) W (predArr m c) (truthArr m c) _
    rw [accAt_congr m c ht t.isLt (lastPt (imgOf t)).isLt, cos_done m c (imgOf t) W hW]
    refine congrArg (accumulated (1 : Fin 2) W (predArr m c) (truthArr m c)) (Fin.ext ?_)
    show t.val / 2 = win0_4.index t 0 * 1 + 1 * (y 0).val
    rw [hi.1, hy0]; omega
  · -- every image's entry is written back by the image's last point
    have hi0 : (i 0).val < 16 := (i 0).isLt
    have hi1 : (i 1).val < 1 := (i 1).isLt
    have hi2 : (i 2).val < 1 := (i 2).isLt
    refine ⟨lastPt (i 0 : Fin 16), (flush0_4 _).mpr (by show (2 * (i 0).val + 1) % 2 = 1; omega), ?_⟩
    have hi := cos_index (lastPt (i 0 : Fin 16))
    have hq : (lastPt (i 0 : Fin 16)).val / 2 = (i 0).val := by show (2 * (i 0).val + 1) / 2 = (i 0).val; omega
    show i ∈ ((View.whole main_v53_1).slice (win0_4.rect (lastPt (i 0 : Fin 16)))).set
    rw [View.set_slice_whole, Rect.mem_set_unit]
    intro a
    match a with
    | ⟨0, _⟩ =>
      show win0_4.index (lastPt (i 0 : Fin 16)) 0 * 1 ≤ (i 0 : Nat) ∧ (i 0 : Nat) < win0_4.index (lastPt (i 0 : Fin 16)) 0 * 1 + 1
      rw [hi.1, hq]; omega
    | ⟨1, _⟩ =>
      show win0_4.index (lastPt (i 0 : Fin 16)) 1 * 1 ≤ (i 1 : Nat) ∧ (i 1 : Nat) < win0_4.index (lastPt (i 0 : Fin 16)) 1 * 1 + 1
      rw [hi.2.1]; omega
    | ⟨2, _⟩ =>
      show win0_4.index (lastPt (i 0 : Fin 16)) 2 * 1 ≤ (i 2 : Nat) ∧ (i 2 : Nat) < win0_4.index (lastPt (i 0 : Fin 16)) 2 * 1 + 1
      rw [hi.2.2]; omega

end Cert.KernelIdeal.Hand

end
-- ==== Proof.IdealHost.lean ====
/-
  The host lines after the kernel's region, at the ideal instance: each of the five results is the epilogue of the two
  result arrays (viewed as length-16 vectors) and of the prediction; and the region leaves the two result arrays at what
  the pipeline wrote back, the prediction as launched.
-/
import proofs.«105772_j77627238908096_1_alg».proof.Proof.IdealTotals
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

/-! ## The epilogue, as a function of the two sums and the prediction -/

def ones : FVec Ideal S16 .f32 := broadcastInDim S16 ![] bcast_S_S16 (constant (F := Ideal) S_ .f32 0x3F800000#32)
def zeros : FVec Ideal S16 .f32 := broadcastInDim S16 ![] bcast_S_S16 (constant (F := Ideal) S_ .f32 0x00000000#32)
def eps (p : FVec Ideal S16x2x768x768 .f32) : FVec Ideal S16 .f32 :=
  broadcastInDim S16 ![] bcast_S_S16
    (mulf (F := Ideal) (Host.reduceAdd (F := Ideal) p (constant (F := Ideal) S_ .f32 0x00000000#32) reducesTo_S16x2x768x768_S_d0_1_2_3 h_S_)
      (constant (F := Ideal) S_ .f32 0x00000000#32))
def out0 (S C : FVec Ideal S16 .f32) (p : FVec Ideal S16x2x768x768 .f32) : FVec Ideal S16 .f32 :=
  addf (addf (addf (mulf ones S) (mulf ones C)) (mulf ones zeros)) (eps p)
def out1 (S C : FVec Ideal S16 .f32) (p : FVec Ideal S16x2x768x768 .f32) : FVec Ideal S16 .f32 :=
  addf (addf (mulf ones S) (mulf ones C)) (eps p)
def out2 (p : FVec Ideal S16x2x768x768 .f32) : FVec Ideal S16 .f32 := addf (mulf ones zeros) (eps p)
def out3 (S : FVec Ideal S16 .f32) (p : FVec Ideal S16x2x768x768 .f32) : FVec Ideal S16 .f32 := addf (mulf ones S) (eps p)
def out4 (C : FVec Ideal S16 .f32) (p : FVec Ideal S16x2x768x768 .f32) : FVec Ideal S16 .f32 := addf (mulf ones C) (eps p)

/-- A 16 × 1 × 1 result array viewed as a length-16 vector. -/
def asVec (x : FVec Ideal S16x1x1 .f32) : FVec Ideal S16 .f32 := shapeCast S16 x shapeCasts_S16x1x1_S16

theorem asVec_apply (x : FVec Ideal S16x1x1 .f32) (b : Fin 16) : asVec x (ix1 b) = x (ix3 b (0 : Fin 1) (0 : Fin 1)) := by
  unfold asVec
  refine shapeCast_apply x shapeCasts_S16x1x1_S16 _ _ ?_
  rw [Shape.rowMajor_val_one, Shape.rowMajor_val_three]
  show (b.val * 1 + 0) * 1 + 0 = b.val
  omega

/-! ## The tail over any contents of the buffers it reads -/

theorem tail_out0 (X : Valuation τ sig (Elt Ideal)) :
    after hostOps1 X (Proc.devRef .tc main_v68)
      = out0 (asVec (X (Proc.devRef .tc main_v53_0))) (asVec (X (Proc.devRef .tc main_v53_1))) (X (Proc.devRef .tc main_arg0)) := by
  after_results_simp <;> rfl
theorem tail_out1 (X : Valuation τ sig (Elt Ideal)) :
    after hostOps1 X (Proc.devRef .tc main_v70)
      = out1 (asVec (X (Proc.devRef .tc main_v53_0))) (asVec (X (Proc.devRef .tc main_v53_1))) (X (Proc.devRef .tc main_arg0)) := by
  after_results_simp <;> rfl
theorem tail_out2 (X : Valuation τ sig (Elt Ideal)) :
    after hostOps1 X (Proc.devRef .tc main_v72) = out2 (X (Proc.devRef .tc main_arg0)) := by
  after_results_simp <;> rfl
theorem tail_out3 (X : Valuation τ sig (Elt Ideal)) :
    after hostOps1 X (Proc.devRef .tc main_v74) = out3 (asVec (X (Proc.devRef .tc main_v53_0))) (X (Proc.devRef .tc main_arg0)) := by
  after_results_simp <;> rfl
theorem tail_out4 (X : Valuation τ sig (Elt Ideal)) :
    after hostOps1 X (Proc.devRef .tc main_v76) = out4 (asVec (X (Proc.devRef .tc main_v53_1))) (X (Proc.devRef .tc main_arg0)) := by
  after_results_simp <;> rfl

/-! ## What the region leaves -/

/-- The buffers' contents when the region is left: the pipeline's arrays at what the write-backs made them, every other
    buffer as the region found it. -/
abbrev exitVal (c : Dev nD) : Valuation τ sig (Elt Ideal) :=
  Pipeline.withArrays spec0 c (V0 m c) (fun w => (dats m 0 c).arrAt w cfg0.N)

theorem tail_eq (c : Dev nD) (b : Ref sig .tc) :
    Pipeline.afterTail₀ cfgs (dats m) 0 (V0 m) [hostOps1] c b = after hostOps1 (exitVal m c) (Proc.devRef .tc b) := by
  unfold Pipeline.afterTail₀
  simp only [List.flatten_cons, List.flatten_nil, List.append_nil]

theorem exit_sin (c : Dev nD) : exitVal m c (Proc.devRef .tc main_v53_0) = (dats m 0 c).arrAt 3 cfg0.N :=
  Pipeline.withArrays_arr spec0 launch0.win.arr_inj c _ _ 3
theorem exit_cos (c : Dev nD) : exitVal m c (Proc.devRef .tc main_v53_1) = (dats m 0 c).arrAt 4 cfg0.N :=
  Pipeline.withArrays_arr spec0 launch0.win.arr_inj c _ _ 4
theorem exit_pred (c : Dev nD) : exitVal m c (Proc.devRef .tc main_arg0) = m ((c.tc : Thread nD τ).loc main_arg0) :=
  (Pipeline.withArrays_arr spec0 launch0.win.arr_inj c _ _ 0).trans
    (((dats m 0 c).arrAt_in 0 rfl _).trans ((A_eq m c 0).trans (V_main_arg0 m c)))

end Cert.KernelIdeal.Hand

end
-- ==== Proof.RefLoss.lean ====
/-
  The reference program at the ideal instance, read over its three parts: the channel slices, the weight table (kept
  folded: it is the same table the kernel program computes), and the loss part. Each of the five results is the epilogue
  of the two weighted sums; each weighted sum, at image `b`, is zero plus the specification's image loss.
-/
import proofs.«105772_j77627238908096_1_alg».proof.Proof.RefRun
import proofs.«105772_j77627238908096_1_alg».proof.Proof.LossSpec
import Idealize.ShloMosaic.Lib.Pipeline.Frame
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LossSpec Cert.RowBlocks

variable (m : (ℓ : Loc nD τ sig) → Buf (Elt Ideal) ℓ)

/-! ## The epilogue, as a function of the two sums and the prediction -/

/-- The all-ones and all-zeros vectors the epilogue multiplies by and adds. -/
def ones : FVec Ideal S16 .f32 := broadcastInDim S16 ![] bcast_S_S16 (constant (F := Ideal) S_ .f32 0x3F800000#32)
def zeros : FVec Ideal S16 .f32 := broadcastInDim S16 ![] bcast_S_S16 (constant (F := Ideal) S_ .f32 0x00000000#32)
/-- The term every result carries: the prediction's total times zero, broadcast. -/
def eps (p : FVec Ideal S16x2x768x768 .f32) : FVec Ideal S16 .f32 :=
  broadcastInDim S16 ![] bcast_S_S16
    (mulf (F := Ideal) (Host.reduceAdd (F := Ideal) p (constant (F := Ideal) S_ .f32 0x00000000#32) reducesTo_S16x2x768x768_S_d0_1_2_3 h_S_)
      (constant (F := Ideal) S_ .f32 0x00000000#32))
/-- The five results from the sine sum `S`, the cosine sum `C` and the prediction `p`. -/
def out0 (S C : FVec Ideal S16 .f32) (p : FVec Ideal S16x2x768x768 .f32) : FVec Ideal S16 .f32 :=
  addf (addf (addf (mulf ones S) (mulf ones C)) (mulf ones zeros)) (eps p)
def out1 (S C : FVec Ideal S16 .f32) (p : FVec Ideal S16x2x768x768 .f32) : FVec Ideal S16 .f32 :=
  addf (addf (mulf ones S) (mulf ones C)) (eps p)
def out2 (p : FVec Ideal S16x2x768x768 .f32) : FVec Ideal S16 .f32 := addf (mulf ones zeros) (eps p)
def out3 (S : FVec Ideal S16 .f32) (p : FVec Ideal S16x2x768x768 .f32) : FVec Ideal S16 .f32 := addf (mulf ones S) (eps p)
def out4 (C : FVec Ideal S16 .f32) (p : FVec Ideal S16x2x768x768 .f32) : FVec Ideal S16 .f32 := addf (mulf ones C) (eps p)

/-- A weighted sum of absolute differences over each image: the host's reduction of `w · |u − v|` over the three
    trailing axes, from zero. -/
def sumOver (w u v : FVec Ideal S16x1x768x768 .f32) : FVec Ideal S16 .f32 :=
  Host.reduceAdd (F := Ideal) (mulf (F := Ideal) w (Host.absf (F := Ideal) (subf (F := Ideal) u v)))
    (constant (F := Ideal) S_ .f32 0x00000000#32) reducesTo_S16x1x768x768_S16_d1_2_3 h_S_

/-! ## The loss part over any contents of the buffers it reads -/

theorem loss_out0 (X : Valuation τ sig (Elt Ideal)) :
    after opsLoss X (Proc.devRef .tc main_v76)
      = out0 (sumOver (X (Proc.devRef .tc main_v55)) (X (Proc.devRef .tc main_v0)) (X (Proc.devRef .tc main_v2)))
             (sumOver (X (Proc.devRef .tc main_v55)) (X (Proc.devRef .tc main_v1)) (X (Proc.devRef .tc main_v3)))
             (X (Proc.devRef .tc main_arg0)) := by
  after_results_simp <;> rfl
theorem loss_out1 (X : Valuation τ sig (Elt Ideal)) :
    after opsLoss X (Proc.devRef .tc main_v78)
      = out1 (sumOver (X (Proc.devRef .tc main_v55)) (X (Proc.devRef .tc main_v0)) (X (Proc.devRef .tc main_v2)))
             (sumOver (X (Proc.devRef .tc main_v55)) (X (Proc.devRef .tc main_v1)) (X (Proc.devRef .tc main_v3)))
             (X (Proc.devRef .tc main_arg0)) := by
  after_results_simp <;> rfl
theorem loss_out2 (X : Valuation τ sig (Elt Ideal)) :
    after opsLoss X (Proc.devRef .tc main_v80) = out2 (X (Proc.devRef .tc main_arg0)) := by
  after_results_simp <;> rfl
theorem loss_out3 (X : Valuation τ sig (Elt Ideal)) :
    after opsLoss X (Proc.devRef .tc main_v82)
      = out3 (sumOver (X (Proc.devRef .tc main_v55)) (X (Proc.devRef .tc main_v0)) (X (Proc.devRef .tc main_v2))) (X (Proc.devRef .tc main_arg0)) := by
  after_results_simp <;> rfl
theorem loss_out4 (X : Valuation τ sig (Elt Ideal)) :
    after opsLoss X (Proc.devRef .tc main_v84)
      = out4 (sumOver (X (Proc.devRef .tc main_v55)) (X (Proc.devRef .tc main_v1)) (X (Proc.devRef .tc main_v3))) (X (Proc.devRef .tc main_arg0)) := by
  after_results_simp <;> rfl

/-! ## The buffers the loss part reads -/

/-- The buffers' contents after the slices and the weight table. -/
abbrev mid (c : Dev nD) : Valuation τ sig (Elt Ideal) := after opsWeights (after opsSlices (launchContents m c))

/-- The run's fold, cut at the loss part. -/
theorem after_ops (c : Dev nD) (b : DevRef τ sig) : after ops (launchContents m c) b = after opsLoss (mid m c) b := by
  rw [ops_split, after_append, after_append]

theorem mid_v0 (c : Dev nD) :
    mid m c (Proc.devRef .tc main_v0)
      = extractStridedSlice S16x1x768x768 ![0, 0, 0, 0] (m ((c.tc : Thread nD τ).loc main_arg0)) slices_S16x2x768x768_S16x1x768x768_0_0_0_0 := by
  unfold mid
  rw [after_of_forall_not_mem (b := Proc.devRef .tc main_v0) _ _ (List.forall_iff_forall_mem.mp (by
    simp only [opsWeights, List.Forall, nullary_writes, unary_writes, binary_writes, ternary_writes, quaternary_writes, reshape_writes, binaryIndexed_writes, Finset.mem_singleton]
    repeat' apply And.intro
    all_goals exact devRef_ne_of_ne (by decide)))]
  after_results

theorem mid_v1 (c : Dev nD) :
    mid m c (Proc.devRef .tc main_v1)
      = extractStridedSlice S16x1x768x768 ![0, 1, 0, 0] (m ((c.tc : Thread nD τ).loc main_arg0)) slices_S16x2x768x768_S16x1x768x768_0_1_0_0 := by
  unfold mid
  rw [after_of_forall_not_mem (b := Proc.devRef .tc main_v1) _ _ (List.forall_iff_forall_mem.mp (by
    simp only [opsWeights, List.Forall, nullary_writes, unary_writes, binary_writes, ternary_writes, quaternary_writes, reshape_writes, binaryIndexed_writes, Finset.mem_singleton]
    repeat' apply And.intro
    all_goals exact devRef_ne_of_ne (by decide)))]
  after_results

theorem mid_v2 (c : Dev nD) :
    mid m c (Proc.devRef .tc main_v2)
      = extractStridedSlice S16x1x768x768 ![0, 2, 0, 0] (m ((c.tc : Thread nD τ).loc main_arg3)) slices_S16x5x768x768_S16x1x768x768_0_2_0_0 := by
  unfold mid
  rw [after_of_forall_not_mem (b := Proc.devRef .tc main_v2) _ _ (List.forall_iff_forall_mem.mp (by
    simp only [opsWeights, List.Forall, nullary_writes, unary_writes, binary_writes, ternary_writes, quaternary_writes, reshape_writes, binaryIndexed_writes, Finset.mem_singleton]
    repeat' apply And.intro
    all_goals exact devRef_ne_of_ne (by decide)))]
  after_results

theorem mid_v3 (c : Dev nD) :
    mid m c (Proc.devRef .tc main_v3)
      = extractStridedSlice S16x1x768x768 ![0, 3, 0, 0] (m ((c.tc : Thread nD τ).loc main_arg3)) slices_S16x5x768x768_S16x1x768x768_0_3_0_0 := by
  unfold mid
  rw [after_of_forall_not_mem (b := Proc.devRef .tc main_v3) _ _ (List.forall_iff_forall_mem.mp (by
    simp only [opsWeights, List.Forall, nullary_writes, unary_writes, binary_writes, ternary_writes, quaternary_writes, reshape_writes, binaryIndexed_writes, Finset.mem_singleton]
    repeat' apply And.intro
    all_goals exact devRef_ne_of_ne (by decide)))]
  after_results

/-- The prediction is written by no operation. -/
theorem mid_arg0 (c : Dev nD) : mid m c (Proc.devRef .tc main_arg0) = m ((c.tc : Thread nD τ).loc main_arg0) := by
  unfold mid
  rw [after_of_forall_not_mem (b := Proc.devRef .tc main_arg0) _ _ (List.forall_iff_forall_mem.mp (by
    simp only [opsWeights, List.Forall, nullary_writes, unary_writes, binary_writes, ternary_writes, quaternary_writes, reshape_writes, binaryIndexed_writes, Finset.mem_singleton]
    repeat' apply And.intro
    all_goals exact devRef_ne_of_ne (by decide))),
    after_of_forall_not_mem (b := Proc.devRef .tc main_arg0) _ _ (List.forall_iff_forall_mem.mp (by
    simp only [opsSlices, List.Forall, nullary_writes, unary_writes, binary_writes, ternary_writes, quaternary_writes, reshape_writes, binaryIndexed_writes, Finset.mem_singleton]
    repeat' apply And.intro
    all_goals exact devRef_ne_of_ne (by decide)))]

/-- The weight table, as the two integer arguments determine it: kept folded. -/
abbrev weights (c : Dev nD) : FVec Ideal S16x1x768x768 .f32 := mid m c (Proc.devRef .tc main_v55)

end Cert.ReferenceIdeal.Hand

end
-- ==== Proof.RefSums.lean ====
/-
  The reference's two weighted sums, read at an image: the host's reduction over the three trailing axes of
  `w · |u − v|` from zero is zero plus the sum over the image's pixels, and the channel slices read the prediction's and
  the ground truth's channels at the pixel.
-/
import proofs.«105772_j77627238908096_1_alg».proof.Proof.RefLoss

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LossSpec Cert.RowBlocks

/-- An index of the 16 × 1 × 768 × 768 array reduces to image `b` exactly when its leading coordinate is `b`. -/
theorem drop_iff (i : S16x1x768x768.Idx) (b : Fin 16) :
    (reducesTo_S16x1x768x768_S16_d1_2_3.drop i = (ix1 b : S16.Idx)) ↔ (i 0).val = b.val := by
  have hd : ((reducesTo_S16x1x768x768_S16_d1_2_3.drop i) (0 : Fin 1) : Nat) = (i 0).val :=
    Shape.ReducesTo.drop_apply_val_of_eq reducesTo_S16x1x768x768_S16_d1_2_3 i (0 : Fin 1) (0 : Fin 4)
  constructor
  · intro h
    rw [← hd, h]
  · intro h
    funext a
    apply Fin.ext
    match a with
    | ⟨0, _⟩ => exact hd.trans h

/-- The sin sum at image `b`: zero plus the specification's image loss on channel 0. -/
theorem sinSum_apply (w : FVec Ideal S16x1x768x768 .f32) (p : FVec Ideal S16x2x768x768 .f32) (g : FVec Ideal S16x5x768x768 .f32) (b : Fin 16) :
    sumOver w (extractStridedSlice S16x1x768x768 ![0, 0, 0, 0] p slices_S16x2x768x768_S16x1x768x768_0_0_0_0) (extractStridedSlice S16x1x768x768 ![0, 2, 0, 0] g slices_S16x5x768x768_S16x1x768x768_0_2_0_0) (ix1 b)
      = 0 + imageLoss (0 : Fin 2) w p g b := by
  unfold sumOver Host.reduceAdd
  rw [Ideal.hostReduceAdd_def]
  unfold Ideal.hostReduceAdd imageLoss
  refine congrArg₂ (fun a b : EReal => a + b) Ideal.ofBits_zero_f32 (Finset.sum_congr (Finset.filter_congr fun i _ => drop_iff i b) fun i _ => ?_)
  have hi1 : (i 1).val = 0 := by have : (i 1).val < 1 := (i 1).isLt; omega
  have hu : extractStridedSlice S16x1x768x768 ![0, 0, 0, 0] p slices_S16x2x768x768_S16x1x768x768_0_0_0_0 i = p (ix4 (i 0 : Fin 16) (0 : Fin 2) (i 2 : Fin 768) (i 3 : Fin 768)) :=
    extractStridedSlice_apply _ p _ i _ fun a => by
      match a with
      | ⟨0, _⟩ => show (i 0).val = 0 + (i 0).val; omega
      | ⟨1, _⟩ => show 0 = 0 + (i 1).val; omega
      | ⟨2, _⟩ => show (i 2).val = 0 + (i 2).val; omega
      | ⟨3, _⟩ => show (i 3).val = 0 + (i 3).val; omega
  have hv : extractStridedSlice S16x1x768x768 ![0, 2, 0, 0] g slices_S16x5x768x768_S16x1x768x768_0_2_0_0 i = g (ix4 (i 0 : Fin 16) (truthChan (0 : Fin 2)) (i 2 : Fin 768) (i 3 : Fin 768)) :=
    extractStridedSlice_apply _ g _ i _ fun a => by
      match a with
      | ⟨0, _⟩ => show (i 0).val = 0 + (i 0).val; omega
      | ⟨1, _⟩ => show 2 = 2 + (i 1).val; omega
      | ⟨2, _⟩ => show (i 2).val = 0 + (i 2).val; omega
      | ⟨3, _⟩ => show (i 3).val = 0 + (i 3).val; omega
  have hd := congrArg₂ (fun a b : EReal => a - b) hu hv
  unfold pixelTerm
  exact congrArg₂ (fun a b : EReal => a * b) rfl (congrArg₂ (fun a b : EReal => max a b) hd (congrArg (fun a : EReal => -a) hd))

/-- The cos sum at image `b`: zero plus the specification's image loss on channel 1. -/
theorem cosSum_apply (w : FVec Ideal S16x1x768x768 .f32) (p : FVec Ideal S16x2x768x768 .f32) (g : FVec Ideal S16x5x768x768 .f32) (b : Fin 16) :
    sumOver w (extractStridedSlice S16x1x768x768 ![0, 1, 0, 0] p slices_S16x2x768x768_S16x1x768x768_0_1_0_0) (extractStridedSlice S16x1x768x768 ![0, 3, 0, 0] g slices_S16x5x768x768_S16x1x768x768_0_3_0_0) (ix1 b)
      = 0 + imageLoss (1 : Fin 2) w p g b := by
  unfold sumOver Host.reduceAdd
  rw [Ideal.hostReduceAdd_def]
  unfold Ideal.hostReduceAdd imageLoss
  refine congrArg₂ (fun a b : EReal => a + b) Ideal.ofBits_zero_f32 (Finset.sum_congr (Finset.filter_congr fun i _ => drop_iff i b) fun i _ => ?_)
  have hi1 : (i 1).val = 0 := by have : (i 1).val < 1 := (i 1).isLt; omega
  have hu : extractStridedSlice S16x1x768x768 ![0, 1, 0, 0] p slices_S16x2x768x768_S16x1x768x768_0_1_0_0 i = p (ix4 (i 0 : Fin 16) (1 : Fin 2) (i 2 : Fin 768) (i 3 : Fin 768)) :=
    extractStridedSlice_apply _ p _ i _ fun a => by
      match a with
      | ⟨0, _⟩ => show (i 0).val = 0 + (i 0).val; omega
      | ⟨1, _⟩ => show 1 = 1 + (i 1).val; omega
      | ⟨2, _⟩ => show (i 2).val = 0 + (i 2).val; omega
      | ⟨3, _⟩ => show (i 3).val = 0 + (i 3).val; omega
  have hv : extractStridedSlice S16x1x768x768 ![0, 3, 0, 0] g slices_S16x5x768x768_S16x1x768x768_0_3_0_0 i = g (ix4 (i 0 : Fin 16) (truthChan (1 : Fin 2)) (i 2 : Fin 768) (i 3 : Fin 768)) :=
    extractStridedSlice_apply _ g _ i _ fun a => by
      match a with
      | ⟨0, _⟩ => show (i 0).val = 0 + (i 0).val; omega
      | ⟨1, _⟩ => show 3 = 3 + (i 1).val; omega
      | ⟨2, _⟩ => show (i 2).val = 0 + (i 2).val; omega
      | ⟨3, _⟩ => show (i 3).val = 0 + (i 3).val; omega
  have hd := congrArg₂ (fun a b : EReal => a - b) hu hv
  unfold pixelTerm
  exact congrArg₂ (fun a b : EReal => a * b) rfl (congrArg₂ (fun a b : EReal => max a b) hd (congrArg (fun a : EReal => -a) hd))

end Cert.ReferenceIdeal.Hand

end
-- ==== Proof.BridgeWeights.lean ====
/-
  The per-pixel weight table is one function of the instance ids and the labels in both programs: the kernel program
  computes it by the same host operations as the reference and then views the 16 × 1 × 768 × 768 table as 16 × 768 × 768 for
  its pallas call. Here, and only here, the two folds over those operations are evaluated and compared.
-/
import proofs.«105772_j77627238908096_1_alg».proof.Proof.IdealTotals
import proofs.«105772_j77627238908096_1_alg».proof.Proof.RefLoss

set_option maxRecDepth 16384

noncomputable section

namespace Cert.Bridge

open Idealize.ShloMosaic Idealize.ShloMosaic.TcCoe Idealize.ShloMosaic.ValueIdx Idealize.ShloMosaic.StableHlo
open Idealize.SL.Sem

/-- The two programs' memories. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- A concatenation of two operands, with the operands as plain arguments (the library's takes a list of shape-and-vector
    pairs, and its shape fact mentions that list, which a rewriting pass cannot then enter). -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem concat2_def {α : Type} (t : Shape) (a : Fin t.rank) (s1 s2 : Shape) (h : Shape.Concatenates [s1, s2] t a)
    (x : s1.Idx → α) (y : s2.Idx → α) : concatenate t a [⟨s1, x⟩, ⟨s2, y⟩] h = concat2 t a s1 s2 h x y := rfl

set_option maxHeartbeats 4000000 in
/-- From memories that agree on the instance ids and the labels, the kernel program's weights are the reference's table
    viewed without its unit axis. -/
theorem weights_agree (m : KMem) (m' : RMem) (c : Dev Cert.KernelIdeal.nD)
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)) :
    (Cert.KernelIdeal.Gen.V m c Cert.KernelIdeal.main_v52 : Cert.KernelIdeal.S16x768x768.Idx → EReal)
      = shapeCast Cert.KernelIdeal.S16x768x768 (Cert.ReferenceIdeal.Hand.weights m' c) Cert.KernelIdeal.Gen.shapeCasts_S16x1x768x768_S16x768x768 := by
  have h1' : launchContents m' c (Proc.devRef .tc Cert.ReferenceIdeal.main_arg1) = m (c, Proc.devRef .tc Cert.KernelIdeal.main_arg1) := h1
  have h2' : launchContents m' c (Proc.devRef .tc Cert.ReferenceIdeal.main_arg2) = m (c, Proc.devRef .tc Cert.KernelIdeal.main_arg2) := h2
  unfold Cert.ReferenceIdeal.Hand.weights Cert.ReferenceIdeal.Hand.mid
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6,
    List.flatten_cons, List.flatten_nil, List.append_nil, List.cons_append, List.nil_append]
  after_results_simp
  simp only [concat2_def]
  after_results_simp
  rw [h1', h2']
  rfl

end Cert.Bridge

end
-- ==== Proof.Bridge.lean ====
/-
  The two programs compute the same five results. The kernel's two result arrays hold, per image, the specification's
  accumulation (zero, plus the first row block's part, plus the second's); the reference's two sums are zero plus the image's
  whole loss; the specification says these agree. The epilogue is one function of the two sums and the prediction in both
  programs.
-/
import proofs.«105772_j77627238908096_1_alg».proof.Proof.IdealHost
import proofs.«105772_j77627238908096_1_alg».proof.Proof.RefSums
import proofs.«105772_j77627238908096_1_alg».proof.Proof.BridgeWeights

set_option maxRecDepth 16384

noncomputable section

namespace Cert.Bridge

open Idealize.ShloMosaic Idealize.ShloMosaic.TcCoe Idealize.ShloMosaic.ValueIdx Idealize.ShloMosaic.StableHlo
open Idealize.SL.Sem

/-- The kernel program's weights at a pixel are the reference's table at that pixel (the unit axis restored). -/
theorem weights_at (m : KMem) (m' : RMem) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (k : Cert.KernelIdeal.S16x768x768.Idx) :
    (Cert.KernelIdeal.Gen.V m c Cert.KernelIdeal.main_v52 : Cert.KernelIdeal.S16x768x768.Idx → EReal) k
      = (Cert.ReferenceIdeal.Hand.weights m' c : Cert.RowBlocks.Img.Idx → EReal) (ix4 (k 0 : Fin 16) (0 : Fin 1) (k 1 : Fin 768) (k 2 : Fin 768)) := by
  refine (congrFun (weights_agree m m' c h1 h2) k).trans ?_
  refine shapeCast_apply _ _ k _ ?_
  rw [Shape.rowMajor_val_four, Shape.rowMajor_val_three]
  show (((k 0).val * 1 + 0) * 768 + (k 1).val) * 768 + (k 2).val = ((k 0).val * 768 + (k 1).val) * 768 + (k 2).val
  omega

/-- The sin result array, viewed as a vector, is the reference's sin sum. -/
theorem sin_agree (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.Hand.asVec ((Cert.KernelIdeal.Hand.dats m 0 c).arrAt 3 Cert.KernelIdeal.cfg0.N)
      = Cert.ReferenceIdeal.Hand.sumOver (Cert.ReferenceIdeal.Hand.weights m' c)
          (extractStridedSlice Cert.ReferenceIdeal.S16x1x768x768 ![0, 0, 0, 0] (m' ((c.tc : Thread Cert.ReferenceIdeal.nD Cert.ReferenceIdeal.τ).loc Cert.ReferenceIdeal.main_arg0)) Cert.ReferenceIdeal.Gen.slices_S16x2x768x768_S16x1x768x768_0_0_0_0)
          (extractStridedSlice Cert.ReferenceIdeal.S16x1x768x768 ![0, 2, 0, 0] (m' ((c.tc : Thread Cert.ReferenceIdeal.nD Cert.ReferenceIdeal.τ).loc Cert.ReferenceIdeal.main_arg3)) Cert.ReferenceIdeal.Gen.slices_S16x5x768x768_S16x1x768x768_0_2_0_0) := by
  funext j
  obtain ⟨b, rfl⟩ : ∃ b : Fin 16, j = ix1 b := ⟨j 0, eq_ix1 j⟩
  rw [Cert.KernelIdeal.Hand.asVec_apply, Cert.KernelIdeal.Hand.final_sin m c (Cert.ReferenceIdeal.Hand.weights m' c) (weights_at m m' c h1 h2), Cert.ReferenceIdeal.Hand.sinSum_apply, Cert.LossSpec.zero_add_imageLoss]
  show Cert.LossSpec.accumulated (0 : Fin 2) _ (Cert.KernelIdeal.Gen.V m c Cert.KernelIdeal.main_arg0) (Cert.KernelIdeal.Gen.V m c Cert.KernelIdeal.main_arg3) b = _
  rw [Cert.KernelIdeal.Gen.V_main_arg0, Cert.KernelIdeal.Gen.V_main_arg3, h0, h3]

/-- The cos result array, viewed as a vector, is the reference's cos sum. -/
theorem cos_agree (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.Hand.asVec ((Cert.KernelIdeal.Hand.dats m 0 c).arrAt 4 Cert.KernelIdeal.cfg0.N)
      = Cert.ReferenceIdeal.Hand.sumOver (Cert.ReferenceIdeal.Hand.weights m' c)
          (extractStridedSlice Cert.ReferenceIdeal.S16x1x768x768 ![0, 1, 0, 0] (m' ((c.tc : Thread Cert.ReferenceIdeal.nD Cert.ReferenceIdeal.τ).loc Cert.ReferenceIdeal.main_arg0)) Cert.ReferenceIdeal.Gen.slices_S16x2x768x768_S16x1x768x768_0_1_0_0)
          (extractStridedSlice Cert.ReferenceIdeal.S16x1x768x768 ![0, 3, 0, 0] (m' ((c.tc : Thread Cert.ReferenceIdeal.nD Cert.ReferenceIdeal.τ).loc Cert.ReferenceIdeal.main_arg3)) Cert.ReferenceIdeal.Gen.slices_S16x5x768x768_S16x1x768x768_0_3_0_0) := by
  funext j
  obtain ⟨b, rfl⟩ : ∃ b : Fin 16, j = ix1 b := ⟨j 0, eq_ix1 j⟩
  rw [Cert.KernelIdeal.Hand.asVec_apply, Cert.KernelIdeal.Hand.final_cos m c (Cert.ReferenceIdeal.Hand.weights m' c) (weights_at m m' c h1 h2), Cert.ReferenceIdeal.Hand.cosSum_apply, Cert.LossSpec.zero_add_imageLoss]
  show Cert.LossSpec.accumulated (1 : Fin 2) _ (Cert.KernelIdeal.Gen.V m c Cert.KernelIdeal.main_arg0) (Cert.KernelIdeal.Gen.V m c Cert.KernelIdeal.main_arg3) b = _
  rw [Cert.KernelIdeal.Gen.V_main_arg0, Cert.KernelIdeal.Gen.V_main_arg3, h0, h3]

/-! ## The five results -/

/-- The kernel's two sums and its prediction. -/
abbrev kS (m : KMem) (c : Dev Cert.KernelIdeal.nD) : FVec Ideal Cert.KernelIdeal.S16 .f32 := Cert.KernelIdeal.Hand.asVec ((Cert.KernelIdeal.Hand.dats m 0 c).arrAt 3 Cert.KernelIdeal.cfg0.N)
abbrev kC (m : KMem) (c : Dev Cert.KernelIdeal.nD) : FVec Ideal Cert.KernelIdeal.S16 .f32 := Cert.KernelIdeal.Hand.asVec ((Cert.KernelIdeal.Hand.dats m 0 c).arrAt 4 Cert.KernelIdeal.cfg0.N)
abbrev kP (m : KMem) (c : Dev Cert.KernelIdeal.nD) : FVec Ideal Cert.KernelIdeal.S16x2x768x768 .f32 := m ((c.tc : Thread Cert.KernelIdeal.nD Cert.KernelIdeal.τ).loc Cert.KernelIdeal.main_arg0)

def res0 (m : KMem) (c : Dev Cert.KernelIdeal.nD) : FVec Ideal Cert.KernelIdeal.S16 .f32 := Cert.KernelIdeal.Hand.out0 (kS m c) (kC m c) (kP m c)
def res1 (m : KMem) (c : Dev Cert.KernelIdeal.nD) : FVec Ideal Cert.KernelIdeal.S16 .f32 := Cert.KernelIdeal.Hand.out1 (kS m c) (kC m c) (kP m c)
def res2 (m : KMem) (c : Dev Cert.KernelIdeal.nD) : FVec Ideal Cert.KernelIdeal.S16 .f32 := Cert.KernelIdeal.Hand.out2 (kP m c)
def res3 (m : KMem) (c : Dev Cert.KernelIdeal.nD) : FVec Ideal Cert.KernelIdeal.S16 .f32 := Cert.KernelIdeal.Hand.out3 (kS m c) (kP m c)
def res4 (m : KMem) (c : Dev Cert.KernelIdeal.nD) : FVec Ideal Cert.KernelIdeal.S16 .f32 := Cert.KernelIdeal.Hand.out4 (kC m c) (kP m c)

/-- Result 0 of the kernel program. -/
theorem kernel_res0 (m : KMem) (c : Dev Cert.KernelIdeal.nD) :
    Pipeline.afterTail₀ Cert.KernelIdeal.cfgs (Cert.KernelIdeal.Hand.dats m) 0 (Cert.KernelIdeal.Gen.V0 m) [Cert.KernelIdeal.Gen.hostOps1] c Cert.KernelIdeal.main_v68 = res0 m c := by
  rw [Cert.KernelIdeal.Hand.tail_eq, Cert.KernelIdeal.Hand.tail_out0, Cert.KernelIdeal.Hand.exit_sin, Cert.KernelIdeal.Hand.exit_cos, Cert.KernelIdeal.Hand.exit_pred]
  rfl

/-- Result 0 of the reference, from a memory agreeing on the arguments: the same value. -/
theorem ref_res0 (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    after Cert.ReferenceIdeal.Hand.ops (launchContents m' c) (Proc.devRef .tc Cert.ReferenceIdeal.main_v76) = res0 m c := by
  rw [Cert.ReferenceIdeal.Hand.after_ops, Cert.ReferenceIdeal.Hand.loss_out0, Cert.ReferenceIdeal.Hand.mid_v0, Cert.ReferenceIdeal.Hand.mid_v1, Cert.ReferenceIdeal.Hand.mid_v2, Cert.ReferenceIdeal.Hand.mid_v3, Cert.ReferenceIdeal.Hand.mid_arg0]
  unfold res0
  rw [← sin_agree m m' c h0 h1 h2 h3, ← cos_agree m m' c h0 h1 h2 h3, h0]
  rfl

/-- Result 1 of the kernel program. -/
theorem kernel_res1 (m : KMem) (c : Dev Cert.KernelIdeal.nD) :
    Pipeline.afterTail₀ Cert.KernelIdeal.cfgs (Cert.KernelIdeal.Hand.dats m) 0 (Cert.KernelIdeal.Gen.V0 m) [Cert.KernelIdeal.Gen.hostOps1] c Cert.KernelIdeal.main_v70 = res1 m c := by
  rw [Cert.KernelIdeal.Hand.tail_eq, Cert.KernelIdeal.Hand.tail_out1, Cert.KernelIdeal.Hand.exit_sin, Cert.KernelIdeal.Hand.exit_cos, Cert.KernelIdeal.Hand.exit_pred]
  rfl

/-- Result 1 of the reference, from a memory agreeing on the arguments: the same value. -/
theorem ref_res1 (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    after Cert.ReferenceIdeal.Hand.ops (launchContents m' c) (Proc.devRef .tc Cert.ReferenceIdeal.main_v78) = res1 m c := by
  rw [Cert.ReferenceIdeal.Hand.after_ops, Cert.ReferenceIdeal.Hand.loss_out1, Cert.ReferenceIdeal.Hand.mid_v0, Cert.ReferenceIdeal.Hand.mid_v1, Cert.ReferenceIdeal.Hand.mid_v2, Cert.ReferenceIdeal.Hand.mid_v3, Cert.ReferenceIdeal.Hand.mid_arg0]
  unfold res1
  rw [← sin_agree m m' c h0 h1 h2 h3, ← cos_agree m m' c h0 h1 h2 h3, h0]
  rfl

/-- Result 2 of the kernel program. -/
theorem kernel_res2 (m : KMem) (c : Dev Cert.KernelIdeal.nD) :
    Pipeline.afterTail₀ Cert.KernelIdeal.cfgs (Cert.KernelIdeal.Hand.dats m) 0 (Cert.KernelIdeal.Gen.V0 m) [Cert.KernelIdeal.Gen.hostOps1] c Cert.KernelIdeal.main_v72 = res2 m c := by
  rw [Cert.KernelIdeal.Hand.tail_eq, Cert.KernelIdeal.Hand.tail_out2, Cert.KernelIdeal.Hand.exit_pred]
  rfl

/-- Result 2 of the reference, from a memory agreeing on the arguments: the same value. -/
theorem ref_res2 (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    after Cert.ReferenceIdeal.Hand.ops (launchContents m' c) (Proc.devRef .tc Cert.ReferenceIdeal.main_v80) = res2 m c := by
  rw [Cert.ReferenceIdeal.Hand.after_ops, Cert.ReferenceIdeal.Hand.loss_out2, Cert.ReferenceIdeal.Hand.mid_arg0]
  unfold res2
  rw [h0]
  rfl

/-- Result 3 of the kernel program. -/
theorem kernel_res3 (m : KMem) (c : Dev Cert.KernelIdeal.nD) :
    Pipeline.afterTail₀ Cert.KernelIdeal.cfgs (Cert.KernelIdeal.Hand.dats m) 0 (Cert.KernelIdeal.Gen.V0 m) [Cert.KernelIdeal.Gen.hostOps1] c Cert.KernelIdeal.main_v74 = res3 m c := by
  rw [Cert.KernelIdeal.Hand.tail_eq, Cert.KernelIdeal.Hand.tail_out3, Cert.KernelIdeal.Hand.exit_sin, Cert.KernelIdeal.Hand.exit_pred]
  rfl

/-- Result 3 of the reference, from a memory agreeing on the arguments: the same value. -/
theorem ref_res3 (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    after Cert.ReferenceIdeal.Hand.ops (launchContents m' c) (Proc.devRef .tc Cert.ReferenceIdeal.main_v82) = res3 m c := by
  rw [Cert.ReferenceIdeal.Hand.after_ops, Cert.ReferenceIdeal.Hand.loss_out3, Cert.ReferenceIdeal.Hand.mid_v0, Cert.ReferenceIdeal.Hand.mid_v2, Cert.ReferenceIdeal.Hand.mid_arg0]
  unfold res3
  rw [← sin_agree m m' c h0 h1 h2 h3, h0]
  rfl

/-- Result 4 of the kernel program. -/
theorem kernel_res4 (m : KMem) (c : Dev Cert.KernelIdeal.nD) :
    Pipeline.afterTail₀ Cert.KernelIdeal.cfgs (Cert.KernelIdeal.Hand.dats m) 0 (Cert.KernelIdeal.Gen.V0 m) [Cert.KernelIdeal.Gen.hostOps1] c Cert.KernelIdeal.main_v76 = res4 m c := by
  rw [Cert.KernelIdeal.Hand.tail_eq, Cert.KernelIdeal.Hand.tail_out4, Cert.KernelIdeal.Hand.exit_cos, Cert.KernelIdeal.Hand.exit_pred]
  rfl

/-- Result 4 of the reference, from a memory agreeing on the arguments: the same value. -/
theorem ref_res4 (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    after Cert.ReferenceIdeal.Hand.ops (launchContents m' c) (Proc.devRef .tc Cert.ReferenceIdeal.main_v84) = res4 m c := by
  rw [Cert.ReferenceIdeal.Hand.after_ops, Cert.ReferenceIdeal.Hand.loss_out4, Cert.ReferenceIdeal.Hand.mid_v1, Cert.ReferenceIdeal.Hand.mid_v3, Cert.ReferenceIdeal.Hand.mid_arg0]
  unfold res4
  rw [← cos_agree m m' c h0 h1 h2 h3, h0]
  rfl

end Cert.Bridge

end
-- ==== Proof.lean ====
/-
  A per-instance weighted L1 direction loss: for each of 16 images and each of the two direction channels (sine, cosine),

      loss[b]  =  Σ over the 768 × 768 pixels of   weight[b, pixel] · | prediction[b, channel, pixel] − truth[b, channel + 2, pixel] |,

  followed by a small epilogue (× 1, + 0, + (Σ prediction) · 0) that turns the two sums into five results.

  The kernel program and the reference compute the per-pixel weights by the same host operations. The reference then adds
  each image's 768 × 768 terms to zero in one reduction. The kernel's pallas call walks a grid of 16 images × 2 row blocks of
  384 rows: at an image's first row block it zeroes two one-word accumulators and adds the block's terms, at the second it adds
  that block's terms, and the accumulators are written back to the image's entry of two 16 × 1 × 1 arrays. So on the extended
  reals the kernel holds  (0 + Σ first 384 rows) + Σ last 384 rows  where the reference holds  0 + Σ all rows : equal because
  addition there is commutative and associative with unit zero — no input needs to be finite, and the precondition is never
  opened.

  The modules:  `IdealRunFirst`, `IdealRunLater`, `IdealFrame` (and `Bits…`, the same text for the program as printed) — the
  body's two runs, the accumulators point by point, the body obligation and the frame;  `IdealPieces`, `IdealPayload`,
  `IdealBlocks`, `IdealTotals` — what the accumulators hold, read down to the arrays;  `IdealHost` — the host lines after the
  region;  `RefRun`, `RefArgs`, `RefLoss`, `RefSums` — the reference's run and its two sums;  `LibRowBlocks`, `LossSpec` — the
  regrouping of an image's sum into two row blocks;  `BridgeWeights`, `Bridge` — the two programs' results are equal.
-/
import proofs.«105772_j77627238908096_1_alg».proof.Defs
import proofs.«105772_j77627238908096_1_alg».proof.Proof.Gen.Kernel
import proofs.«105772_j77627238908096_1_alg».proof.Proof.Gen.KernelIdeal
import proofs.«105772_j77627238908096_1_alg».proof.Proof.Gen.ReferenceIdeal
import proofs.«105772_j77627238908096_1_alg».proof.Proof.Gen.Pre_finite_inputs
import proofs.«105772_j77627238908096_1_alg».proof.Proof.BitsFrame
import proofs.«105772_j77627238908096_1_alg».proof.Proof.RefArgs
import proofs.«105772_j77627238908096_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The program as printed runs to the end, faults nowhere and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: a straight line of host operations, none of which writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.Hand.keeps_arg0 m c), (h c Cert.ReferenceIdeal.main_arg1).trans (Cert.ReferenceIdeal.Hand.keeps_arg1 m c),
      (h c Cert.ReferenceIdeal.main_arg2).trans (Cert.ReferenceIdeal.Hand.keeps_arg2 m c), (h c Cert.ReferenceIdeal.main_arg3).trans (Cert.ReferenceIdeal.Hand.keeps_arg3 m c)⟩)
    (Cert.ReferenceIdeal.Hand.run (F := Ideal) m ρ)

/-- The ideal pass rewrote nothing: the idealization is the program's own text read at the ideal instance. -/
theorem preserves : Cert.preserves_Kernel_KernelIdeal := trivial

/-- From memories agreeing on the four arguments both idealized programs run, and end with the same five results. -/
theorem algebraic : Cert.algebraic_KernelIdeal_ReferenceIdeal := by
  intro m ρ m' ρ' _ hagree
  refine ⟨Cert.Bridge.res0 m, Cert.Bridge.res1 m, Cert.Bridge.res2 m, Cert.Bridge.res3 m, Cert.Bridge.res4 m, ?_, ?_⟩
  · refine (θ_run Cert.KernelIdeal.defs _ _).mono (fun r h c => ?_) (Cert.KernelIdeal.Hand.run_main (F := Ideal) m ρ)
    have hc := h c
    exact ⟨(hc.2 Cert.KernelIdeal.main_v68 (Pipeline.mem_restRefs_of Cert.KernelIdeal.main_v68 (by decide) (by decide))).trans (Cert.Bridge.kernel_res0 m c),
      (hc.2 Cert.KernelIdeal.main_v70 (Pipeline.mem_restRefs_of Cert.KernelIdeal.main_v70 (by decide) (by decide))).trans (Cert.Bridge.kernel_res1 m c),
      (hc.2 Cert.KernelIdeal.main_v72 (Pipeline.mem_restRefs_of Cert.KernelIdeal.main_v72 (by decide) (by decide))).trans (Cert.Bridge.kernel_res2 m c),
      (hc.2 Cert.KernelIdeal.main_v74 (Pipeline.mem_restRefs_of Cert.KernelIdeal.main_v74 (by decide) (by decide))).trans (Cert.Bridge.kernel_res3 m c),
      (hc.2 Cert.KernelIdeal.main_v76 (Pipeline.mem_restRefs_of Cert.KernelIdeal.main_v76 (by decide) (by decide))).trans (Cert.Bridge.kernel_res4 m c),
      (hc.1 0).trans (((Cert.KernelIdeal.Hand.dats m 0 c).arrAt_in 0 rfl _).trans ((Cert.KernelIdeal.Hand.A_eq m c 0).trans (Cert.KernelIdeal.Gen.V_main_arg0 m c))),
      (hc.2 Cert.KernelIdeal.main_arg1 (Pipeline.mem_restRefs_of Cert.KernelIdeal.main_arg1 (by decide) (by decide))).trans (Cert.KernelIdeal.Gen.W_main_arg1 m (Cert.KernelIdeal.Hand.dats m) c),
      (hc.2 Cert.KernelIdeal.main_arg2 (Pipeline.mem_restRefs_of Cert.KernelIdeal.main_arg2 (by decide) (by decide))).trans (Cert.KernelIdeal.Gen.W_main_arg2 m (Cert.KernelIdeal.Hand.dats m) c),
      (hc.1 1).trans (((Cert.KernelIdeal.Hand.dats m 0 c).arrAt_in 1 rfl _).trans ((Cert.KernelIdeal.Hand.A_eq m c 1).trans (Cert.KernelIdeal.Gen.V_main_arg3 m c)))⟩
  · refine (θ_run Cert.ReferenceIdeal.defs _ _).mono (fun r h c => ?_) (Cert.ReferenceIdeal.Hand.run (F := Ideal) m' ρ')
    obtain ⟨h0, h1, h2, h3⟩ := hagree c
    exact ⟨(h c Cert.ReferenceIdeal.main_v76).trans (Cert.Bridge.ref_res0 m m' c h0 h1 h2 h3),
      (h c Cert.ReferenceIdeal.main_v78).trans (Cert.Bridge.ref_res1 m m' c h0 h1 h2 h3),
      (h c Cert.ReferenceIdeal.main_v80).trans (Cert.Bridge.ref_res2 m m' c h0 h1 h2 h3),
      (h c Cert.ReferenceIdeal.main_v82).trans (Cert.Bridge.ref_res3 m m' c h0 h1 h2 h3),
      (h c Cert.ReferenceIdeal.main_v84).trans (Cert.Bridge.ref_res4 m m' c h0 h1 h2 h3),
      (h c Cert.ReferenceIdeal.main_arg0).trans (Cert.ReferenceIdeal.Hand.keeps_arg0 m' c), (h c Cert.ReferenceIdeal.main_arg1).trans (Cert.ReferenceIdeal.Hand.keeps_arg1 m' c),
      (h c Cert.ReferenceIdeal.main_arg2).trans (Cert.ReferenceIdeal.Hand.keeps_arg2 m' c), (h c Cert.ReferenceIdeal.main_arg3).trans (Cert.ReferenceIdeal.Hand.keeps_arg3 m' c)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
